-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x75 : Shape := ⟨2, ![100000, 75]⟩
abbrev S2x1600000 : Shape := ⟨2, ![2, 1600000]⟩
abbrev S1600000x16 : Shape := ⟨2, ![1600000, 16]⟩
abbrev S75x64 : Shape := ⟨2, ![75, 64]⟩
abbrev S64 : Shape := ⟨1, ![64]⟩
abbrev S3x80x64 : Shape := ⟨3, ![3, 80, 64]⟩
abbrev S3x64 : Shape := ⟨2, ![3, 64]⟩
abbrev S3x128x64 : Shape := ⟨3, ![3, 128, 64]⟩
abbrev S_ : Shape := ⟨0, ![]⟩

class Facts : Prop where
  bcast_S_S100000x75 : S_.BroadcastsInDim S100000x75 (![] : Fin 0 → Fin S100000x75.rank)
  reducesTo_S100000x75_S_d0_1 : S100000x75.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S75x64 : S_.BroadcastsInDim S75x64 (![] : Fin 0 → Fin S75x64.rank)
  reducesTo_S75x64_S_d0_1 : S75x64.ReducesTo [0, 1] S_
  bcast_S_S64 : S_.BroadcastsInDim S64 (![] : Fin 0 → Fin S64.rank)
  reducesTo_S64_S_d0 : S64.ReducesTo [0] S_
  bcast_S_S3x80x64 : S_.BroadcastsInDim S3x80x64 (![] : Fin 0 → Fin S3x80x64.rank)
  reducesTo_S3x80x64_S_d0_1_2 : S3x80x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_

variable [Facts]

def fn_part2 {F : FTy → Type} [FloatOps F] (main_arg8 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg5 : FVec F S3x80x64 .f32) (main_arg6 : FVec F S3x64 .f32) (main_arg7 : FVec F S3x128x64 .f32) (main_arg8 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x80x64 .f32 := Host.absf main_arg5
  let main_cst_6 : FVec F S_ .f32 := constant S_ .f32 0x7F800000#32
  let main_v20 : FVec F S3x80x64 .f32 := broadcastInDim S3x80x64 ![] bcast_S_S3x80x64 main_cst_6
  let main_v21 : IVec S3x80x64 1 := cmpf .olt main_v19 main_v20
  let main_c_7 : IVec S_ 1 := constantI S_ 1 1#1
  let main_v22 : IVec S_ 1 := (fun x v => Host.reduce IntOp.andi x v reducesTo_S3x80x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x128x64 .f32 := Host.absf main_arg7
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg8 main_v33

def fn {F : FTy → Type} [FloatOps F] (main_arg0 : FVec F S100000x75 .f32) (main_arg1 : IVec S2x1600000 32) (main_arg2 : FVec F S1600000x16 .f32) (main_arg3 : FVec F S75x64 .f32) (main_arg4 : FVec F S64 .f32) (main_arg5 : FVec F S3x80x64 .f32) (main_arg6 : FVec F S3x64 .f32) (main_arg7 : FVec F S3x128x64 .f32) (main_arg8 : FVec F S3x64 .f32) : IVec S_ 1 :=
  let main_v0 : FVec F S100000x75 .f32 := Host.absf main_arg0
  let main_cst : FVec F S_ .f32 := constant S_ .f32 0x7F800000#32
  let main_v1 : FVec F S100000x75 .f32 := broadcastInDim S100000x75 ![] bcast_S_S100000x75 main_cst
  let main_v2 : IVec S100000x75 1 := cmpf .olt main_v0 main_v1
  let main_c : IVec S_ 1 := constantI S_ 1 1#1
  let main_v3 : IVec S_ 1 := (fun x v => Host.reduce IntOp.andi x v reducesTo_S100000x75_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S75x64 .f32 := Host.absf main_arg3
  let main_cst_2 : FVec F S_ .f32 := constant S_ .f32 0x7F800000#32
  let main_v10 : FVec F S75x64 .f32 := broadcastInDim S75x64 ![] bcast_S_S75x64 main_cst_2
  let main_v11 : IVec S75x64 1 := cmpf .olt main_v9 main_v10
  let main_c_3 : IVec S_ 1 := constantI S_ 1 1#1
  let main_v12 : IVec S_ 1 := (fun x v => Host.reduce IntOp.andi x v reducesTo_S75x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x75 : Shape := ⟨2, ![100000, 75]⟩
abbrev S2x1600000 : Shape := ⟨2, ![2, 1600000]⟩
abbrev S1600000x16 : Shape := ⟨2, ![1600000, 16]⟩
abbrev S75x64 : Shape := ⟨2, ![75, 64]⟩
abbrev S64 : Shape := ⟨1, ![64]⟩
abbrev S3x80x64 : Shape := ⟨3, ![3, 80, 64]⟩
abbrev S3x64 : Shape := ⟨2, ![3, 64]⟩
abbrev S3x128x64 : Shape := ⟨3, ![3, 128, 64]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x75 : Shape := ⟨2, ![10000, 75]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x16x64 : Shape := ⟨3, ![1, 16, 64]⟩
abbrev S16x64 : Shape := ⟨2, ![16, 64]⟩
abbrev S16000x64 : Shape := ⟨2, ![16000, 64]⟩
abbrev S16000x16 : Shape := ⟨2, ![16000, 16]⟩
abbrev S20000x64 : Shape := ⟨2, ![20000, 64]⟩

abbrev nBuf : Space → Nat
  | .hbm => 102
  | .vmem => 60
  | .smem => 0
  | _ => 0

abbrev bufTy : (tb : Table) → Fin (tcTables nBuf tb) → BufTy
  | .hbm, ⟨0, _⟩ => ⟨S100000x75, .f32⟩
  | .hbm, ⟨1, _⟩ => ⟨S2x1600000, .i32⟩
  | .hbm, ⟨2, _⟩ => ⟨S1600000x16, .f32⟩
  | .hbm, ⟨3, _⟩ => ⟨S75x64, .f32⟩
  | .hbm, ⟨4, _⟩ => ⟨S64, .f32⟩
  | .hbm, ⟨5, _⟩ => ⟨S3x80x64, .f32⟩
  | .hbm, ⟨6, _⟩ => ⟨S3x64, .f32⟩
  | .hbm, ⟨7, _⟩ => ⟨S3x128x64, .f32⟩
  | .hbm, ⟨8, _⟩ => ⟨S3x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x64, .f32⟩
  | .hbm, ⟨14, _⟩ => ⟨S100000x64, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1x64x64, .f32⟩
  | .hbm, ⟨25, _⟩ => ⟨S64x64, .f32⟩
  | .hbm, ⟨26, _⟩ => ⟨S1x16x64, .f32⟩
  | .hbm, ⟨27, _⟩ => ⟨S16x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S1x64x64, .f32⟩
  | .hbm, ⟨37, _⟩ => ⟨S64x64, .f32⟩
  | .hbm, ⟨38, _⟩ => ⟨S1x64x64, .f32⟩
  | .hbm, ⟨39, _⟩ => ⟨S64x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1x64x64, .f32⟩
  | .hbm, ⟨54, _⟩ => ⟨S64x64, .f32⟩
  | .hbm, ⟨55, _⟩ => ⟨S1x16x64, .f32⟩
  | .hbm, ⟨56, _⟩ => ⟨S16x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64x64, .f32⟩
  | .hbm, ⟨66, _⟩ => ⟨S64x64, .f32⟩
  | .hbm, ⟨67, _⟩ => ⟨S1x64x64, .f32⟩
  | .hbm, ⟨68, _⟩ => ⟨S64x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S1x64x64, .f32⟩
  | .hbm, ⟨83, _⟩ => ⟨S64x64, .f32⟩
  | .hbm, ⟨84, _⟩ => ⟨S1x16x64, .f32⟩
  | .hbm, ⟨85, _⟩ => ⟨S16x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64x64, .f32⟩
  | .hbm, ⟨95, _⟩ => ⟨S64x64, .f32⟩
  | .hbm, ⟨96, _⟩ => ⟨S1x64x64, .f32⟩
  | .hbm, ⟨97, _⟩ => ⟨S64x64, .f32⟩
  | .hbm, ⟨98, _⟩ => ⟨S1x64, .f32⟩
  | .hbm, ⟨99, _⟩ => ⟨S64, .f32⟩
  | .hbm, ⟨100, _⟩ => ⟨S1x64, .f32⟩
  | .hbm, ⟨101, _⟩ => ⟨S100000x64, .f32⟩
  | .local _ .vmem, ⟨0, _⟩ => ⟨S10000x75, .f32⟩
  | .local _ .vmem, ⟨1, _⟩ => ⟨S10000x75, .f32⟩
  | .local _ .vmem, ⟨2, _⟩ => ⟨S75x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S16000x64, .f32⟩
  | .local _ .vmem, ⟨7, _⟩ => ⟨S16000x64, .f32⟩
  | .local _ .vmem, ⟨8, _⟩ => ⟨S16000x16, .f32⟩
  | .local _ .vmem, ⟨9, _⟩ => ⟨S16000x16, .f32⟩
  | .local _ .vmem, ⟨10, _⟩ => ⟨S64x64, .f32⟩
  | .local _ .vmem, ⟨11, _⟩ => ⟨S16x64, .f32⟩
  | .local _ .vmem, ⟨12, _⟩ => ⟨S1x64, .f32⟩
  | .local _ .vmem, ⟨13, _⟩ => ⟨S16000x64, .f32⟩
  | .local _ .vmem, ⟨14, _⟩ => ⟨S16000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S20000x64, .f32⟩
  | .local _ .vmem, ⟨23, _⟩ => ⟨S20000x64, .f32⟩
  | .local _ .vmem, ⟨24, _⟩ => ⟨S16000x64, .f32⟩
  | .local _ .vmem, ⟨25, _⟩ => ⟨S16000x64, .f32⟩
  | .local _ .vmem, ⟨26, _⟩ => ⟨S16000x16, .f32⟩
  | .local _ .vmem, ⟨27, _⟩ => ⟨S16000x16, .f32⟩
  | .local _ .vmem, ⟨28, _⟩ => ⟨S64x64, .f32⟩
  | .local _ .vmem, ⟨29, _⟩ => ⟨S16x64, .f32⟩
  | .local _ .vmem, ⟨30, _⟩ => ⟨S1x64, .f32⟩
  | .local _ .vmem, ⟨31, _⟩ => ⟨S16000x64, .f32⟩
  | .local _ .vmem, ⟨32, _⟩ => ⟨S16000x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | .local _ .vmem, ⟨36, _⟩ => ⟨S20000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S20000x64, .f32⟩
  | .local _ .vmem, ⟨41, _⟩ => ⟨S20000x64, .f32⟩
  | .local _ .vmem, ⟨42, _⟩ => ⟨S16000x64, .f32⟩
  | .local _ .vmem, ⟨43, _⟩ => ⟨S16000x64, .f32⟩
  | .local _ .vmem, ⟨44, _⟩ => ⟨S16000x16, .f32⟩
  | .local _ .vmem, ⟨45, _⟩ => ⟨S16000x16, .f32⟩
  | .local _ .vmem, ⟨46, _⟩ => ⟨S64x64, .f32⟩
  | .local _ .vmem, ⟨47, _⟩ => ⟨S16x64, .f32⟩
  | .local _ .vmem, ⟨48, _⟩ => ⟨S1x64, .f32⟩
  | .local _ .vmem, ⟨49, _⟩ => ⟨S16000x64, .f32⟩
  | .local _ .vmem, ⟨50, _⟩ => ⟨S16000x64, .f32⟩
  | .local _ .vmem, ⟨51, _⟩ => ⟨S20000x64, .f32⟩
  | .local _ .vmem, ⟨52, _⟩ => ⟨S20000x64, .f32⟩
  | .local _ .vmem, ⟨53, _⟩ => ⟨S20000x64, .f32⟩
  | .local _ .vmem, ⟨54, _⟩ => ⟨S20000x64, .f32⟩
  | .local _ .vmem, ⟨55, _⟩ => ⟨S64x64, .f32⟩
  | .local _ .vmem, ⟨56, _⟩ => ⟨S64x64, .f32⟩
  | .local _ .vmem, ⟨57, _⟩ => ⟨S1x64, .f32⟩
  | .local _ .vmem, ⟨58, _⟩ => ⟨S20000x64, .f32⟩
  | .local _ .vmem, ⟨59, _⟩ => ⟨S20000x64, .f32⟩
  | _, _ => ⟨S100000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_4 : Ref sig .tc := ⟨.hbm, 73, rfl⟩
abbrev main_v58 : Ref sig .tc := ⟨.hbm, 74, rfl⟩
abbrev main_v59 : Ref sig .tc := ⟨.hbm, 75, rfl⟩
abbrev main_c_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S16000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S20000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S16000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S20000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S20000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x75_S10000x75_0_0 : ∀ a, (![0, 0] : Fin 2 → Nat) a + S10000x75.size a ≤ S10000x75.size a
  h_S10000x75 : 0 < S10000x75.numel
  inb_S75x64_S75x64_0_0 : ∀ a, (![0, 0] : Fin 2 → Nat) a + S75x64.size a ≤ S75x64.size a
  h_S75x64 : 0 < S75x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x80x64_S1x64x64_0_0_0 : S3x80x64.Slices ![0, 0, 0] S1x64x64
  shapeCasts_S1x64x64_S64x64 : S1x64x64.ShapeCasts S64x64
  slices_S3x80x64_S1x16x64_0_64_0 : S3x80x64.Slices ![0, 64, 0] S1x16x64
  shapeCasts_S1x16x64_S16x64 : S1x16x64.ShapeCasts S16x64
  slices_S3x64_S1x64_0_0 : S3x64.Slices ![0, 0] S1x64
  shapeCasts_S1x64_S64 : S1x64.ShapeCasts S64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16000x16_S16000x16_0_0 : ∀ a, (![0, 0] : Fin 2 → Nat) a + S16000x16.size a ≤ S16000x16.size a
  h_S16000x16 : 0 < S16000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  broadcasts_S1x64_S16000x64 : S1x64.Broadcasts S16000x64
  bcast_S_S100000x64 : S_.BroadcastsInDim S100000x64 (![] : Fin 0 → Fin S100000x64.rank)
  slices_S3x128x64_S1x64x64_0_0_0 : S3x128x64.Slices ![0, 0, 0] S1x64x64
  slices_S3x128x64_S1x64x64_0_64_0 : S3x128x64.Slices ![0, 64, 0] S1x64x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S1x64_S20000x64 : S1x64.Broadcasts S20000x64
  slices_S3x80x64_S1x64x64_1_0_0 : S3x80x64.Slices ![1, 0, 0] S1x64x64
  slices_S3x80x64_S1x16x64_1_64_0 : S3x80x64.Slices ![1, 64, 0] S1x16x64
  slices_S3x64_S1x64_1_0 : S3x64.Slices ![1, 0] S1x64
  slices_S3x128x64_S1x64x64_1_0_0 : S3x128x64.Slices ![1, 0, 0] S1x64x64
  slices_S3x128x64_S1x64x64_1_64_0 : S3x128x64.Slices ![1, 64, 0] S1x64x64
  slices_S3x80x64_S1x64x64_2_0_0 : S3x80x64.Slices ![2, 0, 0] S1x64x64
  slices_S3x80x64_S1x16x64_2_64_0 : S3x80x64.Slices ![2, 64, 0] S1x16x64
  slices_S3x64_S1x64_2_0 : S3x64.Slices ![2, 0] S1x64
  slices_S3x128x64_S1x64x64_2_0_0 : S3x128x64.Slices ![2, 0, 0] S1x64x64
  slices_S3x128x64_S1x64x64_2_64_0 : S3x128x64.Slices ![2, 64, 0] S1x64x64
  dot_S10000x75_S75x64_S10000x64_1_0_0_1_n_n_wf : DotDims.WF S10000x75 S75x64 S10000x64 [1] [0] [0] [1] [] []
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  dot_S16000x16_S16x64_S16000x64_1_0_0_1_n_n_wf : DotDims.WF S16000x16 S16x64 S16000x64 [1] [0] [0] [1] [] []
  scatter_S100000x64_S1600000x1_S1600000x64_1_0_0_1_wf : ScatterDims.WF S100000x64 S1600000x1 S1600000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x75.size a ≤ S100000x75.size a
  hwx0_0 : ∀ i : grid0.Coords, EltTy.bits .f32 = 32 ∨ (Rect.block (s := S100000x75) S10000x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x64.size a ≤ S75x64.size a
  hwx0_1 : ∀ i : grid0.Coords, EltTy.bits .f32 = 32 ∨ (Rect.block (s := S75x64) S75x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x16.size a ≤ S1600000x16.size a
  hwx1_1 : ∀ i : grid1.Coords, EltTy.bits .f32 = 32 ∨ (Rect.block (s := S1600000x16) S16000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S1600000x64.size a
  hwx1_5 : ∀ i : grid1.Coords, EltTy.bits .f32 = 32 ∨ (Rect.block (s := S1600000x64) S16000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S100000x64.size a
  hwx2_1 : ∀ i : grid2.Coords, EltTy.bits .f32 = 32 ∨ (Rect.block (s := S100000x64) S20000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x64.size a ≤ S100000x64.size a
  hwx2_5 : ∀ i : grid2.Coords, EltTy.bits .f32 = 32 ∨ (Rect.block (s := S100000x64) S20000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S1600000x64.size a
  hwx3_0 : ∀ i : grid3.Coords, EltTy.bits .f32 = 32 ∨ (Rect.block (s := S1600000x64) S16000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x16.size a ≤ S1600000x16.size a
  hwx3_1 : ∀ i : grid3.Coords, EltTy.bits .f32 = 32 ∨ (Rect.block (s := S1600000x16) S16000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S16000x64.size a ≤ S1600000x64.size a
  hwx3_5 : ∀ i : grid3.Coords, EltTy.bits .f32 = 32 ∨ (Rect.block (s := S1600000x64) S16000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x64.size a ≤ S100000x64.size a
  hwx4_1 : ∀ i : grid4.Coords, EltTy.bits .f32 = 32 ∨ (Rect.block (s := S100000x64) S20000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S20000x64.size a ≤ S100000x64.size a
  hwx4_5 : ∀ i : grid4.Coords, EltTy.bits .f32 = 32 ∨ (Rect.block (s := S100000x64) S20000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x64.size a ≤ S1600000x64.size a
  hwx5_0 : ∀ i : grid5.Coords, EltTy.bits .f32 = 32 ∨ (Rect.block (s := S1600000x64) S16000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x16.size a ≤ S1600000x16.size a
  hwx5_1 : ∀ i : grid5.Coords, EltTy.bits .f32 = 32 ∨ (Rect.block (s := S1600000x16) S16000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x64.size a ≤ S16x64.size a
  hwx5_3 : ∀ i : grid5.Coords, EltTy.bits .f32 = 32 ∨ (Rect.block (s := S16x64) S16x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S16000x64.size a ≤ S1600000x64.size a
  hwx5_5 : ∀ i : grid5.Coords, EltTy.bits .f32 = 32 ∨ (Rect.block (s := S1600000x64) S16000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S100000x64.size a
  hwx6_0 : ∀ i : grid6.Coords, EltTy.bits .f32 = 32 ∨ (Rect.block (s := S100000x64) S20000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S20000x64.size a ≤ S100000x64.size a
  hwx6_1 : ∀ i : grid6.Coords, EltTy.bits .f32 = 32 ∨ (Rect.block (s := S100000x64) S20000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S20000x64.size a ≤ S100000x64.size a
  hwx6_5 : ∀ i : grid6.Coords, EltTy.bits .f32 = 32 ∨ (Rect.block (s := S100000x64) S20000x64.size (cc6_transform_5 i) (hinb6_5 i)).WholeWords (EltTy.packing .f32)

variable [Facts₀]

def dot_S10000x75_S75x64_S10000x64_1_0_0_1_n_n : DotDims S10000x75 S75x64 S10000x64 where
  lhsContracting := [1]
  rhsContracting := [0]
  lhsNonContracting := [0]
  rhsNonContracting := [1]
  lhsBatch := []
  rhsBatch := []
  wf := dot_S10000x75_S75x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x16_S16x64_S16000x64_1_0_0_1_n_n : DotDims S16000x16 S16x64 S16000x64 where
  lhsContracting := [1]
  rhsContracting := [0]
  lhsNonContracting := [0]
  rhsNonContracting := [1]
  lhsBatch := []
  rhsBatch := []
  wf := dot_S16000x16_S16x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_arg0) S10000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S75x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S16000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S20000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S16000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S16x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S16000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v31) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S20000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S20000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v64) S16000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S16000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S16x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S16000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v57) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S20000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S20000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x75 : Shape := ⟨2, ![100000, 75]⟩
abbrev S2x1600000 : Shape := ⟨2, ![2, 1600000]⟩
abbrev S1600000x16 : Shape := ⟨2, ![1600000, 16]⟩
abbrev S75x64 : Shape := ⟨2, ![75, 64]⟩
abbrev S64 : Shape := ⟨1, ![64]⟩
abbrev S3x80x64 : Shape := ⟨3, ![3, 80, 64]⟩
abbrev S3x64 : Shape := ⟨2, ![3, 64]⟩
abbrev S3x128x64 : Shape := ⟨3, ![3, 128, 64]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1600000x80 : Shape := ⟨2, ![1600000, 80]⟩
abbrev S1x80x64 : Shape := ⟨3, ![1, 80, 64]⟩
abbrev S80x64 : Shape := ⟨2, ![80, 64]⟩
abbrev S100000x128 : Shape := ⟨2, ![100000, 128]⟩
abbrev S1x128x64 : Shape := ⟨3, ![1, 128, 64]⟩
abbrev S128x64 : Shape := ⟨2, ![128, 64]⟩

abbrev nBuf : Space → Nat
  | .hbm => 134
  | .vmem => 0
  | .smem => 0
  | _ => 0

abbrev hbmTy0_0 (i : Nat) : BufTy := match i % 128 with
  | 0 => ⟨S100000x75, .f32⟩
  | 1 => ⟨S2x1600000, .i32⟩
  | 2 => ⟨S1600000x16, .f32⟩
  | 3 => ⟨S75x64, .f32⟩
  | 4 => ⟨S64, .f32⟩
  | 5 => ⟨S3x80x64, .f32⟩
  | 6 => ⟨S3x64, .f32⟩
  | 7 => ⟨S3x128x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S1x64, .f32⟩
  | 15 => ⟨S100000x64, .f32⟩
  | 16 => ⟨S100000x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S1600000x80, .f32⟩
  | 27 => ⟨S1x80x64, .f32⟩
  | 28 => ⟨S80x64, .f32⟩
  | 29 => ⟨S1600000x64, .f32⟩
  | 30 => ⟨S1x64, .f32⟩
  | 31 => ⟨S64, .f32⟩
  | 32 => ⟨S1x64, .f32⟩
  | 33 => ⟨S1600000x64, .f32⟩
  | 34 => ⟨S1600000x64, .f32⟩
  | 35 => ⟨S_, .f32⟩
  | 36 => ⟨S_, .f32⟩
  | 37 => ⟨S1600000x64, .f32⟩
  | 38 => ⟨S1600000x64, .i1⟩
  | 39 => ⟨S_, .f32⟩
  | 40 => ⟨S1600000x64, .f32⟩
  | 41 => ⟨S1600000x64, .f32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x128, .f32⟩
  | 48 => ⟨S1x128x64, .f32⟩
  | 49 => ⟨S128x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x80, .f32⟩
  | 66 => ⟨S1x80x64, .f32⟩
  | 67 => ⟨S80x64, .f32⟩
  | 68 => ⟨S1600000x64, .f32⟩
  | 69 => ⟨S1x64, .f32⟩
  | 70 => ⟨S64, .f32⟩
  | 71 => ⟨S1x64, .f32⟩
  | 72 => ⟨S1600000x64, .f32⟩
  | 73 => ⟨S1600000x64, .f32⟩
  | 74 => ⟨S_, .f32⟩
  | 75 => ⟨S_, .f32⟩
  | 76 => ⟨S1600000x64, .f32⟩
  | 77 => ⟨S1600000x64, .i1⟩
  | 78 => ⟨S_, .f32⟩
  | 79 => ⟨S1600000x64, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S100000x128, .f32⟩
  | 87 => ⟨S1x128x64, .f32⟩
  | 88 => ⟨S128x64, .f32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x80, .f32⟩
  | 105 => ⟨S1x80x64, .f32⟩
  | 106 => ⟨S80x64, .f32⟩
  | 107 => ⟨S1600000x64, .f32⟩
  | 108 => ⟨S1x64, .f32⟩
  | 109 => ⟨S64, .f32⟩
  | 110 => ⟨S1x64, .f32⟩
  | 111 => ⟨S1600000x64, .f32⟩
  | 112 => ⟨S1600000x64, .f32⟩
  | 113 => ⟨S_, .f32⟩
  | 114 => ⟨S_, .f32⟩
  | 115 => ⟨S1600000x64, .f32⟩
  | 116 => ⟨S1600000x64, .i1⟩
  | 117 => ⟨S_, .f32⟩
  | 118 => ⟨S1600000x64, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S100000x128, .f32⟩
  | 126 => ⟨S1x128x64, .f32⟩
  | 127 => ⟨S128x64, .f32⟩
  | _ => ⟨S100000x75, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | _ => ⟨S100000x75, .f32⟩

abbrev hbmTy (i : Nat) : BufTy := match i / 128 with
  | 0 => hbmTy0_0 i
  | 1 => hbmTy0_1 i
  | _ => ⟨S100000x75, .f32⟩

abbrev bufTy : (tb : Table) → Fin (tcTables nBuf tb) → BufTy
  | .hbm, ⟨i, _⟩ => hbmTy i
  | _, _ => ⟨S100000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_2 : Ref sig .tc := ⟨.hbm, 56, rfl⟩
abbrev main_v37 : Ref sig .tc := ⟨.hbm, 57, rfl⟩
abbrev main_v38 : Ref sig .tc := ⟨.hbm, 58, rfl⟩
abbrev main_c_3 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v53 : Ref sig .tc := ⟨.hbm, 81, rfl⟩
abbrev main_cst_5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_6 : Ref sig .tc := ⟨.hbm, 95, rfl⟩
abbrev main_v66 : Ref sig .tc := ⟨.hbm, 96, rfl⟩
abbrev main_v67 : Ref sig .tc := ⟨.hbm, 97, rfl⟩
abbrev main_c_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_8 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v82 : Ref sig .tc := ⟨.hbm, 120, rfl⟩
abbrev main_cst_9 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x16_S1600000x80_d1 : Shape.Concatenates [S1600000x64, S1600000x16] S1600000x80 1
  slices_S3x80x64_S1x80x64_0_0_0 : S3x80x64.Slices ![0, 0, 0] S1x80x64
  shapeCasts_S1x80x64_S80x64 : S1x80x64.ShapeCasts S80x64
  slices_S3x64_S1x64_0_0 : S3x64.Slices ![0, 0] S1x64
  shapeCasts_S1x64_S64 : S1x64.ShapeCasts S64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  slices_S3x128x64_S1x128x64_0_0_0 : S3x128x64.Slices ![0, 0, 0] S1x128x64
  shapeCasts_S1x128x64_S128x64 : S1x128x64.ShapeCasts S128x64
  slices_S3x80x64_S1x80x64_1_0_0 : S3x80x64.Slices ![1, 0, 0] S1x80x64
  slices_S3x64_S1x64_1_0 : S3x64.Slices ![1, 0] S1x64
  slices_S3x128x64_S1x128x64_1_0_0 : S3x128x64.Slices ![1, 0, 0] S1x128x64
  slices_S3x80x64_S1x80x64_2_0_0 : S3x80x64.Slices ![2, 0, 0] S1x80x64
  slices_S3x64_S1x64_2_0 : S3x64.Slices ![2, 0] S1x64
  slices_S3x128x64_S1x128x64_2_0_0 : S3x128x64.Slices ![2, 0, 0] S1x128x64
  dot_S100000x75_S75x64_S100000x64_1_0_0_1_n_n_wf : DotDims.WF S100000x75 S75x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x80_S80x64_S1600000x64_1_0_0_1_n_n_wf : DotDims.WF S1600000x80 S80x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def dot_S100000x75_S75x64_S100000x64_1_0_0_1_n_n : DotDims S100000x75 S75x64 S100000x64 where
  lhsContracting := [1]
  rhsContracting := [0]
  lhsNonContracting := [0]
  rhsNonContracting := [1]
  lhsBatch := []
  rhsBatch := []
  wf := dot_S100000x75_S75x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x80_S80x64_S1600000x64_1_0_0_1_n_n : DotDims S1600000x80 S80x64 S1600000x64 where
  lhsContracting := [1]
  rhsContracting := [0]
  lhsNonContracting := [0]
  rhsNonContracting := [1]
  lhsBatch := []
  rhsBatch := []
  wf := dot_S1600000x80_S80x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named.

  The program is seven regions among stretches of host operations. The launch over those fourteen segments ends with every
  unscoped buffer of a core at the last boundary's contents; read at the result buffer and at the nine arguments, that is:
  the result holds the last boundary's contents of its buffer, and the arguments hold what they were launched with.
-/
import proofs.«134910_j29300266893460_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    last region leaves in it, and the argument arrays end as launched. -/
theorem run : θ_run defs (onTc (τ := τ) (main (F := F))) ⟨m, fun _ => 0, ρ⟩ (fun r => ∀ c : Dev nD,
      r.2.mem ((c.tc : Thread nD τ).loc main_v83) = W14 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v83 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Run

end
-- ==== Proof.Spec.lean ====
/-
  What the reference computes, stage by stage, as pure functions of arrays — the meeting point of the two programs.

  A graph network over 100000 nodes and 1600000 directed edges. The node features start as an affine map of the
  inputs, `h = x · P + p`. Each of three layers then
    * reads, for every edge, the features of its source node (a negative id counted once from the end),
    * sends along the edge `leaky (concat (h[src], e) · W₂ + b₂)`, with `leaky z = z` where `z ≥ 0` and `0.1 · z` elsewhere,
    * adds up, at every node, the messages of the edges ending there, and
    * replaces the features by `concat (h, sum) · W₁ + b₁`.
  Every stage is spelt with the host operations of the reference, so that the reference's run ends at `result` by
  unfolding, and each stage can be read at an index on its own.
-/
import proofs.«134910_j29300266893460_1_alg».proof.ReferenceIdeal
import Idealize.ShloMosaic.PureOps.Ideal

noncomputable section

namespace Cert.ReferenceIdeal.Spec

open Idealize.ShloMosaic Cert.ReferenceIdeal Cert.ReferenceIdeal.Facts₀ Cert.ReferenceIdeal.Facts

variable {F : FTy → Type} [FloatOps F] [Cert.ReferenceIdeal.Facts]

/-- Row 0 of the edge list: each edge's source node. -/
def srcIds (ei : IVec S2x1600000 32) : IVec S1600000 32 :=
  shapeCast S1600000 (extractStridedSlice S1x1600000 ![0, 0] ei slices_S2x1600000_S1x1600000_0_0) shapeCasts_S1x1600000_S1600000

/-- Row 1 of the edge list: each edge's destination node. -/
def dstIds (ei : IVec S2x1600000 32) : IVec S1600000 32 :=
  shapeCast S1600000 (extractStridedSlice S1x1600000 ![1, 0] ei slices_S2x1600000_S1x1600000_1_0) shapeCasts_S1x1600000_S1600000

/-- The source ids as a column of gather indices, a negative id shifted once by the number of nodes. -/
def srcCol (ei : IVec S2x1600000 32) : IVec S1600000x1 32 :=
  broadcastInDim S1600000x1 ![0] bcast_S1600000_S1600000x1_0
    (select (cmpi .slt (srcIds ei) (broadcastInDim S1600000 ![] bcast_S_S1600000 (constantI S_ 32 0#32)))
      (addi (srcIds ei) (broadcastInDim S1600000 ![] bcast_S_S1600000 (constantI S_ 32 100000#32))) (srcIds ei))

/-- The destination ids as a column of scatter indices. -/
def dstCol (ei : IVec S2x1600000 32) : IVec S1600000x1 32 :=
  broadcastInDim S1600000x1 ![0] bcast_S1600000_S1600000x1_0 (dstIds ei)

/-- A bias vector repeated along the node axis. -/
def biasN (b : FVec F S64 .f32) : FVec F S100000x64 .f32 :=
  broadcastInDim S100000x64 ![0, 1] bcast_S1x64_S100000x64_0_1 (broadcastInDim S1x64 ![1] bcast_S64_S1x64_1 b)

/-- A bias vector repeated along the edge axis. -/
def biasE (b : FVec F S64 .f32) : FVec F S1600000x64 .f32 :=
  broadcastInDim S1600000x64 ![0, 1] bcast_S1x64_S1600000x64_0_1 (broadcastInDim S1x64 ![1] bcast_S64_S1x64_1 b)

/-- The input projection `x · P + p`. -/
def proj (x : FVec F S100000x75 .f32) (w : FVec F S75x64 .f32) (b : FVec F S64 .f32) : FVec F S100000x64 .f32 :=
  addf (Host.dotGeneral dot_S100000x75_S75x64_S100000x64_1_0_0_1_n_n none x w) (biasN b)

/-- `z` where `z ≥ 0`, one tenth (as the f32 literal) of `z` elsewhere, entry by entry. -/
def leaky (z : FVec F S1600000x64 .f32) : FVec F S1600000x64 .f32 :=
  select (cmpf .oge z (broadcastInDim S1600000x64 ![] bcast_S_S1600000x64 (constant S_ .f32 0x00000000#32))) z
    (mulf (broadcastInDim S1600000x64 ![] bcast_S_S1600000x64 (id (constant S_ .f32 0x3DCCCCCD#32))) z)

/-- `leaky` at one entry: the comparison with zero chooses between the entry and the literal one tenth times it. -/
def leak (z : EReal) : EReal :=
  Scalar.select (FloatOps.cmpf (F := Ideal) (φ := .f32) .oge z (Ideal.ofBits .f32 0x00000000#32)) z (Ideal.ofBits .f32 0x3DCCCCCD#32 * z)

/-- The rows of the node features named by a column of node ids. -/
def gath (h : FVec F S100000x64 .f32) (i : IVec S1600000x1 32) : FVec F S1600000x64 .f32 :=
  Host.gather gather_S100000x64_S1600000x1_S1600000x64_1_0_n_n_0_1_164 h i

/-- The message on every edge: the source's features beside the edge's own, through one affine map and `leaky`. -/
def msg (gh : FVec F S1600000x64 .f32) (ea : FVec F S1600000x16 .f32) (W : FVec F S80x64 .f32) (b : FVec F S64 .f32) :
    FVec F S1600000x64 .f32 :=
  leaky (addf (Host.dotGeneral dot_S1600000x80_S80x64_S1600000x64_1_0_0_1_n_n none
    (concatenate S1600000x80 1 [⟨S1600000x64, gh⟩, ⟨S1600000x16, ea⟩] concatenates_S1600000x64_S1600000x16_S1600000x80_d1) W) (biasE b))

/-- At every node, the sum of the messages of the edges that end there. -/
def agg (i : IVec S1600000x1 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) i u

/-- The new node features: the old ones beside the summed messages, through one affine map. -/
def upd (h a : FVec F S100000x64 .f32) (W : FVec F S128x64 .f32) (b : FVec F S64 .f32) : FVec F S100000x64 .f32 :=
  addf (Host.dotGeneral dot_S100000x128_S128x64_S100000x64_1_0_0_1_n_n none
    (concatenate S100000x128 1 [⟨S100000x64, h⟩, ⟨S100000x64, a⟩] concatenates_S100000x64_S100000x64_S100000x128_d1) W) (biasN b)

/-- One round of message passing with the given layer's weights. -/
def layer (h : FVec F S100000x64 .f32) (ei : IVec S2x1600000 32) (ea : FVec F S1600000x16 .f32)
    (W2 : FVec F S80x64 .f32) (b2 : FVec F S64 .f32) (W1 : FVec F S128x64 .f32) (b1 : FVec F S64 .f32) : FVec F S100000x64 .f32 :=
  upd h (agg (dstCol ei) (msg (gath h (srcCol ei)) ea W2 b2)) W1 b1

/-! The weights of layers 0, 1, 2: page `l` of each stacked array. -/

def w2_0 (W : FVec F S3x80x64 .f32) : FVec F S80x64 .f32 :=
  shapeCast S80x64 (extractStridedSlice S1x80x64 ![0, 0, 0] W slices_S3x80x64_S1x80x64_0_0_0) shapeCasts_S1x80x64_S80x64
def w2_1 (W : FVec F S3x80x64 .f32) : FVec F S80x64 .f32 :=
  shapeCast S80x64 (extractStridedSlice S1x80x64 ![1, 0, 0] W slices_S3x80x64_S1x80x64_1_0_0) shapeCasts_S1x80x64_S80x64
def w2_2 (W : FVec F S3x80x64 .f32) : FVec F S80x64 .f32 :=
  shapeCast S80x64 (extractStridedSlice S1x80x64 ![2, 0, 0] W slices_S3x80x64_S1x80x64_2_0_0) shapeCasts_S1x80x64_S80x64
def w1_0 (W : FVec F S3x128x64 .f32) : FVec F S128x64 .f32 :=
  shapeCast S128x64 (extractStridedSlice S1x128x64 ![0, 0, 0] W slices_S3x128x64_S1x128x64_0_0_0) shapeCasts_S1x128x64_S128x64
def w1_1 (W : FVec F S3x128x64 .f32) : FVec F S128x64 .f32 :=
  shapeCast S128x64 (extractStridedSlice S1x128x64 ![1, 0, 0] W slices_S3x128x64_S1x128x64_1_0_0) shapeCasts_S1x128x64_S128x64
def w1_2 (W : FVec F S3x128x64 .f32) : FVec F S128x64 .f32 :=
  shapeCast S128x64 (extractStridedSlice S1x128x64 ![2, 0, 0] W slices_S3x128x64_S1x128x64_2_0_0) shapeCasts_S1x128x64_S128x64
def b_0 (B : FVec F S3x64 .f32) : FVec F S64 .f32 :=
  shapeCast S64 (extractStridedSlice S1x64 ![0, 0] B slices_S3x64_S1x64_0_0) shapeCasts_S1x64_S64
def b_1 (B : FVec F S3x64 .f32) : FVec F S64 .f32 :=
  shapeCast S64 (extractStridedSlice S1x64 ![1, 0] B slices_S3x64_S1x64_1_0) shapeCasts_S1x64_S64
def b_2 (B : FVec F S3x64 .f32) : FVec F S64 .f32 :=
  shapeCast S64 (extractStridedSlice S1x64 ![2, 0] B slices_S3x64_S1x64_2_0) shapeCasts_S1x64_S64

/-- The whole network: the projection, then the three layers. -/
def result (x : FVec F S100000x75 .f32) (ei : IVec S2x1600000 32) (ea : FVec F S1600000x16 .f32)
    (pw : FVec F S75x64 .f32) (pb : FVec F S64 .f32) (W2 : FVec F S3x80x64 .f32) (B2 : FVec F S3x64 .f32)
    (W1 : FVec F S3x128x64 .f32) (B1 : FVec F S3x64 .f32) : FVec F S100000x64 .f32 :=
  layer (layer (layer (proj x pw pb) ei ea (w2_0 W2) (b_0 B2) (w1_0 W1) (b_0 B1))
    ei ea (w2_1 W2) (b_1 B2) (w1_1 W1) (b_1 B1)) ei ea (w2_2 W2) (b_2 B2) (w1_2 W1) (b_2 B1)

end Cert.ReferenceIdeal.Spec

end
-- ==== Proof.KFun.lean ====
/-
  The message and the update kernels as functions of whole arrays.

  A message region sends, along every edge `e`, the leaky choice of the gathered source features `GH e` against a 64×64
  weight block plus the edge's own features `EA e` against a 16×64 block plus a bias row; an update region replaces node
  `r`'s features by the old ones against one 64×64 block plus the summed messages against another plus a bias row.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.Spec

noncomputable section

namespace Cert.KernelIdeal.Fun

open Idealize.ShloMosaic Idealize.ShloMosaic.ValueIdx Idealize.ShloMosaic.TcCoe Idealize.SL.Sem Cert.KernelIdeal Cert.KernelIdeal.Gen

/-- The message array as one function of the five arrays a message region reads. -/
def GM (GH : FVec Ideal S1600000x64 .f32) (EA : FVec Ideal S1600000x16 .f32) (WA : FVec Ideal S64x64 .f32)
    (WB : FVec Ideal S16x64 .f32) (B : FVec Ideal S1x64 .f32) : FVec Ideal S1600000x64 .f32 :=
  fun i => Cert.ReferenceIdeal.Spec.leak
    (((∑ k : Fin 64, GH (ix2 (⟨(i 0).val, idx2_lt0 i⟩ : Fin 1600000) k) * WA (ix2 k (⟨(i 1).val, idx2_lt1 i⟩ : Fin 64)))
      + (∑ k : Fin 16, EA (ix2 (⟨(i 0).val, idx2_lt0 i⟩ : Fin 1600000) k) * WB (ix2 k (⟨(i 1).val, idx2_lt1 i⟩ : Fin 64))))
      + B (ix2 (0 : Fin 1) (⟨(i 1).val, idx2_lt1 i⟩ : Fin 64)))

theorem GM_apply (GH : FVec Ideal S1600000x64 .f32) (EA : FVec Ideal S1600000x16 .f32) (WA : FVec Ideal S64x64 .f32)
    (WB : FVec Ideal S16x64 .f32) (B : FVec Ideal S1x64 .f32) (e : Fin 1600000) (j : Fin 64) :
    GM GH EA WA WB B (ix2 e j) = Cert.ReferenceIdeal.Spec.leak
      (((∑ k : Fin 64, GH (ix2 e k) * WA (ix2 k j)) + (∑ k : Fin 16, EA (ix2 e k) * WB (ix2 k j))) + B (ix2 (0 : Fin 1) j)) := rfl

/-- The new node features as one function of the five arrays an update region reads. -/
def GU (H : FVec Ideal S100000x64 .f32) (A : FVec Ideal S100000x64 .f32) (WA : FVec Ideal S64x64 .f32)
    (WB : FVec Ideal S64x64 .f32) (B : FVec Ideal S1x64 .f32) : FVec Ideal S100000x64 .f32 :=
  fun i => ((∑ k : Fin 64, H (ix2 (⟨(i 0).val, idx2_lt0 i⟩ : Fin 100000) k) * WA (ix2 k (⟨(i 1).val, idx2_lt1 i⟩ : Fin 64)))
      + (∑ k : Fin 64, A (ix2 (⟨(i 0).val, idx2_lt0 i⟩ : Fin 100000) k) * WB (ix2 k (⟨(i 1).val, idx2_lt1 i⟩ : Fin 64))))
      + B (ix2 (0 : Fin 1) (⟨(i 1).val, idx2_lt1 i⟩ : Fin 64))

theorem GU_apply (H : FVec Ideal S100000x64 .f32) (A : FVec Ideal S100000x64 .f32) (WA : FVec Ideal S64x64 .f32)
    (WB : FVec Ideal S64x64 .f32) (B : FVec Ideal S1x64 .f32) (r : Fin 100000) (j : Fin 64) :
    GU H A WA WB B (ix2 r j)
      = ((∑ k : Fin 64, H (ix2 r k) * WA (ix2 k j)) + (∑ k : Fin 64, A (ix2 r k) * WB (ix2 k j))) + B (ix2 (0 : Fin 1) j) := rfl

end Cert.KernelIdeal.Fun

end
-- ==== Proof.KPay.lean ====
/-
  The three kernel bodies read at an entry, on the extended reals.

  Every body multiplies its row block by one or two small weight matrices into a zero accumulator, adds the products,
  adds a bias row repeated down the block, and (for the message body) applies `z ↦ z` where `z ≥ 0`, one tenth of `z`
  elsewhere. At an entry `(p, q)` of the block that is a sum over the contracted axis of row `p` of the operand times
  column `q` of the weights, plus the bias at `q`.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.Spec

noncomputable section

namespace Cert.KernelIdeal.Pay

open Idealize.ShloMosaic Idealize.ShloMosaic.ValueIdx Idealize.ShloMosaic.TcCoe Idealize.SL.Sem Cert.KernelIdeal Cert.KernelIdeal.Gen

/-- A product of a 10000×75 block with a 75×64 matrix into a zero accumulator, read at an entry: the sum over the
    contracted axis of the row's entries times the column's. -/
theorem matP_apply (l : FVec Ideal S10000x75 .f32) (r : FVec Ideal S75x64 .f32) (p : Fin 10000) (q : Fin 64) :
    matmul dot_S10000x75_S75x64_S10000x64_1_0_0_1_n_n none l r (constant S10000x64 .f32 0x00000000#32) (ix2 p q)
      = ∑ k : Fin 75, l (ix2 p k) * r (ix2 k q) := by
  refine (Ideal.matmul_constant_zero_apply dot_S10000x75_S75x64_S10000x64_1_0_0_1_n_n none l r (ix2 p q)).trans ?_
  rw [← Equiv.sum_comp (contrEquiv1 dot_S10000x75_S75x64_S10000x64_1_0_0_1_n_n 75 rfl rfl).symm]
  refine Finset.sum_congr rfl fun k _ => ?_
  have hk := contrEquiv1_symm_val dot_S10000x75_S75x64_S10000x64_1_0_0_1_n_n 75 rfl rfl k
  have el : dot_S10000x75_S75x64_S10000x64_1_0_0_1_n_n.lhsIdx (ix2 p q) ((contrEquiv1 dot_S10000x75_S75x64_S10000x64_1_0_0_1_n_n 75 rfl rfl).symm k) = ix2 p k :=
    funext fun a => Fin.ext (by
      match a with
      | ⟨0, _⟩ =>
        show (dot_S10000x75_S75x64_S10000x64_1_0_0_1_n_n.lhsIdx (ix2 p q) _ 0).val = p.val
        unfold DotDims.lhsIdx
        rw [dif_neg (show ¬(0 : Fin S10000x75.rank) ∈ dot_S10000x75_S75x64_S10000x64_1_0_0_1_n_n.lhsBatch by decide),
          dif_pos (show (0 : Fin S10000x75.rank) ∈ dot_S10000x75_S75x64_S10000x64_1_0_0_1_n_n.lhsNonContracting by decide)]
        rfl
      | ⟨1, _⟩ => exact (dot_S10000x75_S75x64_S10000x64_1_0_0_1_n_n.lhsIdx_val_of_single rfl _ _).trans hk)
  have er : dot_S10000x75_S75x64_S10000x64_1_0_0_1_n_n.rhsIdx (ix2 p q) ((contrEquiv1 dot_S10000x75_S75x64_S10000x64_1_0_0_1_n_n 75 rfl rfl).symm k) = ix2 k q :=
    funext fun a => Fin.ext (by
      match a with
      | ⟨0, _⟩ => exact (dot_S10000x75_S75x64_S10000x64_1_0_0_1_n_n.rhsIdx_val_of_single rfl _ _).trans hk
      | ⟨1, _⟩ =>
        show (dot_S10000x75_S75x64_S10000x64_1_0_0_1_n_n.rhsIdx (ix2 p q) _ 1).val = q.val
        unfold DotDims.rhsIdx
        rw [dif_neg (show ¬(1 : Fin S75x64.rank) ∈ dot_S10000x75_S75x64_S10000x64_1_0_0_1_n_n.rhsBatch by decide),
          dif_pos (show (1 : Fin S75x64.rank) ∈ dot_S10000x75_S75x64_S10000x64_1_0_0_1_n_n.rhsNonContracting by decide)]
        rfl)
  rw [el, er]

/-- A product of a 16000×64 block with a 64×64 matrix into a zero accumulator, read at an entry: the sum over the
    contracted axis of the row's entries times the column's. -/
theorem matMa_apply (l : FVec Ideal S16000x64 .f32) (r : FVec Ideal S64x64 .f32) (p : Fin 16000) (q : Fin 64) :
    matmul dot_S16000x64_S64x64_S16000x64_1_0_0_1_n_n none l r (constant S16000x64 .f32 0x00000000#32) (ix2 p q)
      = ∑ k : Fin 64, l (ix2 p k) * r (ix2 k q) := by
  refine (Ideal.matmul_constant_zero_apply dot_S16000x64_S64x64_S16000x64_1_0_0_1_n_n none l r (ix2 p q)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k :=
    funext fun a => Fin.ext (by
      match a with
      | ⟨0, _⟩ =>
        show (dot_S16000x64_S64x64_S16000x64_1_0_0_1_n_n.lhsIdx (ix2 p q) _ 0).val = p.val
        unfold DotDims.lhsIdx
        rw [dif_neg (show ¬(0 : Fin S16000x64.rank) ∈ dot_S16000x64_S64x64_S16000x64_1_0_0_1_n_n.lhsBatch by decide),
          dif_pos (show (0 : Fin S16000x64.rank) ∈ dot_S16000x64_S64x64_S16000x64_1_0_0_1_n_n.lhsNonContracting by decide)]
        rfl
      | ⟨1, _⟩ => exact (dot_S16000x64_S64x64_S16000x64_1_0_0_1_n_n.lhsIdx_val_of_single rfl _ _).trans hk)
  have er : dot_S16000x64_S64x64_S16000x64_1_0_0_1_n_n.rhsIdx (ix2 p q) ((contrEquiv1 dot_S16000x64_S64x64_S16000x64_1_0_0_1_n_n 64 rfl rfl).symm k) = ix2 k q :=
    funext fun a => Fin.ext (by
      match a with
      | ⟨0, _⟩ => exact (dot_S16000x64_S64x64_S16000x64_1_0_0_1_n_n.rhsIdx_val_of_single rfl _ _).trans hk
      | ⟨1, _⟩ =>
        show (dot_S16000x64_S64x64_S16000x64_1_0_0_1_n_n.rhsIdx (ix2 p q) _ 1).val = q.val
        unfold DotDims.rhsIdx
        rw [dif_neg (show ¬(1 : Fin S64x64.rank) ∈ dot_S16000x64_S64x64_S16000x64_1_0_0_1_n_n.rhsBatch by decide),
          dif_pos (show (1 : Fin S64x64.rank) ∈ dot_S16000x64_S64x64_S16000x64_1_0_0_1_n_n.rhsNonContracting by decide)]
        rfl)
  rw [el, er]

/-- A product of a 16000×16 block with a 16×64 matrix into a zero accumulator, read at an entry: the sum over the
    contracted axis of the row's entries times the column's. -/
theorem matMb_apply (l : FVec Ideal S16000x16 .f32) (r : FVec Ideal S16x64 .f32) (p : Fin 16000) (q : Fin 64) :
    matmul dot_S16000x16_S16x64_S16000x64_1_0_0_1_n_n none l r (constant S16000x64 .f32 0x00000000#32) (ix2 p q)
      = ∑ k : Fin 16, l (ix2 p k) * r (ix2 k q) := by
  refine (Ideal.matmul_constant_zero_apply dot_S16000x16_S16x64_S16000x64_1_0_0_1_n_n none l r (ix2 p q)).trans ?_
  rw [← Equiv.sum_comp (contrEquiv1 dot_S16000x16_S16x64_S16000x64_1_0_0_1_n_n 16 rfl rfl).symm]
  refine Finset.sum_congr rfl fun k _ => ?_
  have hk := contrEquiv1_symm_val dot_S16000x16_S16x64_S16000x64_1_0_0_1_n_n 16 rfl rfl k
  have el : dot_S16000x16_S16x64_S16000x64_1_0_0_1_n_n.lhsIdx (ix2 p q) ((contrEquiv1 dot_S16000x16_S16x64_S16000x64_1_0_0_1_n_n 16 rfl rfl).symm k) = ix2 p k :=
    funext fun a => Fin.ext (by
      match a with
      | ⟨0, _⟩ =>
        show (dot_S16000x16_S16x64_S16000x64_1_0_0_1_n_n.lhsIdx (ix2 p q) _ 0).val = p.val
        unfold DotDims.lhsIdx
        rw [dif_neg (show ¬(0 : Fin S16000x16.rank) ∈ dot_S16000x16_S16x64_S16000x64_1_0_0_1_n_n.lhsBatch by decide),
          dif_pos (show (0 : Fin S16000x16.rank) ∈ dot_S16000x16_S16x64_S16000x64_1_0_0_1_n_n.lhsNonContracting by decide)]
        rfl
      | ⟨1, _⟩ => exact (dot_S16000x16_S16x64_S16000x64_1_0_0_1_n_n.lhsIdx_val_of_single rfl _ _).trans hk)
  have er : dot_S16000x16_S16x64_S16000x64_1_0_0_1_n_n.rhsIdx (ix2 p q) ((contrEquiv1 dot_S16000x16_S16x64_S16000x64_1_0_0_1_n_n 16 rfl rfl).symm k) = ix2 k q :=
    funext fun a => Fin.ext (by
      match a with
      | ⟨0, _⟩ => exact (dot_S16000x16_S16x64_S16000x64_1_0_0_1_n_n.rhsIdx_val_of_single rfl _ _).trans hk
      | ⟨1, _⟩ =>
        show (dot_S16000x16_S16x64_S16000x64_1_0_0_1_n_n.rhsIdx (ix2 p q) _ 1).val = q.val
        unfold DotDims.rhsIdx
        rw [dif_neg (show ¬(1 : Fin S16x64.rank) ∈ dot_S16000x16_S16x64_S16000x64_1_0_0_1_n_n.rhsBatch by decide),
          dif_pos (show (1 : Fin S16x64.rank) ∈ dot_S16000x16_S16x64_S16000x64_1_0_0_1_n_n.rhsNonContracting by decide)]
        rfl)
  rw [el, er]

/-- A product of a 20000×64 block with a 64×64 matrix into a zero accumulator, read at an entry: the sum over the
    contracted axis of the row's entries times the column's. -/
theorem matU_apply (l : FVec Ideal S20000x64 .f32) (r : FVec Ideal S64x64 .f32) (p : Fin 20000) (q : Fin 64) :
    matmul dot_S20000x64_S64x64_S20000x64_1_0_0_1_n_n none l r (constant S20000x64 .f32 0x00000000#32) (ix2 p q)
      = ∑ k : Fin 64, l (ix2 p k) * r (ix2 k q) := by
  refine (Ideal.matmul_constant_zero_apply dot_S20000x64_S64x64_S20000x64_1_0_0_1_n_n none l r (ix2 p q)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p q) ((contrEquiv1 dot_S20000x64_S64x64_S20000x64_1_0_0_1_n_n 64 rfl rfl).symm k) = ix2 p k :=
    funext fun a => Fin.ext (by
      match a with
      | ⟨0, _⟩ =>
        show (dot_S20000x64_S64x64_S20000x64_1_0_0_1_n_n.lhsIdx (ix2 p q) _ 0).val = p.val
        unfold DotDims.lhsIdx
        rw [dif_neg (show ¬(0 : Fin S20000x64.rank) ∈ dot_S20000x64_S64x64_S20000x64_1_0_0_1_n_n.lhsBatch by decide),
          dif_pos (show (0 : Fin S20000x64.rank) ∈ dot_S20000x64_S64x64_S20000x64_1_0_0_1_n_n.lhsNonContracting by decide)]
        rfl
      | ⟨1, _⟩ => exact (dot_S20000x64_S64x64_S20000x64_1_0_0_1_n_n.lhsIdx_val_of_single rfl _ _).trans hk)
  have er : dot_S20000x64_S64x64_S20000x64_1_0_0_1_n_n.rhsIdx (ix2 p q) ((contrEquiv1 dot_S20000x64_S64x64_S20000x64_1_0_0_1_n_n 64 rfl rfl).symm k) = ix2 k q :=
    funext fun a => Fin.ext (by
      match a with
      | ⟨0, _⟩ => exact (dot_S20000x64_S64x64_S20000x64_1_0_0_1_n_n.rhsIdx_val_of_single rfl _ _).trans hk
      | ⟨1, _⟩ =>
        show (dot_S20000x64_S64x64_S20000x64_1_0_0_1_n_n.rhsIdx (ix2 p q) _ 1).val = q.val
        unfold DotDims.rhsIdx
        rw [dif_neg (show ¬(1 : Fin S64x64.rank) ∈ dot_S20000x64_S64x64_S20000x64_1_0_0_1_n_n.rhsBatch by decide),
          dif_pos (show (1 : Fin S64x64.rank) ∈ dot_S20000x64_S64x64_S20000x64_1_0_0_1_n_n.rhsNonContracting by decide)]
        rfl)
  rw [el, er]

/-- The projection body at an entry: row `p` of the input block against column `q` of the weights, plus the bias. -/
theorem pay0_apply (x0 : Vec Ideal S10000x75 .f32) (x1 : Vec Ideal S75x64 .f32) (x2 : Vec Ideal S1x64 .f32)
    (p : Fin 10000) (q : Fin 64) :
    k0_pay1 x0 x1 x2 (ix2 p q) = (∑ k : Fin 75, x0 (ix2 p k) * x1 (ix2 k q)) + x2 (ix2 (0 : Fin 1) q) := by
  unfold k0_pay1
  refine (addf_apply _ _ _).trans ?_
  rw [matP_apply, shapeCast_self, broadcastTo_1b_ab_apply]

/-- What the message body holds before the leaky choice: the two products and the bias row. -/
def pre1 (x0 : FVec Ideal S16000x64 .f32) (x2 : FVec Ideal S64x64 .f32) (x5 : FVec Ideal S16000x16 .f32)
    (x6 : FVec Ideal S16x64 .f32) (x10 : FVec Ideal S1x64 .f32) : FVec Ideal S16000x64 .f32 :=
  addf (addf (matmul dot_S16000x64_S64x64_S16000x64_1_0_0_1_n_n none x0 x2 (constant (F := Ideal) S16000x64 .f32 0x00000000#32))
      (matmul dot_S16000x16_S16x64_S16000x64_1_0_0_1_n_n none x5 x6 (constant (F := Ideal) S16000x64 .f32 0x00000000#32)))
    (broadcastTo S16000x64 x10 broadcasts_S1x64_S16000x64)

theorem pre1_apply (x0 : FVec Ideal S16000x64 .f32) (x2 : FVec Ideal S64x64 .f32) (x5 : FVec Ideal S16000x16 .f32)
    (x6 : FVec Ideal S16x64 .f32) (x10 : FVec Ideal S1x64 .f32) (p : Fin 16000) (q : Fin 64) :
    pre1 x0 x2 x5 x6 x10 (ix2 p q)
      = ((∑ k : Fin 64, x0 (ix2 p k) * x2 (ix2 k q)) + (∑ k : Fin 16, x5 (ix2 p k) * x6 (ix2 k q))) + x10 (ix2 (0 : Fin 1) q) := by
  unfold pre1
  refine (addf_apply _ _ _).trans ?_
  rw [broadcastTo_1b_ab_apply]
  refine congrArg (· + _) ?_
  refine (addf_apply _ _ _).trans ?_
  rw [matMa_apply, matMb_apply]

/-- The message body at an entry: the gathered features against the upper 64 weight rows, the edge features against the
    lower 16, the bias, then the leaky choice. -/
theorem pay1_apply (x0 : Vec Ideal S16000x64 .f32) (x2 : Vec Ideal S64x64 .f32) (x5 : Vec Ideal S16000x16 .f32)
    (x6 : Vec Ideal S16x64 .f32) (x10 : Vec Ideal S1x64 .f32) (p : Fin 16000) (q : Fin 64) :
    k1_pay1 x0 x2 x5 x6 x10 (ix2 p q)
      = Cert.ReferenceIdeal.Spec.leak (((∑ k : Fin 64, x0 (ix2 p k) * x2 (ix2 k q)) + (∑ k : Fin 16, x5 (ix2 p k) * x6 (ix2 k q)))
          + x10 (ix2 (0 : Fin 1) q)) := by
  rw [← pre1_apply]
  unfold k1_pay1 Cert.ReferenceIdeal.Spec.leak pre1
  simp only [shapeCast_self]
  rfl

/-- The update body at an entry: the old features against the upper 64 weight rows, the summed messages against the
    lower 64, plus the bias. -/
theorem pay2_apply (x0 : Vec Ideal S20000x64 .f32) (x2 : Vec Ideal S64x64 .f32) (x5 : Vec Ideal S20000x64 .f32)
    (x7 : Vec Ideal S64x64 .f32) (x11 : Vec Ideal S1x64 .f32) (p : Fin 20000) (q : Fin 64) :
    k2_pay1 x0 x2 x5 x7 x11 (ix2 p q)
      = ((∑ k : Fin 64, x0 (ix2 p k) * x2 (ix2 k q)) + (∑ k : Fin 64, x5 (ix2 p k) * x7 (ix2 k q))) + x11 (ix2 (0 : Fin 1) q) := by
  unfold k2_pay1
  simp only [shapeCast_self]
  refine (addf_apply _ _ _).trans ?_
  rw [broadcastTo_1b_ab_apply]
  refine congrArg (· + _) ?_
  refine (addf_apply _ _ _).trans ?_
  rw [matU_apply, matU_apply]

/-- The three message bodies are one function, and so are the three update bodies. -/
theorem pay3_eq (x0 : Vec Ideal S16000x64 .f32) (x2 : Vec Ideal S64x64 .f32) (x5 : Vec Ideal S16000x16 .f32)
    (x6 : Vec Ideal S16x64 .f32) (x10 : Vec Ideal S1x64 .f32) : k3_pay1 x0 x2 x5 x6 x10 = k1_pay1 x0 x2 x5 x6 x10 := rfl
theorem pay5_eq (x0 : Vec Ideal S16000x64 .f32) (x2 : Vec Ideal S64x64 .f32) (x5 : Vec Ideal S16000x16 .f32)
    (x6 : Vec Ideal S16x64 .f32) (x10 : Vec Ideal S1x64 .f32) : k5_pay1 x0 x2 x5 x6 x10 = k1_pay1 x0 x2 x5 x6 x10 := rfl
theorem pay4_eq (x0 : Vec Ideal S20000x64 .f32) (x2 : Vec Ideal S64x64 .f32) (x5 : Vec Ideal S20000x64 .f32)
    (x7 : Vec Ideal S64x64 .f32) (x11 : Vec Ideal S1x64 .f32) : k4_pay1 x0 x2 x5 x7 x11 = k2_pay1 x0 x2 x5 x7 x11 := rfl
theorem pay6_eq (x0 : Vec Ideal S20000x64 .f32) (x2 : Vec Ideal S64x64 .f32) (x5 : Vec Ideal S20000x64 .f32)
    (x7 : Vec Ideal S64x64 .f32) (x11 : Vec Ideal S1x64 .f32) : k6_pay1 x0 x2 x5 x7 x11 = k2_pay1 x0 x2 x5 x7 x11 := rfl

end Cert.KernelIdeal.Pay

end
-- ==== Proof.KReg0.lean ====
/-
  The projection region: what its output array holds when the region is left.

  The grid has ten points; point `t` reads rows `10000 t … 10000 t + 9999` of the input, the whole weight matrix and the
  whole bias row, and writes the same rows of the output. So entry `(r, j)` of the output array is row `r` of the input
  against column `j` of the weights plus the bias at `j`, whatever block `r` falls in, and the ten blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay

noncomputable section

namespace Cert.KernelIdeal.Reg0

open Idealize.ShloMosaic Idealize.ShloMosaic.ValueIdx Idealize.ShloMosaic.TcCoe Idealize.SL.Sem Cert.KernelIdeal Cert.KernelIdeal.Gen

open Cert.KernelIdeal.Pay

variable (V : (c : Dev nD) → (b : Ref sig .tc) → Buf (Elt Ideal) ((c : Thread nD τ).loc b))

/-- The output as one function of the three arrays the region reads. -/
def G (X : FVec Ideal S100000x75 .f32) (W : FVec Ideal S75x64 .f32) (B : FVec Ideal S1x64 .f32) : FVec Ideal S100000x64 .f32 :=
  fun i => (∑ k : Fin 75, X (ix2 (⟨(i 0).val, idx2_lt0 i⟩ : Fin 100000) k) * W (ix2 k (⟨(i 1).val, idx2_lt1 i⟩ : Fin 64)))
    + B (ix2 (0 : Fin 1) (⟨(i 1).val, idx2_lt1 i⟩ : Fin 64))

theorem G_apply (X : FVec Ideal S100000x75 .f32) (W : FVec Ideal S75x64 .f32) (B : FVec Ideal S1x64 .f32) (r : Fin 100000) (j : Fin 64) :
    G X W B (ix2 r j) = (∑ k : Fin 75, X (ix2 r k) * W (ix2 k j)) + B (ix2 (0 : Fin 1) j) := rfl

theorem hz : (![0, 0] : Fin 2 → Nat) = fun _ => 0 := funext fun a => by fin_cases a <;> rfl

/-- The printed index maps over the grid: the row-blocked windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed_eq (c : Dev nD) (t : Fin cfg0.N) :
    (dat0 V c).flushed 3 t = ((cfg0.win 3).blk t).view.read (Elt Ideal) (G (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S10000x75) hz, View.ld_unit_zero (S := S75x64) hz, View.ld_unit_zero (S := S1x64) hz]
  obtain ⟨e0, e1, e2, e3, e4, e5, e6, e7⟩ := idx_facts t
  have hN : t.val < 10 := lt_of_lt_of_eq t.isLt (show cfg0.N = 10 from N_0)
  funext j
  obtain ⟨p, q, rfl⟩ : ∃ (p : Fin 10000) (q : Fin 64), j = ix2 p q := ⟨j 0, j 1, eq_ix2 j⟩
  refine (pay0_apply _ _ _ p q).trans ?_
  have hout : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show _ = G (V c main_arg0) (V c main_arg3) (V c main_v4) (((cfg0.win 3).blk t).view.emb (ix2 p q))
  rw [hout, G_apply]
  have hx : ∀ k : Fin 75, iblk0 V c 0 t (ix2 p k) = V c main_arg0 (ix2 (⟨t.val * 10000 + p.val, by omega⟩ : Fin 100000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 75 + 1 * k.val = k.val; omega
  have hw : ∀ k : Fin 75, iblk0 V c 1 t (ix2 k q) = V c main_arg3 (ix2 k q) := fun k => by
    show V c main_arg3 (((cfg0.win 1).blk t).view.emb (ix2 k q)) = _
    refine congrArg (V c main_arg3) ?_
    funext a; apply Fin.ext
    match a with
    | ⟨0, _⟩ => show win0_1.index t (0 : Fin 2) * 75 + 1 * k.val = k.val; omega
    | ⟨1, _⟩ => show win0_1.index t (1 : Fin 2) * 64 + 1 * q.val = q.val; omega
  have hb : iblk0 V c 2 t (ix2 (0 : Fin 1) q) = V c main_v4 (ix2 (0 : Fin 1) q) := by
    show V c main_v4 (((cfg0.win 2).blk t).view.emb (ix2 (0 : Fin 1) q)) = _
    refine congrArg (V c main_v4) ?_
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [hb]
  exact congrArg (· + _) (Finset.sum_congr rfl fun k _ => by rw [hx k, hw k])

/-- An index of the output array is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Every index of the output array lies in the block of the point its row falls in. -/
theorem cover (i : S100000x64.Idx) : ∃ t : Fin cfg0.N, (cfg0.win 3).flush t = true ∧ i ∈ ((cfg0.win 3).blk t).view.set := by
  have hi0 : (i 0).val < 100000 := idx2_lt0 i
  have hi1 : (i 1).val < 64 := idx2_lt1 i
  let t : Fin cfg0.N := ⟨(i 0).val / 10000, lt_of_lt_of_eq (by omega : (i 0).val / 10000 < 10) (show cfg0.N = 10 from N_0).symm⟩
  obtain ⟨e0, e1, e2, e3, e4, e5, e6, e7⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array when the region is left: `G` of the three arrays it read, as the region found them. -/
theorem final (c : Dev nD) : (dat0 V c).arrAt 3 cfg0.N = G (V c main_arg0) (V c main_arg3) (V c main_v4) :=
  (dat0 V c).arrAt_eq_of_cover 3 _ (fun t _ => flushed_eq V c t) cover

end Cert.KernelIdeal.Reg0

end
-- ==== Proof.KStage.lean ====
/-
  The idealized kernel program's stages as pure functions of arrays, in the program's own host operations.

  The edge list's two rows give the source and destination ids; the source ids (a negative one shifted once by the number
  of nodes) drive a gather of node features, the destination ids a scatter-add of messages into zeros. Layer `l` cuts its
  weights out of the stacked arrays: rows 0–63 and 64–79 of page `l` of the message weights, rows 0–63 and 64–127 of page
  `l` of the update weights, and row `l` of each bias array as a 1×64 row. The regions' results are the kernel functions
  of Proof/KReg0.lean and Proof/KFun.lean.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KFun
import proofs.«134910_j29300266893460_1_alg».proof.Proof.KReg0

noncomputable section

namespace Cert.KernelIdeal.Stage

open Idealize.ShloMosaic Idealize.ShloMosaic.ValueIdx Idealize.ShloMosaic.TcCoe Idealize.SL.Sem Cert.KernelIdeal

open Cert.KernelIdeal.Facts₀ Cert.KernelIdeal.Facts Cert.KernelIdeal.Fun

/-- Row 0 of the edge list: the source ids. -/
def ids0 (ei : IVec S2x1600000 32) : IVec S1600000 32 :=
  shapeCast S1600000 (extractStridedSlice S1x1600000 ![0, 0] ei slices_S2x1600000_S1x1600000_0_0) shapeCasts_S1x1600000_S1600000
/-- Row 1 of the edge list: the destination ids. -/
def ids1 (ei : IVec S2x1600000 32) : IVec S1600000 32 :=
  shapeCast S1600000 (extractStridedSlice S1x1600000 ![1, 0] ei slices_S2x1600000_S1x1600000_1_0) shapeCasts_S1x1600000_S1600000
/-- The projection's bias as a 1×64 row. -/
def prow (b : FVec Ideal S64 .f32) : FVec Ideal S1x64 .f32 := shapeCast S1x64 b shapeCasts_S64_S1x64

/-- The gather indices from the source ids. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The rows of the node features the source ids name. -/
def gath (h : FVec Ideal S100000x64 .f32) (s : IVec S1600000 32) : FVec Ideal S1600000x64 .f32 :=
  Host.gather gather_S100000x64_S1600000x1_S1600000x64_1_0_n_n_0_1_164 h (srcCol s)
/-- The messages summed at their destination nodes, from zeros. -/
def agg (d : IVec S1600000 32) (u : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) u

def wa2_0 (W : FVec Ideal S3x80x64 .f32) : FVec Ideal S64x64 .f32 :=
  shapeCast S64x64 (extractStridedSlice S1x64x64 ![0, 0, 0] W slices_S3x80x64_S1x64x64_0_0_0) shapeCasts_S1x64x64_S64x64
def wb2_0 (W : FVec Ideal S3x80x64 .f32) : FVec Ideal S16x64 .f32 :=
  shapeCast S16x64 (extractStridedSlice S1x16x64 ![0, 64, 0] W slices_S3x80x64_S1x16x64_0_64_0) shapeCasts_S1x16x64_S16x64
def wa1_0 (W : FVec Ideal S3x128x64 .f32) : FVec Ideal S64x64 .f32 :=
  shapeCast S64x64 (extractStridedSlice S1x64x64 ![0, 0, 0] W slices_S3x128x64_S1x64x64_0_0_0) shapeCasts_S1x64x64_S64x64
def wb1_0 (W : FVec Ideal S3x128x64 .f32) : FVec Ideal S64x64 .f32 :=
  shapeCast S64x64 (extractStridedSlice S1x64x64 ![0, 64, 0] W slices_S3x128x64_S1x64x64_0_64_0) shapeCasts_S1x64x64_S64x64
def brow_0 (B : FVec Ideal S3x64 .f32) : FVec Ideal S1x64 .f32 :=
  shapeCast S1x64 (shapeCast S64 (extractStridedSlice S1x64 ![0, 0] B slices_S3x64_S1x64_0_0) shapeCasts_S1x64_S64) shapeCasts_S64_S1x64
/-- Layer 0: gather, message kernel, scatter-add, update kernel. -/
def layer_0 (h : FVec Ideal S100000x64 .f32) (s d : IVec S1600000 32) (ea : FVec Ideal S1600000x16 .f32)
    (W2 : FVec Ideal S3x80x64 .f32) (B2 : FVec Ideal S3x64 .f32) (W1 : FVec Ideal S3x128x64 .f32) (B1 : FVec Ideal S3x64 .f32) :
    FVec Ideal S100000x64 .f32 :=
  GU h (agg d (GM (gath h s) ea (wa2_0 W2) (wb2_0 W2) (brow_0 B2))) (wa1_0 W1) (wb1_0 W1) (brow_0 B1)

def wa2_1 (W : FVec Ideal S3x80x64 .f32) : FVec Ideal S64x64 .f32 :=
  shapeCast S64x64 (extractStridedSlice S1x64x64 ![1, 0, 0] W slices_S3x80x64_S1x64x64_1_0_0) shapeCasts_S1x64x64_S64x64
def wb2_1 (W : FVec Ideal S3x80x64 .f32) : FVec Ideal S16x64 .f32 :=
  shapeCast S16x64 (extractStridedSlice S1x16x64 ![1, 64, 0] W slices_S3x80x64_S1x16x64_1_64_0) shapeCasts_S1x16x64_S16x64
def wa1_1 (W : FVec Ideal S3x128x64 .f32) : FVec Ideal S64x64 .f32 :=
  shapeCast S64x64 (extractStridedSlice S1x64x64 ![1, 0, 0] W slices_S3x128x64_S1x64x64_1_0_0) shapeCasts_S1x64x64_S64x64
def wb1_1 (W : FVec Ideal S3x128x64 .f32) : FVec Ideal S64x64 .f32 :=
  shapeCast S64x64 (extractStridedSlice S1x64x64 ![1, 64, 0] W slices_S3x128x64_S1x64x64_1_64_0) shapeCasts_S1x64x64_S64x64
def brow_1 (B : FVec Ideal S3x64 .f32) : FVec Ideal S1x64 .f32 :=
  shapeCast S1x64 (shapeCast S64 (extractStridedSlice S1x64 ![1, 0] B slices_S3x64_S1x64_1_0) shapeCasts_S1x64_S64) shapeCasts_S64_S1x64
/-- Layer 1: gather, message kernel, scatter-add, update kernel. -/
def layer_1 (h : FVec Ideal S100000x64 .f32) (s d : IVec S1600000 32) (ea : FVec Ideal S1600000x16 .f32)
    (W2 : FVec Ideal S3x80x64 .f32) (B2 : FVec Ideal S3x64 .f32) (W1 : FVec Ideal S3x128x64 .f32) (B1 : FVec Ideal S3x64 .f32) :
    FVec Ideal S100000x64 .f32 :=
  GU h (agg d (GM (gath h s) ea (wa2_1 W2) (wb2_1 W2) (brow_1 B2))) (wa1_1 W1) (wb1_1 W1) (brow_1 B1)

def wa2_2 (W : FVec Ideal S3x80x64 .f32) : FVec Ideal S64x64 .f32 :=
  shapeCast S64x64 (extractStridedSlice S1x64x64 ![2, 0, 0] W slices_S3x80x64_S1x64x64_2_0_0) shapeCasts_S1x64x64_S64x64
def wb2_2 (W : FVec Ideal S3x80x64 .f32) : FVec Ideal S16x64 .f32 :=
  shapeCast S16x64 (extractStridedSlice S1x16x64 ![2, 64, 0] W slices_S3x80x64_S1x16x64_2_64_0) shapeCasts_S1x16x64_S16x64
def wa1_2 (W : FVec Ideal S3x128x64 .f32) : FVec Ideal S64x64 .f32 :=
  shapeCast S64x64 (extractStridedSlice S1x64x64 ![2, 0, 0] W slices_S3x128x64_S1x64x64_2_0_0) shapeCasts_S1x64x64_S64x64
def wb1_2 (W : FVec Ideal S3x128x64 .f32) : FVec Ideal S64x64 .f32 :=
  shapeCast S64x64 (extractStridedSlice S1x64x64 ![2, 64, 0] W slices_S3x128x64_S1x64x64_2_64_0) shapeCasts_S1x64x64_S64x64
def brow_2 (B : FVec Ideal S3x64 .f32) : FVec Ideal S1x64 .f32 :=
  shapeCast S1x64 (shapeCast S64 (extractStridedSlice S1x64 ![2, 0] B slices_S3x64_S1x64_2_0) shapeCasts_S1x64_S64) shapeCasts_S64_S1x64
/-- Layer 2: gather, message kernel, scatter-add, update kernel. -/
def layer_2 (h : FVec Ideal S100000x64 .f32) (s d : IVec S1600000 32) (ea : FVec Ideal S1600000x16 .f32)
    (W2 : FVec Ideal S3x80x64 .f32) (B2 : FVec Ideal S3x64 .f32) (W1 : FVec Ideal S3x128x64 .f32) (B1 : FVec Ideal S3x64 .f32) :
    FVec Ideal S100000x64 .f32 :=
  GU h (agg d (GM (gath h s) ea (wa2_2 W2) (wb2_2 W2) (brow_2 B2))) (wa1_2 W1) (wb1_2 W1) (brow_2 B1)

/-- The projection region's result. -/
def h0 (x : FVec Ideal S100000x75 .f32) (pw : FVec Ideal S75x64 .f32) (pb : FVec Ideal S64 .f32) : FVec Ideal S100000x64 .f32 :=
  Cert.KernelIdeal.Reg0.G x pw (prow pb)

/-- The whole program: the projection, then the three layers. -/
def result (x : FVec Ideal S100000x75 .f32) (ei : IVec S2x1600000 32) (ea : FVec Ideal S1600000x16 .f32)
    (pw : FVec Ideal S75x64 .f32) (pb : FVec Ideal S64 .f32) (W2 : FVec Ideal S3x80x64 .f32) (B2 : FVec Ideal S3x64 .f32)
    (W1 : FVec Ideal S3x128x64 .f32) (B1 : FVec Ideal S3x64 .f32) : FVec Ideal S100000x64 .f32 :=
  layer_2 (layer_1 (layer_0 (h0 x pw pb) (ids0 ei) (ids1 ei) ea W2 B2 W1 B1) (ids0 ei) (ids1 ei) ea W2 B2 W1 B1)
    (ids0 ei) (ids1 ei) ea W2 B2 W1 B1

end Cert.KernelIdeal.Stage

end
-- ==== Proof.KReg1.lean ====
/-
  Region 1 of the kernel program: what its output array holds when the region is left.

  A message region (grid of one hundred points): point `t` reads rows `16000 t … 16000 t + 15999` of the gathered source
  features and of the edge features, both weight blocks and the bias row whole, and writes the same rows of the message
  array. So entry `(e, j)` of the message array is the message kernel's function of row `e`, whatever block `e` falls in, and
  the hundred blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg1

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the kernel's function of the arrays as the region finds them. -/
theorem flushed_eq (c : Dev nD) (t : Fin cfg1.N) :
    (dat1 V c).flushed 5 t = ((cfg1.win 5).blk t).view.read (Elt Ideal)
      (GM (V c main_v12) (V c main_arg2) (V c main_v14) (V c main_v16) (V c main_v19)) := by
  show (cfg1.win 5).cut (grid1.coords t) ((dat1 V c).after 5 t) = _
  rw [after1_5]
  unfold out1_5
  rw [View.canon_unit_zero hz]
  simp only [View.ld_unit_zero (S := S16000x64) hz, View.ld_unit_zero (S := S64x64) hz, View.ld_unit_zero (S := S16000x16) hz, View.ld_unit_zero (S := S16x64) hz, View.ld_unit_zero (S := S1x64) hz]
  obtain ⟨e0, e1, e2, e3, e4, e5, e6, e7, e8, e9, e10, e11⟩ := idx_facts t
  have hN : t.val < 100 := lt_of_lt_of_eq t.isLt (show cfg1.N = 100 from N_1)
  funext j
  obtain ⟨p, q, rfl⟩ : ∃ (p : Fin 16000) (q : Fin 64), j = ix2 p q := ⟨j 0, j 1, eq_ix2 j⟩
  refine (pay1_apply _ _ _ _ _ p q).trans ?_
  have hout : ((cfg1.win 5).blk t).view.emb (ix2 p q) = ix2 (⟨t.val * 16000 + p.val, by omega⟩ : Fin 1600000) q := by
    funext a; apply Fin.ext
    match a with
    | ⟨0, _⟩ => show win1_5.index t (0 : Fin 2) * 16000 + 1 * p.val = t.val * 16000 + p.val; omega
    | ⟨1, _⟩ => show win1_5.index t (1 : Fin 2) * 64 + 1 * q.val = q.val; omega
  show _ = GM (V c main_v12) (V c main_arg2) (V c main_v14) (V c main_v16) (V c main_v19) (((cfg1.win 5).blk t).view.emb (ix2 p q))
  rw [hout, GM_apply]
  have h0 : ∀ k : Fin 64, iblk1 V c 0 t (ix2 p k) = V c main_v12 (ix2 (⟨t.val * 16000 + p.val, by omega⟩ : Fin 1600000) k) := fun k => by
    show V c main_v12 (((cfg1.win 0).blk t).view.emb (ix2 p k)) = _
    refine congrArg (V c main_v12) ?_
    funext a; apply Fin.ext
    match a with
    | ⟨0, _⟩ => show win1_0.index t (0 : Fin 2) * 16000 + 1 * p.val = t.val * 16000 + p.val; omega
    | ⟨1, _⟩ => show win1_0.index t (1 : Fin 2) * 64 + 1 * k.val = k.val; omega
  have h1 : ∀ k : Fin 16, iblk1 V c 1 t (ix2 p k) = V c main_arg2 (ix2 (⟨t.val * 16000 + p.val, by omega⟩ : Fin 1600000) k) := fun k => by
    show V c main_arg2 (((cfg1.win 1).blk t).view.emb (ix2 p k)) = _
    refine congrArg (V c main_arg2) ?_
    funext a; apply Fin.ext
    match a with
    | ⟨0, _⟩ => show win1_1.index t (0 : Fin 2) * 16000 + 1 * p.val = t.val * 16000 + p.val; omega
    | ⟨1, _⟩ => show win1_1.index t (1 : Fin 2) * 16 + 1 * k.val = k.val; omega
  have h2 : ∀ k : Fin 64, iblk1 V c 2 t (ix2 k q) = V c main_v14 (ix2 k q) := fun k => by
    show V c main_v14 (((cfg1.win 2).blk t).view.emb (ix2 k q)) = _
    refine congrArg (V c main_v14) ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  have h3 : ∀ k : Fin 16, iblk1 V c 3 t (ix2 k q) = V c main_v16 (ix2 k q) := fun k => by
    show V c main_v16 (((cfg1.win 3).blk t).view.emb (ix2 k q)) = _
    refine congrArg (V c main_v16) ?_
    funext a; apply Fin.ext
    match a with
    | ⟨0, _⟩ => show win1_3.index t (0 : Fin 2) * 16 + 1 * k.val = k.val; omega
    | ⟨1, _⟩ => show win1_3.index t (1 : Fin 2) * 64 + 1 * q.val = q.val; omega
  have h4 : iblk1 V c 4 t (ix2 (0 : Fin 1) q) = V c main_v19 (ix2 (0 : Fin 1) q) := by
    show V c main_v19 (((cfg1.win 4).blk t).view.emb (ix2 (0 : Fin 1) q)) = _
    refine congrArg (V c main_v19) ?_
    funext a; apply Fin.ext
    match a with
    | ⟨0, _⟩ => show win1_4.index t (0 : Fin 2) * 1 + 1 * 0 = 0; omega
    | ⟨1, _⟩ => show win1_4.index t (1 : Fin 2) * 64 + 1 * q.val = q.val; omega
  rw [h4]
  refine congrArg Cert.ReferenceIdeal.Spec.leak ?_
  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg1.N) (i : S1600000x64.Idx) :
    i ∈ ((cfg1.win 5).blk t).view.set ↔ ∀ a : Fin 2, win1_5.index t a * S16000x64.size a ≤ (i a).val ∧ (i a).val < win1_5.index t a * S16000x64.size a + S16000x64.size a := by
  show i ∈ ((View.whole main_v20).slice (win1_5.rect t)).set ↔ _
  rw [View.set_slice_whole, Rect.mem_set_unit]
  exact Iff.rfl

/-- Every index of the output array lies in the block of the point its row falls in. -/
theorem cover (i : S1600000x64.Idx) : ∃ t : Fin cfg1.N, (cfg1.win 5).flush t = true ∧ i ∈ ((cfg1.win 5).blk t).view.set := by
  have hi0 : (i 0).val < 1600000 := idx2_lt0 i
  have hi1 : (i 1).val < 64 := idx2_lt1 i
  let t : Fin cfg1.N := ⟨(i 0).val / 16000, lt_of_lt_of_eq (by omega : (i 0).val / 16000 < 100) (show cfg1.N = 100 from N_1).symm⟩
  obtain ⟨e0, e1, e2, e3, e4, e5, e6, e7, e8, e9, e10, e11⟩ := idx_facts t
  have ht : t.val = (i 0).val / 16000 := rfl
  refine ⟨t, flush1_5 t, ?_⟩
  rw [mem_blk]
  intro a
  match a with
  | ⟨0, _⟩ => show win1_5.index t (0 : Fin 2) * 16000 ≤ (i 0).val ∧ (i 0).val < win1_5.index t (0 : Fin 2) * 16000 + 16000; omega
  | ⟨1, _⟩ => show win1_5.index t (1 : Fin 2) * 64 ≤ (i 1).val ∧ (i 1).val < win1_5.index t (1 : Fin 2) * 64 + 64; omega

/-- The output array when the region is left: the kernel's function of the five arrays it read, as the region found them. -/
theorem final (c : Dev nD) : (dat1 V c).arrAt 5 cfg1.N = GM (V c main_v12) (V c main_arg2) (V c main_v14) (V c main_v16) (V c main_v19) :=
  (dat1 V c).arrAt_eq_of_cover 5 _ (fun t _ => flushed_eq V c t) cover

end Cert.KernelIdeal.Reg1

end
-- ==== Proof.KReg2.lean ====
/-
  Region 2 of the kernel program: what its output array holds when the region is left.

  An update region (grid of five points): point `t` reads rows `20000 t … 20000 t + 19999` of the old node features and of
  the summed messages, both weight blocks and the bias row whole, and writes the same rows of the new node features. So
  entry `(r, j)` of the new features is the update kernel's function of row `r`, whatever block `r` falls in, and the five
  blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg2

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the kernel's function of the arrays as the region finds them. -/
theorem flushed_eq (c : Dev nD) (t : Fin cfg2.N) :
    (dat2 V c).flushed 5 t = ((cfg2.win 5).blk t).view.read (Elt Ideal)
      (GU (V c main_v5) (V c main_v23) (V c main_v25) (V c main_v27) (V c main_v30)) := by
  show (cfg2.win 5).cut (grid2.coords t) ((dat2 V c).after 5 t) = _
  rw [after2_5]
  unfold out2_5
  rw [View.canon_unit_zero hz]
  simp only [View.ld_unit_zero (S := S20000x64) hz, View.ld_unit_zero (S := S64x64) hz, View.ld_unit_zero (S := S1x64) hz]
  obtain ⟨e0, e1, e2, e3, e4, e5, e6, e7, e8, e9, e10, e11⟩ := idx_facts t
  have hN : t.val < 5 := lt_of_lt_of_eq t.isLt (show cfg2.N = 5 from N_2)
  funext j
  obtain ⟨p, q, rfl⟩ : ∃ (p : Fin 20000) (q : Fin 64), j = ix2 p q := ⟨j 0, j 1, eq_ix2 j⟩
  refine (pay2_apply _ _ _ _ _ p q).trans ?_
  have hout : ((cfg2.win 5).blk t).view.emb (ix2 p q) = ix2 (⟨t.val * 20000 + p.val, by omega⟩ : Fin 100000) q := by
    funext a; apply Fin.ext
    match a with
    | ⟨0, _⟩ => show win2_5.index t (0 : Fin 2) * 20000 + 1 * p.val = t.val * 20000 + p.val; omega
    | ⟨1, _⟩ => show win2_5.index t (1 : Fin 2) * 64 + 1 * q.val = q.val; omega
  show _ = GU (V c main_v5) (V c main_v23) (V c main_v25) (V c main_v27) (V c main_v30) (((cfg2.win 5).blk t).view.emb (ix2 p q))
  rw [hout, GU_apply]
  have h0 : ∀ k : Fin 64, iblk2 V c 0 t (ix2 p k) = V c main_v5 (ix2 (⟨t.val * 20000 + p.val, by omega⟩ : Fin 100000) k) := fun k => by
    show V c main_v5 (((cfg2.win 0).blk t).view.emb (ix2 p k)) = _
    refine congrArg (V c main_v5) ?_
    funext a; apply Fin.ext
    match a with
    | ⟨0, _⟩ => show win2_0.index t (0 : Fin 2) * 20000 + 1 * p.val = t.val * 20000 + p.val; omega
    | ⟨1, _⟩ => show win2_0.index t (1 : Fin 2) * 64 + 1 * k.val = k.val; omega
  have h1 : ∀ k : Fin 64, iblk2 V c 1 t (ix2 p k) = V c main_v23 (ix2 (⟨t.val * 20000 + p.val, by omega⟩ : Fin 100000) k) := fun k => by
    show V c main_v23 (((cfg2.win 1).blk t).view.emb (ix2 p k)) = _
    refine congrArg (V c main_v23) ?_
    funext a; apply Fin.ext
    match a with
    | ⟨0, _⟩ => show win2_1.index t (0 : Fin 2) * 20000 + 1 * p.val = t.val * 20000 + p.val; omega
    | ⟨1, _⟩ => show win2_1.index t (1 : Fin 2) * 64 + 1 * k.val = k.val; omega
  have h2 : ∀ k : Fin 64, iblk2 V c 2 t (ix2 k q) = V c main_v25 (ix2 k q) := fun k => by
    show V c main_v25 (((cfg2.win 2).blk t).view.emb (ix2 k q)) = _
    refine congrArg (V c main_v25) ?_
    funext a; apply Fin.ext
    match a with
    | ⟨0, _⟩ => show win2_2.index t (0 : Fin 2) * 64 + 1 * k.val = k.val; omega
    | ⟨1, _⟩ => show win2_2.index t (1 : Fin 2) * 64 + 1 * q.val = q.val; omega
  have h3 : ∀ k : Fin 64, iblk2 V c 3 t (ix2 k q) = V c main_v27 (ix2 k q) := fun k => by
    show V c main_v27 (((cfg2.win 3).blk t).view.emb (ix2 k q)) = _
    refine congrArg (V c main_v27) ?_
    funext a; apply Fin.ext
    match a with
    | ⟨0, _⟩ => show win2_3.index t (0 : Fin 2) * 64 + 1 * k.val = k.val; omega
    | ⟨1, _⟩ => show win2_3.index t (1 : Fin 2) * 64 + 1 * q.val = q.val; omega
  have h4 : iblk2 V c 4 t (ix2 (0 : Fin 1) q) = V c main_v30 (ix2 (0 : Fin 1) q) := by
    show V c main_v30 (((cfg2.win 4).blk t).view.emb (ix2 (0 : Fin 1) q)) = _
    refine congrArg (V c main_v30) ?_
    funext a; apply Fin.ext
    match a with
    | ⟨0, _⟩ => show win2_4.index t (0 : Fin 2) * 1 + 1 * 0 = 0; omega
    | ⟨1, _⟩ => show win2_4.index t (1 : Fin 2) * 64 + 1 * q.val = q.val; omega
  rw [h4]

  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg2.N) (i : S100000x64.Idx) :
    i ∈ ((cfg2.win 5).blk t).view.set ↔ ∀ a : Fin 2, win2_5.index t a * S20000x64.size a ≤ (i a).val ∧ (i a).val < win2_5.index t a * S20000x64.size a + S20000x64.size a := by
  show i ∈ ((View.whole main_v31).slice (win2_5.rect t)).set ↔ _
  rw [View.set_slice_whole, Rect.mem_set_unit]
  exact Iff.rfl

/-- Every index of the output array lies in the block of the point its row falls in. -/
theorem cover (i : S100000x64.Idx) : ∃ t : Fin cfg2.N, (cfg2.win 5).flush t = true ∧ i ∈ ((cfg2.win 5).blk t).view.set := by
  have hi0 : (i 0).val < 100000 := idx2_lt0 i
  have hi1 : (i 1).val < 64 := idx2_lt1 i
  let t : Fin cfg2.N := ⟨(i 0).val / 20000, lt_of_lt_of_eq (by omega : (i 0).val / 20000 < 5) (show cfg2.N = 5 from N_2).symm⟩
  obtain ⟨e0, e1, e2, e3, e4, e5, e6, e7, e8, e9, e10, e11⟩ := idx_facts t
  have ht : t.val = (i 0).val / 20000 := rfl
  refine ⟨t, flush2_5 t, ?_⟩
  rw [mem_blk]
  intro a
  match a with
  | ⟨0, _⟩ => show win2_5.index t (0 : Fin 2) * 20000 ≤ (i 0).val ∧ (i 0).val < win2_5.index t (0 : Fin 2) * 20000 + 20000; omega
  | ⟨1, _⟩ => show win2_5.index t (1 : Fin 2) * 64 ≤ (i 1).val ∧ (i 1).val < win2_5.index t (1 : Fin 2) * 64 + 64; omega

/-- The output array when the region is left: the kernel's function of the five arrays it read, as the region found them. -/
theorem final (c : Dev nD) : (dat2 V c).arrAt 5 cfg2.N = GU (V c main_v5) (V c main_v23) (V c main_v25) (V c main_v27) (V c main_v30) :=
  (dat2 V c).arrAt_eq_of_cover 5 _ (fun t _ => flushed_eq V c t) cover

end Cert.KernelIdeal.Reg2

end
-- ==== Proof.KReg3.lean ====
/-
  Region 3 of the kernel program: what its output array holds when the region is left.

  A message region (grid of one hundred points): point `t` reads rows `16000 t … 16000 t + 15999` of the gathered source
  features and of the edge features, both weight blocks and the bias row whole, and writes the same rows of the message
  array. So entry `(e, j)` of the message array is the message kernel's function of row `e`, whatever block `e` falls in, and
  the hundred blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg3

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the kernel's function of the arrays as the region finds them. -/
theorem flushed_eq (c : Dev nD) (t : Fin cfg3.N) :
    (dat3 V c).flushed 5 t = ((cfg3.win 5).blk t).view.read (Elt Ideal)
      (GM (V c main_v38) (V c main_arg2) (V c main_v40) (V c main_v42) (V c main_v45)) := by
  show (cfg3.win 5).cut (grid3.coords t) ((dat3 V c).after 5 t) = _
  rw [after3_5]
  unfold out3_5
  rw [View.canon_unit_zero hz]
  simp only [View.ld_unit_zero (S := S16000x64) hz, View.ld_unit_zero (S := S64x64) hz, View.ld_unit_zero (S := S16000x16) hz, View.ld_unit_zero (S := S16x64) hz, View.ld_unit_zero (S := S1x64) hz]
  obtain ⟨e0, e1, e2, e3, e4, e5, e6, e7, e8, e9, e10, e11⟩ := idx_facts t
  have hN : t.val < 100 := lt_of_lt_of_eq t.isLt (show cfg3.N = 100 from N_3)
  funext j
  obtain ⟨p, q, rfl⟩ : ∃ (p : Fin 16000) (q : Fin 64), j = ix2 p q := ⟨j 0, j 1, eq_ix2 j⟩
  refine ((congrFun (pay3_eq _ _ _ _ _) (ix2 p q)).trans (pay1_apply _ _ _ _ _ p q)).trans ?_
  have hout : ((cfg3.win 5).blk t).view.emb (ix2 p q) = ix2 (⟨t.val * 16000 + p.val, by omega⟩ : Fin 1600000) q := by
    funext a; apply Fin.ext
    match a with
    | ⟨0, _⟩ => show win3_5.index t (0 : Fin 2) * 16000 + 1 * p.val = t.val * 16000 + p.val; omega
    | ⟨1, _⟩ => show win3_5.index t (1 : Fin 2) * 64 + 1 * q.val = q.val; omega
  show _ = GM (V c main_v38) (V c main_arg2) (V c main_v40) (V c main_v42) (V c main_v45) (((cfg3.win 5).blk t).view.emb (ix2 p q))
  rw [hout, GM_apply]
  have h0 : ∀ k : Fin 64, iblk3 V c 0 t (ix2 p k) = V c main_v38 (ix2 (⟨t.val * 16000 + p.val, by omega⟩ : Fin 1600000) k) := fun k => by
    show V c main_v38 (((cfg3.win 0).blk t).view.emb (ix2 p k)) = _
    refine congrArg (V c main_v38) ?_
    funext a; apply Fin.ext
    match a with
    | ⟨0, _⟩ => show win3_0.index t (0 : Fin 2) * 16000 + 1 * p.val = t.val * 16000 + p.val; omega
    | ⟨1, _⟩ => show win3_0.index t (1 : Fin 2) * 64 + 1 * k.val = k.val; omega
  have h1 : ∀ k : Fin 16, iblk3 V c 1 t (ix2 p k) = V c main_arg2 (ix2 (⟨t.val * 16000 + p.val, by omega⟩ : Fin 1600000) k) := fun k => by
    show V c main_arg2 (((cfg3.win 1).blk t).view.emb (ix2 p k)) = _
    refine congrArg (V c main_arg2) ?_
    funext a; apply Fin.ext
    match a with
    | ⟨0, _⟩ => show win3_1.index t (0 : Fin 2) * 16000 + 1 * p.val = t.val * 16000 + p.val; omega
    | ⟨1, _⟩ => show win3_1.index t (1 : Fin 2) * 16 + 1 * k.val = k.val; omega
  have h2 : ∀ k : Fin 64, iblk3 V c 2 t (ix2 k q) = V c main_v40 (ix2 k q) := fun k => by
    show V c main_v40 (((cfg3.win 2).blk t).view.emb (ix2 k q)) = _
    refine congrArg (V c main_v40) ?_
    funext a; apply Fin.ext
    match a with
    | ⟨0, _⟩ => show win3_2.index t (0 : Fin 2) * 64 + 1 * k.val = k.val; omega
    | ⟨1, _⟩ => show win3_2.index t (1 : Fin 2) * 64 + 1 * q.val = q.val; omega
  have h3 : ∀ k : Fin 16, iblk3 V c 3 t (ix2 k q) = V c main_v42 (ix2 k q) := fun k => by
    show V c main_v42 (((cfg3.win 3).blk t).view.emb (ix2 k q)) = _
    refine congrArg (V c main_v42) ?_
    funext a; apply Fin.ext
    match a with
    | ⟨0, _⟩ => show win3_3.index t (0 : Fin 2) * 16 + 1 * k.val = k.val; omega
    | ⟨1, _⟩ => show win3_3.index t (1 : Fin 2) * 64 + 1 * q.val = q.val; omega
  have h4 : iblk3 V c 4 t (ix2 (0 : Fin 1) q) = V c main_v45 (ix2 (0 : Fin 1) q) := by
    show V c main_v45 (((cfg3.win 4).blk t).view.emb (ix2 (0 : Fin 1) q)) = _
    refine congrArg (V c main_v45) ?_
    funext a; apply Fin.ext
    match a with
    | ⟨0, _⟩ => show win3_4.index t (0 : Fin 2) * 1 + 1 * 0 = 0; omega
    | ⟨1, _⟩ => show win3_4.index t (1 : Fin 2) * 64 + 1 * q.val = q.val; omega
  rw [h4]
  refine congrArg Cert.ReferenceIdeal.Spec.leak ?_
  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg3.N) (i : S1600000x64.Idx) :
    i ∈ ((cfg3.win 5).blk t).view.set ↔ ∀ a : Fin 2, win3_5.index t a * S16000x64.size a ≤ (i a).val ∧ (i a).val < win3_5.index t a * S16000x64.size a + S16000x64.size a := by
  show i ∈ ((View.whole main_v46).slice (win3_5.rect t)).set ↔ _
  rw [View.set_slice_whole, Rect.mem_set_unit]
  exact Iff.rfl

/-- Every index of the output array lies in the block of the point its row falls in. -/
theorem cover (i : S1600000x64.Idx) : ∃ t : Fin cfg3.N, (cfg3.win 5).flush t = true ∧ i ∈ ((cfg3.win 5).blk t).view.set := by
  have hi0 : (i 0).val < 1600000 := idx2_lt0 i
  have hi1 : (i 1).val < 64 := idx2_lt1 i
  let t : Fin cfg3.N := ⟨(i 0).val / 16000, lt_of_lt_of_eq (by omega : (i 0).val / 16000 < 100) (show cfg3.N = 100 from N_3).symm⟩
  obtain ⟨e0, e1, e2, e3, e4, e5, e6, e7, e8, e9, e10, e11⟩ := idx_facts t
  have ht : t.val = (i 0).val / 16000 := rfl
  refine ⟨t, flush3_5 t, ?_⟩
  rw [mem_blk]
  intro a
  match a with
  | ⟨0, _⟩ => show win3_5.index t (0 : Fin 2) * 16000 ≤ (i 0).val ∧ (i 0).val < win3_5.index t (0 : Fin 2) * 16000 + 16000; omega
  | ⟨1, _⟩ => show win3_5.index t (1 : Fin 2) * 64 ≤ (i 1).val ∧ (i 1).val < win3_5.index t (1 : Fin 2) * 64 + 64; omega

/-- The output array when the region is left: the kernel's function of the five arrays it read, as the region found them. -/
theorem final (c : Dev nD) : (dat3 V c).arrAt 5 cfg3.N = GM (V c main_v38) (V c main_arg2) (V c main_v40) (V c main_v42) (V c main_v45) :=
  (dat3 V c).arrAt_eq_of_cover 5 _ (fun t _ => flushed_eq V c t) cover

end Cert.KernelIdeal.Reg3

end
-- ==== Proof.KReg4.lean ====
/-
  Region 4 of the kernel program: what its output array holds when the region is left.

  An update region (grid of five points): point `t` reads rows `20000 t … 20000 t + 19999` of the old node features and of
  the summed messages, both weight blocks and the bias row whole, and writes the same rows of the new node features. So
  entry `(r, j)` of the new features is the update kernel's function of row `r`, whatever block `r` falls in, and the five
  blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg4

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of the kernel's function of the arrays as the region finds them. -/
theorem flushed_eq (c : Dev nD) (t : Fin cfg4.N) :
    (dat4 V c).flushed 5 t = ((cfg4.win 5).blk t).view.read (Elt Ideal)
      (GU (V c main_v31) (V c main_v49) (V c main_v51) (V c main_v53) (V c main_v56)) := by
  show (cfg4.win 5).cut (grid4.coords t) ((dat4 V c).after 5 t) = _
  rw [after4_5]
  unfold out4_5
  rw [View.canon_unit_zero hz]
  simp only [View.ld_unit_zero (S := S20000x64) hz, View.ld_unit_zero (S := S64x64) hz, View.ld_unit_zero (S := S1x64) hz]
  obtain ⟨e0, e1, e2, e3, e4, e5, e6, e7, e8, e9, e10, e11⟩ := idx_facts t
  have hN : t.val < 5 := lt_of_lt_of_eq t.isLt (show cfg4.N = 5 from N_4)
  funext j
  obtain ⟨p, q, rfl⟩ : ∃ (p : Fin 20000) (q : Fin 64), j = ix2 p q := ⟨j 0, j 1, eq_ix2 j⟩
  refine ((congrFun (pay4_eq _ _ _ _ _) (ix2 p q)).trans (pay2_apply _ _ _ _ _ p q)).trans ?_
  have hout : ((cfg4.win 5).blk t).view.emb (ix2 p q) = ix2 (⟨t.val * 20000 + p.val, by omega⟩ : Fin 100000) q := by
    funext a; apply Fin.ext
    match a with
    | ⟨0, _⟩ => show win4_5.index t (0 : Fin 2) * 20000 + 1 * p.val = t.val * 20000 + p.val; omega
    | ⟨1, _⟩ => show win4_5.index t (1 : Fin 2) * 64 + 1 * q.val = q.val; omega
  show _ = GU (V c main_v31) (V c main_v49) (V c main_v51) (V c main_v53) (V c main_v56) (((cfg4.win 5).blk t).view.emb (ix2 p q))
  rw [hout, GU_apply]
  have h0 : ∀ k : Fin 64, iblk4 V c 0 t (ix2 p k) = V c main_v31 (ix2 (⟨t.val * 20000 + p.val, by omega⟩ : Fin 100000) k) := fun k => by
    show V c main_v31 (((cfg4.win 0).blk t).view.emb (ix2 p k)) = _
    refine congrArg (V c main_v31) ?_
    funext a; apply Fin.ext
    match a with
    | ⟨0, _⟩ => show win4_0.index t (0 : Fin 2) * 20000 + 1 * p.val = t.val * 20000 + p.val; omega
    | ⟨1, _⟩ => show win4_0.index t (1 : Fin 2) * 64 + 1 * k.val = k.val; omega
  have h1 : ∀ k : Fin 64, iblk4 V c 1 t (ix2 p k) = V c main_v49 (ix2 (⟨t.val * 20000 + p.val, by omega⟩ : Fin 100000) k) := fun k => by
    show V c main_v49 (((cfg4.win 1).blk t).view.emb (ix2 p k)) = _
    refine congrArg (V c main_v49) ?_
    funext a; apply Fin.ext
    match a with
    | ⟨0, _⟩ => show win4_1.index t (0 : Fin 2) * 20000 + 1 * p.val = t.val * 20000 + p.val; omega
    | ⟨1, _⟩ => show win4_1.index t (1 : Fin 2) * 64 + 1 * k.val = k.val; omega
  have h2 : ∀ k : Fin 64, iblk4 V c 2 t (ix2 k q) = V c main_v51 (ix2 k q) := fun k => by
    show V c main_v51 (((cfg4.win 2).blk t).view.emb (ix2 k q)) = _
    refine congrArg (V c main_v51) ?_
    funext a; apply Fin.ext
    match a with
    | ⟨0, _⟩ => show win4_2.index t (0 : Fin 2) * 64 + 1 * k.val = k.val; omega
    | ⟨1, _⟩ => show win4_2.index t (1 : Fin 2) * 64 + 1 * q.val = q.val; omega
  have h3 : ∀ k : Fin 64, iblk4 V c 3 t (ix2 k q) = V c main_v53 (ix2 k q) := fun k => by
    show V c main_v53 (((cfg4.win 3).blk t).view.emb (ix2 k q)) = _
    refine congrArg (V c main_v53) ?_
    funext a; apply Fin.ext
    match a with
    | ⟨0, _⟩ => show win4_3.index t (0 : Fin 2) * 64 + 1 * k.val = k.val; omega
    | ⟨1, _⟩ => show win4_3.index t (1 : Fin 2) * 64 + 1 * q.val = q.val; omega
  have h4 : iblk4 V c 4 t (ix2 (0 : Fin 1) q) = V c main_v56 (ix2 (0 : Fin 1) q) := by
    show V c main_v56 (((cfg4.win 4).blk t).view.emb (ix2 (0 : Fin 1) q)) = _
    refine congrArg (V c main_v56) ?_
    funext a; apply Fin.ext
    match a with
    | ⟨0, _⟩ => show win4_4.index t (0 : Fin 2) * 1 + 1 * 0 = 0; omega
    | ⟨1, _⟩ => show win4_4.index t (1 : Fin 2) * 64 + 1 * q.val = q.val; omega
  rw [h4]

  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg4.N) (i : S100000x64.Idx) :
    i ∈ ((cfg4.win 5).blk t).view.set ↔ ∀ a : Fin 2, win4_5.index t a * S20000x64.size a ≤ (i a).val ∧ (i a).val < win4_5.index t a * S20000x64.size a + S20000x64.size a := by
  show i ∈ ((View.whole main_v57).slice (win4_5.rect t)).set ↔ _
  rw [View.set_slice_whole, Rect.mem_set_unit]
  exact Iff.rfl

/-- Every index of the output array lies in the block of the point its row falls in. -/
theorem cover (i : S100000x64.Idx) : ∃ t : Fin cfg4.N, (cfg4.win 5).flush t = true ∧ i ∈ ((cfg4.win 5).blk t).view.set := by
  have hi0 : (i 0).val < 100000 := idx2_lt0 i
  have hi1 : (i 1).val < 64 := idx2_lt1 i
  let t : Fin cfg4.N := ⟨(i 0).val / 20000, lt_of_lt_of_eq (by omega : (i 0).val / 20000 < 5) (show cfg4.N = 5 from N_4).symm⟩
  obtain ⟨e0, e1, e2, e3, e4, e5, e6, e7, e8, e9, e10, e11⟩ := idx_facts t
  have ht : t.val = (i 0).val / 20000 := rfl
  refine ⟨t, flush4_5 t, ?_⟩
  rw [mem_blk]
  intro a
  match a with
  | ⟨0, _⟩ => show win4_5.index t (0 : Fin 2) * 20000 ≤ (i 0).val ∧ (i 0).val < win4_5.index t (0 : Fin 2) * 20000 + 20000; omega
  | ⟨1, _⟩ => show win4_5.index t (1 : Fin 2) * 64 ≤ (i 1).val ∧ (i 1).val < win4_5.index t (1 : Fin 2) * 64 + 64; omega

/-- The output array when the region is left: the kernel's function of the five arrays it read, as the region found them. -/
theorem final (c : Dev nD) : (dat4 V c).arrAt 5 cfg4.N = GU (V c main_v31) (V c main_v49) (V c main_v51) (V c main_v53) (V c main_v56) :=
  (dat4 V c).arrAt_eq_of_cover 5 _ (fun t _ => flushed_eq V c t) cover

end Cert.KernelIdeal.Reg4

end
-- ==== Proof.KReg5.lean ====
/-
  Region 5 of the kernel program: what its output array holds when the region is left.

  A message region (grid of one hundred points): point `t` reads rows `16000 t … 16000 t + 15999` of the gathered source
  features and of the edge features, both weight blocks and the bias row whole, and writes the same rows of the message
  array. So entry `(e, j)` of the message array is the message kernel's function of row `e`, whatever block `e` falls in, and
  the hundred blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg5

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the kernel's function of the arrays as the region finds them. -/
theorem flushed_eq (c : Dev nD) (t : Fin cfg5.N) :
    (dat5 V c).flushed 5 t = ((cfg5.win 5).blk t).view.read (Elt Ideal)
      (GM (V c main_v64) (V c main_arg2) (V c main_v66) (V c main_v68) (V c main_v71)) := by
  show (cfg5.win 5).cut (grid5.coords t) ((dat5 V c).after 5 t) = _
  rw [after5_5]
  unfold out5_5
  rw [View.canon_unit_zero hz]
  simp only [View.ld_unit_zero (S := S16000x64) hz, View.ld_unit_zero (S := S64x64) hz, View.ld_unit_zero (S := S16000x16) hz, View.ld_unit_zero (S := S16x64) hz, View.ld_unit_zero (S := S1x64) hz]
  obtain ⟨e0, e1, e2, e3, e4, e5, e6, e7, e8, e9, e10, e11⟩ := idx_facts t
  have hN : t.val < 100 := lt_of_lt_of_eq t.isLt (show cfg5.N = 100 from N_5)
  funext j
  obtain ⟨p, q, rfl⟩ : ∃ (p : Fin 16000) (q : Fin 64), j = ix2 p q := ⟨j 0, j 1, eq_ix2 j⟩
  refine ((congrFun (pay5_eq _ _ _ _ _) (ix2 p q)).trans (pay1_apply _ _ _ _ _ p q)).trans ?_
  have hout : ((cfg5.win 5).blk t).view.emb (ix2 p q) = ix2 (⟨t.val * 16000 + p.val, by omega⟩ : Fin 1600000) q := by
    funext a; apply Fin.ext
    match a with
    | ⟨0, _⟩ => show win5_5.index t (0 : Fin 2) * 16000 + 1 * p.val = t.val * 16000 + p.val; omega
    | ⟨1, _⟩ => show win5_5.index t (1 : Fin 2) * 64 + 1 * q.val = q.val; omega
  show _ = GM (V c main_v64) (V c main_arg2) (V c main_v66) (V c main_v68) (V c main_v71) (((cfg5.win 5).blk t).view.emb (ix2 p q))
  rw [hout, GM_apply]
  have h0 : ∀ k : Fin 64, iblk5 V c 0 t (ix2 p k) = V c main_v64 (ix2 (⟨t.val * 16000 + p.val, by omega⟩ : Fin 1600000) k) := fun k => by
    show V c main_v64 (((cfg5.win 0).blk t).view.emb (ix2 p k)) = _
    refine congrArg (V c main_v64) ?_
    funext a; apply Fin.ext
    match a with
    | ⟨0, _⟩ => show win5_0.index t (0 : Fin 2) * 16000 + 1 * p.val = t.val * 16000 + p.val; omega
    | ⟨1, _⟩ => show win5_0.index t (1 : Fin 2) * 64 + 1 * k.val = k.val; omega
  have h1 : ∀ k : Fin 16, iblk5 V c 1 t (ix2 p k) = V c main_arg2 (ix2 (⟨t.val * 16000 + p.val, by omega⟩ : Fin 1600000) k) := fun k => by
    show V c main_arg2 (((cfg5.win 1).blk t).view.emb (ix2 p k)) = _
    refine congrArg (V c main_arg2) ?_
    funext a; apply Fin.ext
    match a with
    | ⟨0, _⟩ => show win5_1.index t (0 : Fin 2) * 16000 + 1 * p.val = t.val * 16000 + p.val; omega
    | ⟨1, _⟩ => show win5_1.index t (1 : Fin 2) * 16 + 1 * k.val = k.val; omega
  have h2 : ∀ k : Fin 64, iblk5 V c 2 t (ix2 k q) = V c main_v66 (ix2 k q) := fun k => by
    show V c main_v66 (((cfg5.win 2).blk t).view.emb (ix2 k q)) = _
    refine congrArg (V c main_v66) ?_
    funext a; apply Fin.ext
    match a with
    | ⟨0, _⟩ => show win5_2.index t (0 : Fin 2) * 64 + 1 * k.val = k.val; omega
    | ⟨1, _⟩ => show win5_2.index t (1 : Fin 2) * 64 + 1 * q.val = q.val; omega
  have h3 : ∀ k : Fin 16, iblk5 V c 3 t (ix2 k q) = V c main_v68 (ix2 k q) := fun k => by
    show V c main_v68 (((cfg5.win 3).blk t).view.emb (ix2 k q)) = _
    refine congrArg (V c main_v68) ?_
    funext a; apply Fin.ext
    match a with
    | ⟨0, _⟩ => show win5_3.index t (0 : Fin 2) * 16 + 1 * k.val = k.val; omega
    | ⟨1, _⟩ => show win5_3.index t (1 : Fin 2) * 64 + 1 * q.val = q.val; omega
  have h4 : iblk5 V c 4 t (ix2 (0 : Fin 1) q) = V c main_v71 (ix2 (0 : Fin 1) q) := by
    show V c main_v71 (((cfg5.win 4).blk t).view.emb (ix2 (0 : Fin 1) q)) = _
    refine congrArg (V c main_v71) ?_
    funext a; apply Fin.ext
    match a with
    | ⟨0, _⟩ => show win5_4.index t (0 : Fin 2) * 1 + 1 * 0 = 0; omega
    | ⟨1, _⟩ => show win5_4.index t (1 : Fin 2) * 64 + 1 * q.val = q.val; omega
  rw [h4]
  refine congrArg Cert.ReferenceIdeal.Spec.leak ?_
  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg5.N) (i : S1600000x64.Idx) :
    i ∈ ((cfg5.win 5).blk t).view.set ↔ ∀ a : Fin 2, win5_5.index t a * S16000x64.size a ≤ (i a).val ∧ (i a).val < win5_5.index t a * S16000x64.size a + S16000x64.size a := by
  show i ∈ ((View.whole main_v72).slice (win5_5.rect t)).set ↔ _
  rw [View.set_slice_whole, Rect.mem_set_unit]
  exact Iff.rfl

/-- Every index of the output array lies in the block of the point its row falls in. -/
theorem cover (i : S1600000x64.Idx) : ∃ t : Fin cfg5.N, (cfg5.win 5).flush t = true ∧ i ∈ ((cfg5.win 5).blk t).view.set := by
  have hi0 : (i 0).val < 1600000 := idx2_lt0 i
  have hi1 : (i 1).val < 64 := idx2_lt1 i
  let t : Fin cfg5.N := ⟨(i 0).val / 16000, lt_of_lt_of_eq (by omega : (i 0).val / 16000 < 100) (show cfg5.N = 100 from N_5).symm⟩
  obtain ⟨e0, e1, e2, e3, e4, e5, e6, e7, e8, e9, e10, e11⟩ := idx_facts t
  have ht : t.val = (i 0).val / 16000 := rfl
  refine ⟨t, flush5_5 t, ?_⟩
  rw [mem_blk]
  intro a
  match a with
  | ⟨0, _⟩ => show win5_5.index t (0 : Fin 2) * 16000 ≤ (i 0).val ∧ (i 0).val < win5_5.index t (0 : Fin 2) * 16000 + 16000; omega
  | ⟨1, _⟩ => show win5_5.index t (1 : Fin 2) * 64 ≤ (i 1).val ∧ (i 1).val < win5_5.index t (1 : Fin 2) * 64 + 64; omega

/-- The output array when the region is left: the kernel's function of the five arrays it read, as the region found them. -/
theorem final (c : Dev nD) : (dat5 V c).arrAt 5 cfg5.N = GM (V c main_v64) (V c main_arg2) (V c main_v66) (V c main_v68) (V c main_v71) :=
  (dat5 V c).arrAt_eq_of_cover 5 _ (fun t _ => flushed_eq V c t) cover

end Cert.KernelIdeal.Reg5

end
-- ==== Proof.KReg6.lean ====
/-
  Region 6 of the kernel program: what its output array holds when the region is left.

  An update region (grid of five points): point `t` reads rows `20000 t … 20000 t + 19999` of the old node features and of
  the summed messages, both weight blocks and the bias row whole, and writes the same rows of the new node features. So
  entry `(r, j)` of the new features is the update kernel's function of row `r`, whatever block `r` falls in, and the five
  blocks fill the array.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«134910_j29300266893460_1_alg».proof.Proof.KPay
import proofs.«134910_j29300266893460_1_alg».proof.Proof.KFun

noncomputable section

namespace Cert.KernelIdeal.Reg6

open Idealize.ShloMosaic Idealize.ShloMosaic.ValueIdx Idealize.ShloMosaic.TcCoe Idealize.SL.Sem Cert.KernelIdeal Cert.KernelIdeal.Gen

open Cert.KernelIdeal.Pay Cert.KernelIdeal.Fun

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 2000000 in
/-- What point `t` writes back is block `t` of the kernel's function of the arrays as the region finds them. -/
theorem flushed_eq (c : Dev nD) (t : Fin cfg6.N) :
    (dat6 V c).flushed 5 t = ((cfg6.win 5).blk t).view.read (Elt Ideal)
      (GU (V c main_v57) (V c main_v75) (V c main_v77) (V c main_v79) (V c main_v82)) := by
  show (cfg6.win 5).cut (grid6.coords t) ((dat6 V c).after 5 t) = _
  rw [after6_5]
  unfold out6_5
  rw [View.canon_unit_zero hz]
  simp only [View.ld_unit_zero (S := S20000x64) hz, View.ld_unit_zero (S := S64x64) hz, View.ld_unit_zero (S := S1x64) hz]
  obtain ⟨e0, e1, e2, e3, e4, e5, e6, e7, e8, e9, e10, e11⟩ := idx_facts t
  have hN : t.val < 5 := lt_of_lt_of_eq t.isLt (show cfg6.N = 5 from N_6)
  funext j
  obtain ⟨p, q, rfl⟩ : ∃ (p : Fin 20000) (q : Fin 64), j = ix2 p q := ⟨j 0, j 1, eq_ix2 j⟩
  refine ((congrFun (pay6_eq _ _ _ _ _) (ix2 p q)).trans (pay2_apply _ _ _ _ _ p q)).trans ?_
  have hout : ((cfg6.win 5).blk t).view.emb (ix2 p q) = ix2 (⟨t.val * 20000 + p.val, by omega⟩ : Fin 100000) q := by
    funext a; apply Fin.ext
    match a with
    | ⟨0, _⟩ => show win6_5.index t (0 : Fin 2) * 20000 + 1 * p.val = t.val * 20000 + p.val; omega
    | ⟨1, _⟩ => show win6_5.index t (1 : Fin 2) * 64 + 1 * q.val = q.val; omega
  show _ = GU (V c main_v57) (V c main_v75) (V c main_v77) (V c main_v79) (V c main_v82) (((cfg6.win 5).blk t).view.emb (ix2 p q))
  rw [hout, GU_apply]
  have h0 : ∀ k : Fin 64, iblk6 V c 0 t (ix2 p k) = V c main_v57 (ix2 (⟨t.val * 20000 + p.val, by omega⟩ : Fin 100000) k) := fun k => by
    show V c main_v57 (((cfg6.win 0).blk t).view.emb (ix2 p k)) = _
    refine congrArg (V c main_v57) ?_
    funext a; apply Fin.ext
    match a with
    | ⟨0, _⟩ => show win6_0.index t (0 : Fin 2) * 20000 + 1 * p.val = t.val * 20000 + p.val; omega
    | ⟨1, _⟩ => show win6_0.index t (1 : Fin 2) * 64 + 1 * k.val = k.val; omega
  have h1 : ∀ k : Fin 64, iblk6 V c 1 t (ix2 p k) = V c main_v75 (ix2 (⟨t.val * 20000 + p.val, by omega⟩ : Fin 100000) k) := fun k => by
    show V c main_v75 (((cfg6.win 1).blk t).view.emb (ix2 p k)) = _
    refine congrArg (V c main_v75) ?_
    funext a; apply Fin.ext
    match a with
    | ⟨0, _⟩ => show win6_1.index t (0 : Fin 2) * 20000 + 1 * p.val = t.val * 20000 + p.val; omega
    | ⟨1, _⟩ => show win6_1.index t (1 : Fin 2) * 64 + 1 * k.val = k.val; omega
  have h2 : ∀ k : Fin 64, iblk6 V c 2 t (ix2 k q) = V c main_v77 (ix2 k q) := fun k => by
    show V c main_v77 (((cfg6.win 2).blk t).view.emb (ix2 k q)) = _
    refine congrArg (V c main_v77) ?_
    funext a; apply Fin.ext
    match a with
    | ⟨0, _⟩ => show win6_2.index t (0 : Fin 2) * 64 + 1 * k.val = k.val; omega
    | ⟨1, _⟩ => show win6_2.index t (1 : Fin 2) * 64 + 1 * q.val = q.val; omega
  have h3 : ∀ k : Fin 64, iblk6 V c 3 t (ix2 k q) = V c main_v79 (ix2 k q) := fun k => by
    show V c main_v79 (((cfg6.win 3).blk t).view.emb (ix2 k q)) = _
    refine congrArg (V c main_v79) ?_
    funext a; apply Fin.ext
    match a with
    | ⟨0, _⟩ => show win6_3.index t (0 : Fin 2) * 64 + 1 * k.val = k.val; omega
    | ⟨1, _⟩ => show win6_3.index t (1 : Fin 2) * 64 + 1 * q.val = q.val; omega
  have h4 : iblk6 V c 4 t (ix2 (0 : Fin 1) q) = V c main_v82 (ix2 (0 : Fin 1) q) := by
    show V c main_v82 (((cfg6.win 4).blk t).view.emb (ix2 (0 : Fin 1) q)) = _
    refine congrArg (V c main_v82) ?_
    funext a; apply Fin.ext
    match a with
    | ⟨0, _⟩ => show win6_4.index t (0 : Fin 2) * 1 + 1 * 0 = 0; omega
    | ⟨1, _⟩ => show win6_4.index t (1 : Fin 2) * 64 + 1 * q.val = q.val; omega
  rw [h4]

  refine congrArg (· + _) ?_
  exact congrArg₂ (· + ·) (Finset.sum_congr rfl fun k _ => by rw [h0 k, h2 k]) (Finset.sum_congr rfl fun k _ => by rw [h1 k, h3 k])

/-- An index of the output array is in point `t`'s block iff each coordinate is in the block's range. -/
theorem mem_blk (t : Fin cfg6.N) (i : S100000x64.Idx) :
    i ∈ ((cfg6.win 5).blk t).view.set ↔ ∀ a : Fin 2, win6_5.index t a * S20000x64.size a ≤ (i a).val ∧ (i a).val < win6_5.index t a * S20000x64.size a + S20000x64.size a := by
  show i ∈ ((View.whole main_v83).slice (win6_5.rect t)).set ↔ _
  rw [View.set_slice_whole, Rect.mem_set_unit]
  exact Iff.rfl

/-- Every index of the output array lies in the block of the point its row falls in. -/
theorem cover (i : S100000x64.Idx) : ∃ t : Fin cfg6.N, (cfg6.win 5).flush t = true ∧ i ∈ ((cfg6.win 5).blk t).view.set := by
  have hi0 : (i 0).val < 100000 := idx2_lt0 i
  have hi1 : (i 1).val < 64 := idx2_lt1 i
  let t : Fin cfg6.N := ⟨(i 0).val / 20000, lt_of_lt_of_eq (by omega : (i 0).val / 20000 < 5) (show cfg6.N = 5 from N_6).symm⟩
  obtain ⟨e0, e1, e2, e3, e4, e5, e6, e7, e8, e9, e10, e11⟩ := idx_facts t
  have ht : t.val = (i 0).val / 20000 := rfl
  refine ⟨t, flush6_5 t, ?_⟩
  rw [mem_blk]
  intro a
  match a with
  | ⟨0, _⟩ => show win6_5.index t (0 : Fin 2) * 20000 ≤ (i 0).val ∧ (i 0).val < win6_5.index t (0 : Fin 2) * 20000 + 20000; omega
  | ⟨1, _⟩ => show win6_5.index t (1 : Fin 2) * 64 ≤ (i 1).val ∧ (i 1).val < win6_5.index t (1 : Fin 2) * 64 + 64; omega

/-- The output array when the region is left: the kernel's function of the five arrays it read, as the region found them. -/
theorem final (c : Dev nD) : (dat6 V c).arrAt 5 cfg6.N = GU (V c main_v57) (V c main_v75) (V c main_v77) (V c main_v79) (V c main_v82) :=
  (dat6 V c).arrAt_eq_of_cover 5 _ (fun t _ => flushed_eq V c t) cover

end Cert.KernelIdeal.Reg6

end
-- ==== Proof.KChain.lean ====
/-
  The contents of the buffers at every boundary between the program's segments.

  The program is fourteen segments: a stretch of host operations, then a region, seven times. The table below follows the
  values that matter from the launch to the return: after each stretch the buffers it writes hold its operations' terms of
  what was there before, after each region the region's output array holds the kernel's function of the arrays it read,
  and every other buffer of interest holds what it held (no operation of a stretch writes it; a region leaves its input
  arrays and the buffers outside its windows alone). At the last boundary the result buffer holds the three layers applied
  to the projection.
-/
import proofs.«134910_j29300266893460_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import proofs.«134910_j29300266893460_1_alg».proof.Proof.KStage
import proofs.«134910_j29300266893460_1_alg».proof.Proof.KReg1
import proofs.«134910_j29300266893460_1_alg».proof.Proof.KReg2
import proofs.«134910_j29300266893460_1_alg».proof.Proof.KReg3
import proofs.«134910_j29300266893460_1_alg».proof.Proof.KReg4
import proofs.«134910_j29300266893460_1_alg».proof.Proof.KReg5
import proofs.«134910_j29300266893460_1_alg».proof.Proof.KReg6

noncomputable section

namespace Cert.KernelIdeal.Chain

open Idealize.ShloMosaic Idealize.ShloMosaic.ValueIdx Idealize.ShloMosaic.TcCoe Idealize.SL.Sem Cert.KernelIdeal Cert.KernelIdeal.Gen

open Idealize.ShloMosaic.StableHlo Cert.KernelIdeal.Fun

variable (m : (ℓ : Loc nD τ sig) → Buf (Elt Ideal) ℓ) (ρ : Dev nD → PrngReg) (c : Dev nD)

/-! The launch contents of the argument arrays on core `c`, and the stage values built from them. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev S := Stage.ids0 (A1 m c)
abbrev D := Stage.ids1 (A1 m c)
abbrev H0 := Cert.KernelIdeal.Reg0.G (A0 m c) (A3 m c) (Stage.prow (A4 m c))
abbrev M0 := GM (Stage.gath (H0 m c) (S m c)) (A2 m c) (Stage.wa2_0 (A5 m c)) (Stage.wb2_0 (A5 m c)) (Stage.brow_0 (A6 m c))
abbrev H1 := GU (H0 m c) (Stage.agg (D m c) (M0 m c)) (Stage.wa1_0 (A7 m c)) (Stage.wb1_0 (A7 m c)) (Stage.brow_0 (A8 m c))
abbrev M1 := GM (Stage.gath (H1 m c) (S m c)) (A2 m c) (Stage.wa2_1 (A5 m c)) (Stage.wb2_1 (A5 m c)) (Stage.brow_1 (A6 m c))
abbrev H2 := GU (H1 m c) (Stage.agg (D m c) (M1 m c)) (Stage.wa1_1 (A7 m c)) (Stage.wb1_1 (A7 m c)) (Stage.brow_1 (A8 m c))
abbrev M2 := GM (Stage.gath (H2 m c) (S m c)) (A2 m c) (Stage.wa2_2 (A5 m c)) (Stage.wb2_2 (A5 m c)) (Stage.brow_2 (A6 m c))
abbrev H3 := GU (H2 m c) (Stage.agg (D m c) (M2 m c)) (Stage.wa1_2 (A7 m c)) (Stage.wb1_2 (A7 m c)) (Stage.brow_2 (A8 m c))

theorem W0_arg0 : W0 m ρ c (Proc.devRef .tc main_arg0) = (A0 m c) := rfl

theorem W0_arg1 : W0 m ρ c (Proc.devRef .tc main_arg1) = (A1 m c) := rfl

theorem W0_arg2 : W0 m ρ c (Proc.devRef .tc main_arg2) = (A2 m c) := rfl

theorem W0_arg3 : W0 m ρ c (Proc.devRef .tc main_arg3) = (A3 m c) := rfl

theorem W0_arg4 : W0 m ρ c (Proc.devRef .tc main_arg4) = (A4 m c) := rfl

theorem W0_arg5 : W0 m ρ c (Proc.devRef .tc main_arg5) = (A5 m c) := rfl

theorem W0_arg6 : W0 m ρ c (Proc.devRef .tc main_arg6) = (A6 m c) := rfl

theorem W0_arg7 : W0 m ρ c (Proc.devRef .tc main_arg7) = (A7 m c) := rfl

theorem W0_arg8 : W0 m ρ c (Proc.devRef .tc main_arg8) = (A8 m c) := rfl

theorem W1_v1 : W1 m ρ c (Proc.devRef .tc main_v1) = (S m c) :=
  by
  show StableHlo.after hostOps0 (W0 m ρ c) (Proc.devRef .tc main_v1) = _
  after_results
  rw [W0_arg1 m ρ c]
  rfl

theorem W1_v3 : W1 m ρ c (Proc.devRef .tc main_v3) = (D m c) :=
  by
  show StableHlo.after hostOps0 (W0 m ρ c) (Proc.devRef .tc main_v3) = _
  after_results
  rw [W0_arg1 m ρ c]
  rfl

theorem W1_v4 : W1 m ρ c (Proc.devRef .tc main_v4) = (Stage.prow (A4 m c)) :=
  by
  show StableHlo.after hostOps0 (W0 m ρ c) (Proc.devRef .tc main_v4) = _
  after_results
  rw [W0_arg4 m ρ c]
  rfl

theorem W1_arg0 : W1 m ρ c (Proc.devRef .tc main_arg0) = (A0 m c) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg0 m ρ c)

theorem W1_arg3 : W1 m ρ c (Proc.devRef .tc main_arg3) = (A3 m c) :=
  (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg3 m ρ c)

theorem W1_arg2 : W1 m ρ c (Proc.devRef .tc main_arg2) = (A2 m c) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg2 m ρ c)

theorem W1_arg5 : W1 m ρ c (Proc.devRef .tc main_arg5) = (A5 m c) :=
  (StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg5 m ρ c)

theorem W1_arg6 : W1 m ρ c (Proc.devRef .tc main_arg6) = (A6 m c) :=
  (StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg6 m ρ c)

theorem W1_arg7 : W1 m ρ c (Proc.devRef .tc main_arg7) = (A7 m c) :=
  (StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg7 m ρ c)

theorem W1_arg8 : W1 m ρ c (Proc.devRef .tc main_arg8) = (A8 m c) :=
  (StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg8 m ρ c)

theorem W2_v5 : W2 m ρ c (Proc.devRef .tc main_v5) = (H0 m c) :=
  (W2_arr m ρ c 3).trans ((Cert.KernelIdeal.Reg0.final (V1 m ρ) c).trans (by
    show Cert.KernelIdeal.Reg0.G (W1 m ρ c (Proc.devRef .tc main_arg0)) (W1 m ρ c (Proc.devRef .tc main_arg3)) (W1 m ρ c (Proc.devRef .tc main_v4)) = _
    rw [W1_arg0 m ρ c, W1_arg3 m ρ c, W1_v4 m ρ c]))

theorem W2_v1 : W2 m ρ c (Proc.devRef .tc main_v1) = (S m c) :=
  (W2_of_ne m ρ c main_v1 (by decide)).trans (W1_v1 m ρ c)

theorem W2_v3 : W2 m ρ c (Proc.devRef .tc main_v3) = (D m c) :=
  (W2_of_ne m ρ c main_v3 (by decide)).trans (W1_v3 m ρ c)

theorem W2_arg2 : W2 m ρ c (Proc.devRef .tc main_arg2) = (A2 m c) :=
  (W2_of_ne m ρ c main_arg2 (by decide)).trans (W1_arg2 m ρ c)

theorem W2_arg5 : W2 m ρ c (Proc.devRef .tc main_arg5) = (A5 m c) :=
  (W2_of_ne m ρ c main_arg5 (by decide)).trans (W1_arg5 m ρ c)

theorem W2_arg6 : W2 m ρ c (Proc.devRef .tc main_arg6) = (A6 m c) :=
  (W2_of_ne m ρ c main_arg6 (by decide)).trans (W1_arg6 m ρ c)

theorem W2_arg7 : W2 m ρ c (Proc.devRef .tc main_arg7) = (A7 m c) :=
  (W2_of_ne m ρ c main_arg7 (by decide)).trans (W1_arg7 m ρ c)

theorem W2_arg8 : W2 m ρ c (Proc.devRef .tc main_arg8) = (A8 m c) :=
  (W2_of_ne m ρ c main_arg8 (by decide)).trans (W1_arg8 m ρ c)

theorem W3_v12 : W3 m ρ c (Proc.devRef .tc main_v12) = (Stage.gath (H0 m c) (S m c)) :=
  by
  show StableHlo.after hostOps1 (W2 m ρ c) (Proc.devRef .tc main_v12) = _
  after_results
  rw [W2_v5 m ρ c, W2_v1 m ρ c]
  rfl

theorem W3_v14 : W3 m ρ c (Proc.devRef .tc main_v14) = (Stage.wa2_0 (A5 m c)) :=
  by
  show StableHlo.after hostOps1 (W2 m ρ c) (Proc.devRef .tc main_v14) = _
  after_results
  rw [W2_arg5 m ρ c]
  rfl

theorem W3_v16 : W3 m ρ c (Proc.devRef .tc main_v16) = (Stage.wb2_0 (A5 m c)) :=
  by
  show StableHlo.after hostOps1 (W2 m ρ c) (Proc.devRef .tc main_v16) = _
  after_results
  rw [W2_arg5 m ρ c]
  rfl

theorem W3_v19 : W3 m ρ c (Proc.devRef .tc main_v19) = (Stage.brow_0 (A6 m c)) :=
  by
  show StableHlo.after hostOps1 (W2 m ρ c) (Proc.devRef .tc main_v19) = _
  after_results
  rw [W2_arg6 m ρ c]
  rfl

theorem W3_v1 : W3 m ρ c (Proc.devRef .tc main_v1) = (S m c) :=
  (StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v1 m ρ c)

theorem W3_v3 : W3 m ρ c (Proc.devRef .tc main_v3) = (D m c) :=
  (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)

theorem W3_v5 : W3 m ρ c (Proc.devRef .tc main_v5) = (H0 m c) :=
  (StableHlo.after_of_forall_not_mem (b := Proc.devRef .tc main_v5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v5 m ρ c)

theorem W3_arg2 : W3 m ρ c (Proc.devRef .tc main_arg2) = (A2 m c) :=
  (StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)

theorem W3_arg5 : W3 m ρ c (Proc.devRef .tc main_arg5) = (A5 m c) :=
  (StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)

theorem W3_arg6 : W3 m ρ c (Proc.devRef .tc main_arg6) = (A6 m c) :=
  (StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)

theorem W3_arg7 : W3 m ρ c (Proc.devRef .tc main_arg7) = (A7 m c) :=
  (StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

theorem W3_arg8 : W3 m ρ c (Proc.devRef .tc main_arg8) = (A8 m c) :=
  (StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)

theorem W4_v20 : W4 m ρ c (Proc.devRef .tc main_v20) = (M0 m c) :=
  (W4_arr m ρ c 5).trans ((Cert.KernelIdeal.Reg1.final (V3 m ρ) c).trans (by
    show Cert.KernelIdeal.Fun.GM (W3 m ρ c (Proc.devRef .tc main_v12)) (W3 m ρ c (Proc.devRef .tc main_arg2)) (W3 m ρ c (Proc.devRef .tc main_v14)) (W3 m ρ c (Proc.devRef .tc main_v16)) (W3 m ρ c (Proc.devRef .tc main_v19)) = _
    rw [W3_v12 m ρ c, W3_arg2 m ρ c, W3_v14 m ρ c, W3_v16 m ρ c, W3_v19 m ρ c]))

theorem W4_v1 : W4 m ρ c (Proc.devRef .tc main_v1) = (S m c) :=
  (W4_of_ne m ρ c main_v1 (by decide)).trans (W3_v1 m ρ c)

theorem W4_v3 : W4 m ρ c (Proc.devRef .tc main_v3) = (D m c) :=
  (W4_of_ne m ρ c main_v3 (by decide)).trans (W3_v3 m ρ c)

theorem W4_v5 : W4 m ρ c (Proc.devRef .tc main_v5) = (H0 m c) :=
  (W4_of_ne m ρ c main_v5 (by decide)).trans (W3_v5 m ρ c)

theorem W4_arg5 : W4 m ρ c (Proc.devRef .tc main_arg5) = (A5 m c) :=
  (W4_of_ne m ρ c main_arg5 (by decide)).trans (W3_arg5 m ρ c)

theorem W4_arg6 : W4 m ρ c (Proc.devRef .tc main_arg6) = (A6 m c) :=
  (W4_of_ne m ρ c main_arg6 (by decide)).trans (W3_arg6 m ρ c)

theorem W4_arg7 : W4 m ρ c (Proc.devRef .tc main_arg7) = (A7 m c) :=
  (W4_of_ne m ρ c main_arg7 (by decide)).trans (W3_arg7 m ρ c)

theorem W4_arg8 : W4 m ρ c (Proc.devRef .tc main_arg8) = (A8 m c) :=
  (W4_of_ne m ρ c main_arg8 (by decide)).trans (W3_arg8 m ρ c)

theorem W4_arg2 : W4 m ρ c (Proc.devRef .tc main_arg2) = (A2 m c) :=
  (W4_arr m ρ c 1).trans (((dat1 (V3 m ρ) c).arrAt_in 1 rfl _).trans ((A_eq1 (V3 m ρ) c 1).trans (W3_arg2 m ρ c)))

theorem W5_v23 : W5 m ρ c (Proc.devRef .tc main_v23) = (Stage.agg (D m c) (M0 m c)) :=
  by
  show StableHlo.after hostOps2 (W4 m ρ c) (Proc.devRef .tc main_v23) = _
  after_results
  rw [W4_v20 m ρ c, W4_v3 m ρ c]
  rfl

theorem W5_v25 : W5 m ρ c (Proc.devRef .tc main_v25) = (Stage.wa1_0 (A7 m c)) :=
  by
  show StableHlo.after hostOps2 (W4 m ρ c) (Proc.devRef .tc main_v25) = _
  after_results
  rw [W4_arg7 m ρ c]
  rfl

theorem W5_v27 : W5 m ρ c (Proc.devRef .tc main_v27) = (Stage.wb1_0 (A7 m c)) :=
  by
  show StableHlo.after hostOps2 (W4 m ρ c) (Proc.devRef .tc main_v27) = _
  after_results
  rw [W4_arg7 m ρ c]
  rfl

theorem W5_v30 : W5 m ρ c (Proc.devRef .tc main_v30) = (Stage.brow_0 (A8 m c)) :=
  by
  show StableHlo.after hostOps2 (W4 m ρ c) (Proc.devRef .tc main_v30) = _
  after_results
  rw [W4_arg8 m ρ c]
  rfl

theorem W5_v1 : W5 m ρ c (Proc.devRef .tc main_v1) = (S m c) :=
  (StableHlo.after_of_forall_not_mem (b := Proc.devRef .tc main_v1) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v1 m ρ c)

theorem W5_v3 : W5 m ρ c (Proc.devRef .tc main_v3) = (D m c) :=
  (StableHlo.after_of_forall_not_mem (b := Proc.devRef .tc main_v3) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v3 m ρ c)

theorem W5_v5 : W5 m ρ c (Proc.devRef .tc main_v5) = (H0 m c) :=
  (StableHlo.after_of_forall_not_mem (b := Proc.devRef .tc main_v5) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v5 m ρ c)

theorem W5_arg2 : W5 m ρ c (Proc.devRef .tc main_arg2) = (A2 m c) :=
  (StableHlo.after_of_forall_not_mem (b := Proc.devRef .tc main_arg2) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg2 m ρ c)

theorem W5_arg5 : W5 m ρ c (Proc.devRef .tc main_arg5) = (A5 m c) :=
  (StableHlo.after_of_forall_not_mem (b := Proc.devRef .tc main_arg5) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg5 m ρ c)

theorem W5_arg6 : W5 m ρ c (Proc.devRef .tc main_arg6) = (A6 m c) :=
  (StableHlo.after_of_forall_not_mem (b := Proc.devRef .tc main_arg6) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg6 m ρ c)

theorem W5_arg7 : W5 m ρ c (Proc.devRef .tc main_arg7) = (A7 m c) :=
  (StableHlo.after_of_forall_not_mem (b := Proc.devRef .tc main_arg7) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg7 m ρ c)

theorem W5_arg8 : W5 m ρ c (Proc.devRef .tc main_arg8) = (A8 m c) :=
  (StableHlo.after_of_forall_not_mem (b := Proc.devRef .tc main_arg8) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg8 m ρ c)

theorem W6_v31 : W6 m ρ c (Proc.devRef .tc main_v31) = (H1 m c) :=
  (W6_arr m ρ c 5).trans ((Cert.KernelIdeal.Reg2.final (V5 m ρ) c).trans (by
    show Cert.KernelIdeal.Fun.GU (W5 m ρ c (Proc.devRef .tc main_v5)) (W5 m ρ c (Proc.devRef .tc main_v23)) (W5 m ρ c (Proc.devRef .tc main_v25)) (W5 m ρ c (Proc.devRef .tc main_v27)) (W5 m ρ c (Proc.devRef .tc main_v30)) = _
    rw [W5_v5 m ρ c, W5_v23 m ρ c, W5_v25 m ρ c, W5_v27 m ρ c, W5_v30 m ρ c]))

theorem W6_v1 : W6 m ρ c (Proc.devRef .tc main_v1) = (S m c) :=
  (W6_of_ne m ρ c main_v1 (by decide)).trans (W5_v1 m ρ c)

theorem W6_v3 : W6 m ρ c (Proc.devRef .tc main_v3) = (D m c) :=
  (W6_of_ne m ρ c main_v3 (by decide)).trans (W5_v3 m ρ c)

theorem W6_arg2 : W6 m ρ c (Proc.devRef .tc main_arg2) = (A2 m c) :=
  (W6_of_ne m ρ c main_arg2 (by decide)).trans (W5_arg2 m ρ c)

theorem W6_arg5 : W6 m ρ c (Proc.devRef .tc main_arg5) = (A5 m c) :=
  (W6_of_ne m ρ c main_arg5 (by decide)).trans (W5_arg5 m ρ c)

theorem W6_arg6 : W6 m ρ c (Proc.devRef .tc main_arg6) = (A6 m c) :=
  (W6_of_ne m ρ c main_arg6 (by decide)).trans (W5_arg6 m ρ c)

theorem W6_arg7 : W6 m ρ c (Proc.devRef .tc main_arg7) = (A7 m c) :=
  (W6_of_ne m ρ c main_arg7 (by decide)).trans (W5_arg7 m ρ c)

theorem W6_arg8 : W6 m ρ c (Proc.devRef .tc main_arg8) = (A8 m c) :=
  (W6_of_ne m ρ c main_arg8 (by decide)).trans (W5_arg8 m ρ c)

theorem W7_v38 : W7 m ρ c (Proc.devRef .tc main_v38) = (Stage.gath (H1 m c) (S m c)) :=
  by
  show StableHlo.after hostOps3 (W6 m ρ c) (Proc.devRef .tc main_v38) = _
  after_results
  rw [W6_v31 m ρ c, W6_v1 m ρ c]
  rfl

theorem W7_v40 : W7 m ρ c (Proc.devRef .tc main_v40) = (Stage.wa2_1 (A5 m c)) :=
  by
  show StableHlo.after hostOps3 (W6 m ρ c) (Proc.devRef .tc main_v40) = _
  after_results
  rw [W6_arg5 m ρ c]
  rfl

theorem W7_v42 : W7 m ρ c (Proc.devRef .tc main_v42) = (Stage.wb2_1 (A5 m c)) :=
  by
  show StableHlo.after hostOps3 (W6 m ρ c) (Proc.devRef .tc main_v42) = _
  after_results
  rw [W6_arg5 m ρ c]
  rfl

theorem W7_v45 : W7 m ρ c (Proc.devRef .tc main_v45) = (Stage.brow_1 (A6 m c)) :=
  by
  show StableHlo.after hostOps3 (W6 m ρ c) (Proc.devRef .tc main_v45) = _
  after_results
  rw [W6_arg6 m ρ c]
  rfl

theorem W7_v1 : W7 m ρ c (Proc.devRef .tc main_v1) = (S m c) :=
  (StableHlo.after_of_forall_not_mem (b := Proc.devRef .tc main_v1) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v1 m ρ c)

theorem W7_v3 : W7 m ρ c (Proc.devRef .tc main_v3) = (D m c) :=
  (StableHlo.after_of_forall_not_mem (b := Proc.devRef .tc main_v3) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v3 m ρ c)

theorem W7_v31 : W7 m ρ c (Proc.devRef .tc main_v31) = (H1 m c) :=
  (StableHlo.after_of_forall_not_mem (b := Proc.devRef .tc main_v31) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v31 m ρ c)

theorem W7_arg2 : W7 m ρ c (Proc.devRef .tc main_arg2) = (A2 m c) :=
  (StableHlo.after_of_forall_not_mem (b := Proc.devRef .tc main_arg2) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg2 m ρ c)

theorem W7_arg5 : W7 m ρ c (Proc.devRef .tc main_arg5) = (A5 m c) :=
  (StableHlo.after_of_forall_not_mem (b := Proc.devRef .tc main_arg5) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg5 m ρ c)

theorem W7_arg6 : W7 m ρ c (Proc.devRef .tc main_arg6) = (A6 m c) :=
  (StableHlo.after_of_forall_not_mem (b := Proc.devRef .tc main_arg6) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg6 m ρ c)

theorem W7_arg7 : W7 m ρ c (Proc.devRef .tc main_arg7) = (A7 m c) :=
  (StableHlo.after_of_forall_not_mem (b := Proc.devRef .tc main_arg7) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg7 m ρ c)

theorem W7_arg8 : W7 m ρ c (Proc.devRef .tc main_arg8) = (A8 m c) :=
  (StableHlo.after_of_forall_not_mem (b := Proc.devRef .tc main_arg8) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg8 m ρ c)

theorem W8_v46 : W8 m ρ c (Proc.devRef .tc main_v46) = (M1 m c) :=
  (W8_arr m ρ c 5).trans ((Cert.KernelIdeal.Reg3.final (V7 m ρ) c).trans (by
    show Cert.KernelIdeal.Fun.GM (W7 m ρ c (Proc.devRef .tc main_v38)) (W7 m ρ c (Proc.devRef .tc main_arg2)) (W7 m ρ c (Proc.devRef .tc main_v40)) (W7 m ρ c (Proc.devRef .tc main_v42)) (W7 m ρ c (Proc.devRef .tc main_v45)) = _
    rw [W7_v38 m ρ c, W7_arg2 m ρ c, W7_v40 m ρ c, W7_v42 m ρ c, W7_v45 m ρ c]))

theorem W8_v1 : W8 m ρ c (Proc.devRef .tc main_v1) = (S m c) :=
  (W8_of_ne m ρ c main_v1 (by decide)).trans (W7_v1 m ρ c)

theorem W8_v3 : W8 m ρ c (Proc.devRef .tc main_v3) = (D m c) :=
  (W8_of_ne m ρ c main_v3 (by decide)).trans (W7_v3 m ρ c)

theorem W8_v31 : W8 m ρ c (Proc.devRef .tc main_v31) = (H1 m c) :=
  (W8_of_ne m ρ c main_v31 (by decide)).trans (W7_v31 m ρ c)

theorem W8_arg5 : W8 m ρ c (Proc.devRef .tc main_arg5) = (A5 m c) :=
  (W8_of_ne m ρ c main_arg5 (by decide)).trans (W7_arg5 m ρ c)

theorem W8_arg6 : W8 m ρ c (Proc.devRef .tc main_arg6) = (A6 m c) :=
  (W8_of_ne m ρ c main_arg6 (by decide)).trans (W7_arg6 m ρ c)

theorem W8_arg7 : W8 m ρ c (Proc.devRef .tc main_arg7) = (A7 m c) :=
  (W8_of_ne m ρ c main_arg7 (by decide)).trans (W7_arg7 m ρ c)

theorem W8_arg8 : W8 m ρ c (Proc.devRef .tc main_arg8) = (A8 m c) :=
  (W8_of_ne m ρ c main_arg8 (by decide)).trans (W7_arg8 m ρ c)

theorem W8_arg2 : W8 m ρ c (Proc.devRef .tc main_arg2) = (A2 m c) :=
  (W8_arr m ρ c 1).trans (((dat3 (V7 m ρ) c).arrAt_in 1 rfl _).trans ((A_eq3 (V7 m ρ) c 1).trans (W7_arg2 m ρ c)))

theorem W9_v49 : W9 m ρ c (Proc.devRef .tc main_v49) = (Stage.agg (D m c) (M1 m c)) :=
  by
  show StableHlo.after hostOps4 (W8 m ρ c) (Proc.devRef .tc main_v49) = _
  after_results
  rw [W8_v46 m ρ c, W8_v3 m ρ c]
  rfl

theorem W9_v51 : W9 m ρ c (Proc.devRef .tc main_v51) = (Stage.wa1_1 (A7 m c)) :=
  by
  show StableHlo.after hostOps4 (W8 m ρ c) (Proc.devRef .tc main_v51) = _
  after_results
  rw [W8_arg7 m ρ c]
  rfl

theorem W9_v53 : W9 m ρ c (Proc.devRef .tc main_v53) = (Stage.wb1_1 (A7 m c)) :=
  by
  show StableHlo.after hostOps4 (W8 m ρ c) (Proc.devRef .tc main_v53) = _
  after_results
  rw [W8_arg7 m ρ c]
  rfl

theorem W9_v56 : W9 m ρ c (Proc.devRef .tc main_v56) = (Stage.brow_1 (A8 m c)) :=
  by
  show StableHlo.after hostOps4 (W8 m ρ c) (Proc.devRef .tc main_v56) = _
  after_results
  rw [W8_arg8 m ρ c]
  rfl

theorem W9_v1 : W9 m ρ c (Proc.devRef .tc main_v1) = (S m c) :=
  (StableHlo.after_of_forall_not_mem (b := Proc.devRef .tc main_v1) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v1 m ρ c)

theorem W9_v3 : W9 m ρ c (Proc.devRef .tc main_v3) = (D m c) :=
  (StableHlo.after_of_forall_not_mem (b := Proc.devRef .tc main_v3) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v3 m ρ c)

theorem W9_v31 : W9 m ρ c (Proc.devRef .tc main_v31) = (H1 m c) :=
  (StableHlo.after_of_forall_not_mem (b := Proc.devRef .tc main_v31) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v31 m ρ c)

theorem W9_arg2 : W9 m ρ c (Proc.devRef .tc main_arg2) = (A2 m c) :=
  (StableHlo.after_of_forall_not_mem (b := Proc.devRef .tc main_arg2) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg2 m ρ c)

theorem W9_arg5 : W9 m ρ c (Proc.devRef .tc main_arg5) = (A5 m c) :=
  (StableHlo.after_of_forall_not_mem (b := Proc.devRef .tc main_arg5) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg5 m ρ c)

theorem W9_arg6 : W9 m ρ c (Proc.devRef .tc main_arg6) = (A6 m c) :=
  (StableHlo.after_of_forall_not_mem (b := Proc.devRef .tc main_arg6) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg6 m ρ c)

theorem W9_arg7 : W9 m ρ c (Proc.devRef .tc main_arg7) = (A7 m c) :=
  (StableHlo.after_of_forall_not_mem (b := Proc.devRef .tc main_arg7) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg7 m ρ c)

theorem W9_arg8 : W9 m ρ c (Proc.devRef .tc main_arg8) = (A8 m c) :=
  (StableHlo.after_of_forall_not_mem (b := Proc.devRef .tc main_arg8) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg8 m ρ c)

theorem W10_v57 : W10 m ρ c (Proc.devRef .tc main_v57) = (H2 m c) :=
  (W10_arr m ρ c 5).trans ((Cert.KernelIdeal.Reg4.final (V9 m ρ) c).trans (by
    show Cert.KernelIdeal.Fun.GU (W9 m ρ c (Proc.devRef .tc main_v31)) (W9 m ρ c (Proc.devRef .tc main_v49)) (W9 m ρ c (Proc.devRef .tc main_v51)) (W9 m ρ c (Proc.devRef .tc main_v53)) (W9 m ρ c (Proc.devRef .tc main_v56)) = _
    rw [W9_v31 m ρ c, W9_v49 m ρ c, W9_v51 m ρ c, W9_v53 m ρ c, W9_v56 m ρ c]))

theorem W10_v1 : W10 m ρ c (Proc.devRef .tc main_v1) = (S m c) :=
  (W10_of_ne m ρ c main_v1 (by decide)).trans (W9_v1 m ρ c)

theorem W10_v3 : W10 m ρ c (Proc.devRef .tc main_v3) = (D m c) :=
  (W10_of_ne m ρ c main_v3 (by decide)).trans (W9_v3 m ρ c)

theorem W10_arg2 : W10 m ρ c (Proc.devRef .tc main_arg2) = (A2 m c) :=
  (W10_of_ne m ρ c main_arg2 (by decide)).trans (W9_arg2 m ρ c)

theorem W10_arg5 : W10 m ρ c (Proc.devRef .tc main_arg5) = (A5 m c) :=
  (W10_of_ne m ρ c main_arg5 (by decide)).trans (W9_arg5 m ρ c)

theorem W10_arg6 : W10 m ρ c (Proc.devRef .tc main_arg6) = (A6 m c) :=
  (W10_of_ne m ρ c main_arg6 (by decide)).trans (W9_arg6 m ρ c)

theorem W10_arg7 : W10 m ρ c (Proc.devRef .tc main_arg7) = (A7 m c) :=
  (W10_of_ne m ρ c main_arg7 (by decide)).trans (W9_arg7 m ρ c)

theorem W10_arg8 : W10 m ρ c (Proc.devRef .tc main_arg8) = (A8 m c) :=
  (W10_of_ne m ρ c main_arg8 (by decide)).trans (W9_arg8 m ρ c)

theorem W11_v64 : W11 m ρ c (Proc.devRef .tc main_v64) = (Stage.gath (H2 m c) (S m c)) :=
  by
  show StableHlo.after hostOps5 (W10 m ρ c) (Proc.devRef .tc main_v64) = _
  after_results
  rw [W10_v57 m ρ c, W10_v1 m ρ c]
  rfl

theorem W11_v66 : W11 m ρ c (Proc.devRef .tc main_v66) = (Stage.wa2_2 (A5 m c)) :=
  by
  show StableHlo.after hostOps5 (W10 m ρ c) (Proc.devRef .tc main_v66) = _
  after_results
  rw [W10_arg5 m ρ c]
  rfl

theorem W11_v68 : W11 m ρ c (Proc.devRef .tc main_v68) = (Stage.wb2_2 (A5 m c)) :=
  by
  show StableHlo.after hostOps5 (W10 m ρ c) (Proc.devRef .tc main_v68) = _
  after_results
  rw [W10_arg5 m ρ c]
  rfl

theorem W11_v71 : W11 m ρ c (Proc.devRef .tc main_v71) = (Stage.brow_2 (A6 m c)) :=
  by
  show StableHlo.after hostOps5 (W10 m ρ c) (Proc.devRef .tc main_v71) = _
  after_results
  rw [W10_arg6 m ρ c]
  rfl

theorem W11_v1 : W11 m ρ c (Proc.devRef .tc main_v1) = (S m c) :=
  (StableHlo.after_of_forall_not_mem (b := Proc.devRef .tc main_v1) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_v1 m ρ c)

theorem W11_v3 : W11 m ρ c (Proc.devRef .tc main_v3) = (D m c) :=
  (StableHlo.after_of_forall_not_mem (b := Proc.devRef .tc main_v3) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_v3 m ρ c)

theorem W11_v57 : W11 m ρ c (Proc.devRef .tc main_v57) = (H2 m c) :=
  (StableHlo.after_of_forall_not_mem (b := Proc.devRef .tc main_v57) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_v57 m ρ c)

theorem W11_arg2 : W11 m ρ c (Proc.devRef .tc main_arg2) = (A2 m c) :=
  (StableHlo.after_of_forall_not_mem (b := Proc.devRef .tc main_arg2) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg2 m ρ c)

theorem W11_arg5 : W11 m ρ c (Proc.devRef .tc main_arg5) = (A5 m c) :=
  (StableHlo.after_of_forall_not_mem (b := Proc.devRef .tc main_arg5) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg5 m ρ c)

theorem W11_arg6 : W11 m ρ c (Proc.devRef .tc main_arg6) = (A6 m c) :=
  (StableHlo.after_of_forall_not_mem (b := Proc.devRef .tc main_arg6) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg6 m ρ c)

theorem W11_arg7 : W11 m ρ c (Proc.devRef .tc main_arg7) = (A7 m c) :=
  (StableHlo.after_of_forall_not_mem (b := Proc.devRef .tc main_arg7) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg7 m ρ c)

theorem W11_arg8 : W11 m ρ c (Proc.devRef .tc main_arg8) = (A8 m c) :=
  (StableHlo.after_of_forall_not_mem (b := Proc.devRef .tc main_arg8) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg8 m ρ c)

theorem W12_v72 : W12 m ρ c (Proc.devRef .tc main_v72) = (M2 m c) :=
  (W12_arr m ρ c 5).trans ((Cert.KernelIdeal.Reg5.final (V11 m ρ) c).trans (by
    show Cert.KernelIdeal.Fun.GM (W11 m ρ c (Proc.devRef .tc main_v64)) (W11 m ρ c (Proc.devRef .tc main_arg2)) (W11 m ρ c (Proc.devRef .tc main_v66)) (W11 m ρ c (Proc.devRef .tc main_v68)) (W11 m ρ c (Proc.devRef .tc main_v71)) = _
    rw [W11_v64 m ρ c, W11_arg2 m ρ c, W11_v66 m ρ c, W11_v68 m ρ c, W11_v71 m ρ c]))

theorem W12_v1 : W12 m ρ c (Proc.devRef .tc main_v1) = (S m c) :=
  (W12_of_ne m ρ c main_v1 (by decide)).trans (W11_v1 m ρ c)

theorem W12_v3 : W12 m ρ c (Proc.devRef .tc main_v3) = (D m c) :=
  (W12_of_ne m ρ c main_v3 (by decide)).trans (W11_v3 m ρ c)

theorem W12_v57 : W12 m ρ c (Proc.devRef .tc main_v57) = (H2 m c) :=
  (W12_of_ne m ρ c main_v57 (by decide)).trans (W11_v57 m ρ c)

theorem W12_arg5 : W12 m ρ c (Proc.devRef .tc main_arg5) = (A5 m c) :=
  (W12_of_ne m ρ c main_arg5 (by decide)).trans (W11_arg5 m ρ c)

theorem W12_arg6 : W12 m ρ c (Proc.devRef .tc main_arg6) = (A6 m c) :=
  (W12_of_ne m ρ c main_arg6 (by decide)).trans (W11_arg6 m ρ c)

theorem W12_arg7 : W12 m ρ c (Proc.devRef .tc main_arg7) = (A7 m c) :=
  (W12_of_ne m ρ c main_arg7 (by decide)).trans (W11_arg7 m ρ c)

theorem W12_arg8 : W12 m ρ c (Proc.devRef .tc main_arg8) = (A8 m c) :=
  (W12_of_ne m ρ c main_arg8 (by decide)).trans (W11_arg8 m ρ c)

theorem W12_arg2 : W12 m ρ c (Proc.devRef .tc main_arg2) = (A2 m c) :=
  (W12_arr m ρ c 1).trans (((dat5 (V11 m ρ) c).arrAt_in 1 rfl _).trans ((A_eq5 (V11 m ρ) c 1).trans (W11_arg2 m ρ c)))

theorem W13_v75 : W13 m ρ c (Proc.devRef .tc main_v75) = (Stage.agg (D m c) (M2 m c)) :=
  by
  show StableHlo.after hostOps6 (W12 m ρ c) (Proc.devRef .tc main_v75) = _
  after_results
  rw [W12_v72 m ρ c, W12_v3 m ρ c]
  rfl

theorem W13_v77 : W13 m ρ c (Proc.devRef .tc main_v77) = (Stage.wa1_2 (A7 m c)) :=
  by
  show StableHlo.after hostOps6 (W12 m ρ c) (Proc.devRef .tc main_v77) = _
  after_results
  rw [W12_arg7 m ρ c]
  rfl

theorem W13_v79 : W13 m ρ c (Proc.devRef .tc main_v79) = (Stage.wb1_2 (A7 m c)) :=
  by
  show StableHlo.after hostOps6 (W12 m ρ c) (Proc.devRef .tc main_v79) = _
  after_results
  rw [W12_arg7 m ρ c]
  rfl

theorem W13_v82 : W13 m ρ c (Proc.devRef .tc main_v82) = (Stage.brow_2 (A8 m c)) :=
  by
  show StableHlo.after hostOps6 (W12 m ρ c) (Proc.devRef .tc main_v82) = _
  after_results
  rw [W12_arg8 m ρ c]
  rfl

theorem W13_v1 : W13 m ρ c (Proc.devRef .tc main_v1) = (S m c) :=
  (StableHlo.after_of_forall_not_mem (b := Proc.devRef .tc main_v1) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_v1 m ρ c)

theorem W13_v3 : W13 m ρ c (Proc.devRef .tc main_v3) = (D m c) :=
  (StableHlo.after_of_forall_not_mem (b := Proc.devRef .tc main_v3) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_v3 m ρ c)

theorem W13_v57 : W13 m ρ c (Proc.devRef .tc main_v57) = (H2 m c) :=
  (StableHlo.after_of_forall_not_mem (b := Proc.devRef .tc main_v57) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_v57 m ρ c)

theorem W13_arg2 : W13 m ρ c (Proc.devRef .tc main_arg2) = (A2 m c) :=
  (StableHlo.after_of_forall_not_mem (b := Proc.devRef .tc main_arg2) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_arg2 m ρ c)

theorem W13_arg5 : W13 m ρ c (Proc.devRef .tc main_arg5) = (A5 m c) :=
  (StableHlo.after_of_forall_not_mem (b := Proc.devRef .tc main_arg5) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_arg5 m ρ c)

theorem W13_arg6 : W13 m ρ c (Proc.devRef .tc main_arg6) = (A6 m c) :=
  (StableHlo.after_of_forall_not_mem (b := Proc.devRef .tc main_arg6) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_arg6 m ρ c)

theorem W13_arg7 : W13 m ρ c (Proc.devRef .tc main_arg7) = (A7 m c) :=
  (StableHlo.after_of_forall_not_mem (b := Proc.devRef .tc main_arg7) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_arg7 m ρ c)

theorem W13_arg8 : W13 m ρ c (Proc.devRef .tc main_arg8) = (A8 m c) :=
  (StableHlo.after_of_forall_not_mem (b := Proc.devRef .tc main_arg8) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W12_arg8 m ρ c)

theorem W14_v83 : W14 m ρ c (Proc.devRef .tc main_v83) = (H3 m c) :=
  (W14_arr m ρ c 5).trans ((Cert.KernelIdeal.Reg6.final (V13 m ρ) c).trans (by
    show Cert.KernelIdeal.Fun.GU (W13 m ρ c (Proc.devRef .tc main_v57)) (W13 m ρ c (Proc.devRef .tc main_v75)) (W13 m ρ c (Proc.devRef .tc main_v77)) (W13 m ρ c (Proc.devRef .tc main_v79)) (W13 m ρ c (Proc.devRef .tc main_v82)) = _
    rw [W13_v57 m ρ c, W13_v75 m ρ c, W13_v77 m ρ c, W13_v79 m ρ c, W13_v82 m ρ c]))

/-- The result buffer at the last boundary: the whole program's function of the nine argument arrays. -/
theorem value : W14 m ρ c (Proc.devRef .tc main_v83)
    = Stage.result (A0 m c) (A1 m c) (A2 m c) (A3 m c) (A4 m c) (A5 m c) (A6 m c) (A7 m c) (A8 m c) :=
  (W14_v83 m ρ c).trans rfl

end Cert.KernelIdeal.Chain

end
-- ==== Proof.RefAt.lean ====
/-
  The reference's stages read at one index, with the floats taken as extended reals.

  Each stage of the reference is a few whole-array operations; here each is evaluated at a single entry.
  * A bias vector repeated along the rows reads, at (r, j), the bias at j.
  * A product of an m × k by a k × n matrix reads, at (r, j), the sum over the contracted coordinate of the products of
    the entries; the input projection is that sum plus the bias.
  * The message and update stages multiply a row of two arrays laid side by side (64 columns, then 16 resp. 64 more) by a
    weight matrix with 80 resp. 128 rows. A column below 64 of the side-by-side array reads the first array and a column
    from 64 on reads the second at the column less 64, so the contraction over 64 + 16 (64 + 64) coordinates splits into
    the sum over the first 64 rows of the weights plus the sum over the remaining rows; the bias is added to that sum of
    two sums, and the message stage then applies `leak` to the entry.
  * Page l of a stacked array of weights or biases reads, at (k, j) resp. j, the stacked array at (l, k, j) resp. (l, j).
-/
import proofs.«134910_j29300266893460_1_alg».proof.Proof.Spec
import proofs.«134910_j29300266893460_1_alg».proof.Proof.Gen.ReferenceIdeal
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.ReferenceIdeal.RefAt

open Idealize.ShloMosaic Idealize.ShloMosaic.ValueIdx Cert.ReferenceIdeal

/-- A bias repeated along the node axis reads, at (r, j), the bias at j. -/
theorem biasN_apply (b : FVec Ideal S64 .f32) (r : Fin 100000) (j : Fin 64) :
    Spec.biasN (F := Ideal) b (ix2 r j) = b (ix1 j) := by
  unfold Spec.biasN
  refine (broadcastInDim_apply _ _ _ (ix2 r j) (ix2 (0 : Fin 1) j) (fun a => by
    match a with
    | ⟨0, _⟩ => rfl
    | ⟨1, _⟩ => rfl)).trans ?_
  exact broadcastInDim_apply _ _ _ (ix2 (0 : Fin 1) j) (ix1 j) (fun a => by
    match a with
    | ⟨0, _⟩ => rfl)

/-- A bias repeated along the edge axis reads, at (e, j), the bias at j. -/
theorem biasE_apply (b : FVec Ideal S64 .f32) (e : Fin 1600000) (j : Fin 64) :
    Spec.biasE (F := Ideal) b (ix2 e j) = b (ix1 j) := by
  unfold Spec.biasE
  refine (broadcastInDim_apply _ _ _ (ix2 e j) (ix2 (0 : Fin 1) j) (fun a => by
    match a with
    | ⟨0, _⟩ => rfl
    | ⟨1, _⟩ => rfl)).trans ?_
  exact broadcastInDim_apply _ _ _ (ix2 (0 : Fin 1) j) (ix1 j) (fun a => by
    match a with
    | ⟨0, _⟩ => rfl)

/-- The input projection at (r, j): row r of the inputs against column j of the weights, plus the bias at j. -/
theorem proj_apply (x : FVec Ideal S100000x75 .f32) (w : FVec Ideal S75x64 .f32) (b : FVec Ideal S64 .f32)
    (r : Fin 100000) (j : Fin 64) :
    Spec.proj (F := Ideal) x w b (ix2 r j) = (∑ k : Fin 75, x (ix2 r k) * w (ix2 k j)) + b (ix1 j) := by
  unfold Spec.proj
  rw [addf_apply, biasN_apply]
  exact congrArg (· + b (ix1 j)) (StackMember.dotGeneral_plain_apply none x w r j)

/-- The entrywise `leaky` at one entry is `leak` of that entry. -/
theorem leaky_apply (z : FVec Ideal S1600000x64 .f32) (i : S1600000x64.Idx) :
    Spec.leaky (F := Ideal) z i = Spec.leak (z i) := rfl

/-- Source features beside edge features: a column below 64 reads the source features. -/
theorem cat80_left (gh : FVec Ideal S1600000x64 .f32) (ea : FVec Ideal S1600000x16 .f32) (e : Fin 1600000) (k : Fin 64) :
    concatenate S1600000x80 1 [⟨S1600000x64, gh⟩, ⟨S1600000x16, ea⟩]
      Facts₀.concatenates_S1600000x64_S1600000x16_S1600000x80_d1 (ix2 e (Fin.castAdd 16 k)) = gh (ix2 e k) :=
  concatenate_pair_apply_left _ gh ea _ (ix2 e (Fin.castAdd 16 k)) rfl (ix2 e k) (fun b => by
    match b with
    | ⟨0, _⟩ => rfl
    | ⟨1, _⟩ => rfl)

/-- … and a column from 64 on reads the edge features at the column less 64. -/
theorem cat80_right (gh : FVec Ideal S1600000x64 .f32) (ea : FVec Ideal S1600000x16 .f32) (e : Fin 1600000) (k : Fin 16) :
    concatenate S1600000x80 1 [⟨S1600000x64, gh⟩, ⟨S1600000x16, ea⟩]
      Facts₀.concatenates_S1600000x64_S1600000x16_S1600000x80_d1 (ix2 e (Fin.natAdd 64 k)) = ea (ix2 e k) :=
  concatenate_pair_apply_right _ gh ea _ (ix2 e (Fin.natAdd 64 k)) rfl rfl (ix2 e k) (fun b hb => by
    match b with
    | ⟨0, _⟩ => rfl
    | ⟨1, _⟩ => exact absurd rfl hb) (by
    show k.val + 64 = 64 + k.val
    omega)

/-- Node features beside summed messages: a column below 64 reads the node features. -/
theorem cat128_left (h a : FVec Ideal S100000x64 .f32) (r : Fin 100000) (k : Fin 64) :
    concatenate S100000x128 1 [⟨S100000x64, h⟩, ⟨S100000x64, a⟩]
      Facts₀.concatenates_S100000x64_S100000x64_S100000x128_d1 (ix2 r (Fin.castAdd 64 k)) = h (ix2 r k) :=
  concatenate_pair_apply_left _ h a _ (ix2 r (Fin.castAdd 64 k)) rfl (ix2 r k) (fun b => by
    match b with
    | ⟨0, _⟩ => rfl
    | ⟨1, _⟩ => rfl)

/-- … and a column from 64 on reads the summed messages at the column less 64. -/
theorem cat128_right (h a : FVec Ideal S100000x64 .f32) (r : Fin 100000) (k : Fin 64) :
    concatenate S100000x128 1 [⟨S100000x64, h⟩, ⟨S100000x64, a⟩]
      Facts₀.concatenates_S100000x64_S100000x64_S100000x128_d1 (ix2 r (Fin.natAdd 64 k)) = a (ix2 r k) :=
  concatenate_pair_apply_right _ h a _ (ix2 r (Fin.natAdd 64 k)) rfl rfl (ix2 r k) (fun b hb => by
    match b with
    | ⟨0, _⟩ => rfl
    | ⟨1, _⟩ => exact absurd rfl hb) (by
    show k.val + 64 = 64 + k.val
    omega)

/-- The message at (e, j): the 80-term contraction split into the 64 source-feature terms and the 16 edge-feature
    terms, the bias added to their sum, then `leak`. -/
theorem msg_apply (gh : FVec Ideal S1600000x64 .f32) (ea : FVec Ideal S1600000x16 .f32) (W : FVec Ideal S80x64 .f32)
    (b : FVec Ideal S64 .f32) (e : Fin 1600000) (j : Fin 64) :
    Spec.msg (F := Ideal) gh ea W b (ix2 e j)
      = Spec.leak (((∑ k : Fin 64, gh (ix2 e k) * W (ix2 (Fin.castAdd 16 k) j))
          + (∑ k : Fin 16, ea (ix2 e k) * W (ix2 (Fin.natAdd 64 k) j))) + b (ix1 j)) := by
  unfold Spec.msg
  rw [leaky_apply, addf_apply, biasE_apply]
  refine congrArg (fun s => Spec.leak (s + b (ix1 j))) ?_
  refine (StackMember.dotGeneral_plain_apply none _ W e j).trans ?_
  refine (Fin.sum_univ_add (fun c : Fin (64 + 16) =>
    concatenate S1600000x80 1 [⟨S1600000x64, gh⟩, ⟨S1600000x16, ea⟩]
      Facts₀.concatenates_S1600000x64_S1600000x16_S1600000x80_d1 (ix2 e c) * W (ix2 c j))).trans ?_
  refine congrArg₂ (· + ·) (Finset.sum_congr rfl fun k _ => ?_) (Finset.sum_congr rfl fun k _ => ?_)
  · exact congrArg (· * W (ix2 (Fin.castAdd 16 k) j)) (cat80_left gh ea e k)
  · exact congrArg (· * W (ix2 (Fin.natAdd 64 k) j)) (cat80_right gh ea e k)

/-- The new features at (r, j): the 128-term contraction split into the 64 old-feature terms and the 64 summed-message
    terms, the bias added to their sum. -/
theorem upd_apply (h a : FVec Ideal S100000x64 .f32) (W : FVec Ideal S128x64 .f32) (b : FVec Ideal S64 .f32)
    (r : Fin 100000) (j : Fin 64) :
    Spec.upd (F := Ideal) h a W b (ix2 r j)
      = ((∑ k : Fin 64, h (ix2 r k) * W (ix2 (Fin.castAdd 64 k) j))
          + (∑ k : Fin 64, a (ix2 r k) * W (ix2 (Fin.natAdd 64 k) j))) + b (ix1 j) := by
  unfold Spec.upd
  rw [addf_apply, biasN_apply]
  refine congrArg (· + b (ix1 j)) ?_
  refine (StackMember.dotGeneral_plain_apply none _ W r j).trans ?_
  refine (Fin.sum_univ_add (fun c : Fin (64 + 64) =>
    concatenate S100000x128 1 [⟨S100000x64, h⟩, ⟨S100000x64, a⟩]
      Facts₀.concatenates_S100000x64_S100000x64_S100000x128_d1 (ix2 r c) * W (ix2 c j))).trans ?_
  refine congrArg₂ (· + ·) (Finset.sum_congr rfl fun k _ => ?_) (Finset.sum_congr rfl fun k _ => ?_)
  · exact congrArg (· * W (ix2 (Fin.castAdd 64 k) j)) (cat128_left h a r k)
  · exact congrArg (· * W (ix2 (Fin.natAdd 64 k) j)) (cat128_right h a r k)

/-! Page `l` of a stacked weight array, read at an index: the leading unit axis of the slice is dropped, and the slice
    starts at page `l`, row 0, column 0. -/

theorem w2_0_apply (W : FVec Ideal S3x80x64 .f32) (k : Fin 80) (j : Fin 64) :
    Spec.w2_0 (F := Ideal) W (ix2 k j) = W (ix3 (0 : Fin 3) k j) := by
  unfold Spec.w2_0
  refine (shapeCast_1ab_ab_apply _ _ k j).trans ?_
  exact extractStridedSlice_apply _ W _ (ix3 (0 : Fin 1) k j) (ix3 (0 : Fin 3) k j) (fun a => by
    match a with
    | ⟨0, _⟩ => rfl
    | ⟨1, _⟩ => exact (Nat.zero_add _).symm
    | ⟨2, _⟩ => exact (Nat.zero_add _).symm)

theorem w2_1_apply (W : FVec Ideal S3x80x64 .f32) (k : Fin 80) (j : Fin 64) :
    Spec.w2_1 (F := Ideal) W (ix2 k j) = W (ix3 (1 : Fin 3) k j) := by
  unfold Spec.w2_1
  refine (shapeCast_1ab_ab_apply _ _ k j).trans ?_
  exact extractStridedSlice_apply _ W _ (ix3 (0 : Fin 1) k j) (ix3 (1 : Fin 3) k j) (fun a => by
    match a with
    | ⟨0, _⟩ => rfl
    | ⟨1, _⟩ => exact (Nat.zero_add _).symm
    | ⟨2, _⟩ => exact (Nat.zero_add _).symm)

theorem w2_2_apply (W : FVec Ideal S3x80x64 .f32) (k : Fin 80) (j : Fin 64) :
    Spec.w2_2 (F := Ideal) W (ix2 k j) = W (ix3 (2 : Fin 3) k j) := by
  unfold Spec.w2_2
  refine (shapeCast_1ab_ab_apply _ _ k j).trans ?_
  exact extractStridedSlice_apply _ W _ (ix3 (0 : Fin 1) k j) (ix3 (2 : Fin 3) k j) (fun a => by
    match a with
    | ⟨0, _⟩ => rfl
    | ⟨1, _⟩ => exact (Nat.zero_add _).symm
    | ⟨2, _⟩ => exact (Nat.zero_add _).symm)

theorem w1_0_apply (W : FVec Ideal S3x128x64 .f32) (k : Fin 128) (j : Fin 64) :
    Spec.w1_0 (F := Ideal) W (ix2 k j) = W (ix3 (0 : Fin 3) k j) := by
  unfold Spec.w1_0
  refine (shapeCast_1ab_ab_apply _ _ k j).trans ?_
  exact extractStridedSlice_apply _ W _ (ix3 (0 : Fin 1) k j) (ix3 (0 : Fin 3) k j) (fun a => by
    match a with
    | ⟨0, _⟩ => rfl
    | ⟨1, _⟩ => exact (Nat.zero_add _).symm
    | ⟨2, _⟩ => exact (Nat.zero_add _).symm)

theorem w1_1_apply (W : FVec Ideal S3x128x64 .f32) (k : Fin 128) (j : Fin 64) :
    Spec.w1_1 (F := Ideal) W (ix2 k j) = W (ix3 (1 : Fin 3) k j) := by
  unfold Spec.w1_1
  refine (shapeCast_1ab_ab_apply _ _ k j).trans ?_
  exact extractStridedSlice_apply _ W _ (ix3 (0 : Fin 1) k j) (ix3 (1 : Fin 3) k j) (fun a => by
    match a with
    | ⟨0, _⟩ => rfl
    | ⟨1, _⟩ => exact (Nat.zero_add _).symm
    | ⟨2, _⟩ => exact (Nat.zero_add _).symm)

theorem w1_2_apply (W : FVec Ideal S3x128x64 .f32) (k : Fin 128) (j : Fin 64) :
    Spec.w1_2 (F := Ideal) W (ix2 k j) = W (ix3 (2 : Fin 3) k j) := by
  unfold Spec.w1_2
  refine (shapeCast_1ab_ab_apply _ _ k j).trans ?_
  exact extractStridedSlice_apply _ W _ (ix3 (0 : Fin 1) k j) (ix3 (2 : Fin 3) k j) (fun a => by
    match a with
    | ⟨0, _⟩ => rfl
    | ⟨1, _⟩ => exact (Nat.zero_add _).symm
    | ⟨2, _⟩ => exact (Nat.zero_add _).symm)

theorem b_0_apply (B : FVec Ideal S3x64 .f32) (j : Fin 64) :
    Spec.b_0 (F := Ideal) B (ix1 j) = B (ix2 (0 : Fin 3) j) := by
  unfold Spec.b_0
  refine (shapeCast_1a_a_apply _ _ j).trans ?_
  exact extractStridedSlice_apply _ B _ (ix2 (0 : Fin 1) j) (ix2 (0 : Fin 3) j) (fun a => by
    match a with
    | ⟨0, _⟩ => rfl
    | ⟨1, _⟩ => exact (Nat.zero_add _).symm)

theorem b_1_apply (B : FVec Ideal S3x64 .f32) (j : Fin 64) :
    Spec.b_1 (F := Ideal) B (ix1 j) = B (ix2 (1 : Fin 3) j) := by
  unfold Spec.b_1
  refine (shapeCast_1a_a_apply _ _ j).trans ?_
  exact extractStridedSlice_apply _ B _ (ix2 (0 : Fin 1) j) (ix2 (1 : Fin 3) j) (fun a => by
    match a with
    | ⟨0, _⟩ => rfl
    | ⟨1, _⟩ => exact (Nat.zero_add _).symm)

theorem b_2_apply (B : FVec Ideal S3x64 .f32) (j : Fin 64) :
    Spec.b_2 (F := Ideal) B (ix1 j) = B (ix2 (2 : Fin 3) j) := by
  unfold Spec.b_2
  refine (shapeCast_1a_a_apply _ _ j).trans ?_
  exact extractStridedSlice_apply _ B _ (ix2 (0 : Fin 1) j) (ix2 (2 : Fin 3) j) (fun a => by
    match a with
    | ⟨0, _⟩ => rfl
    | ⟨1, _⟩ => exact (Nat.zero_add _).symm)

end Cert.ReferenceIdeal.RefAt

end
-- ==== Proof.KHostAt.lean ====
/-
  The weight and bias pages the kernel's program cuts out on the host, read at one entry, with the floats taken as
  extended reals.

  Before each launch the program slices one page of a stacked array and drops the page axis. For the message weights
  (80 rows) it takes rows 0 … 63 and rows 64 … 79 of page l separately, for the update weights (128 rows) rows 0 … 63 and
  rows 64 … 127; so row k of a first part is row k of the page, written as the embedding of k into the first 64 of
  64 + 16 (64 + 64) rows, and row k of a second part is row 64 + k of the page. A bias page is cut out, flattened to a
  vector and given a leading unit axis again: at (0, j) it reads the stacked biases at (l, j). A vector given a leading
  unit axis reads, at (0, j), the vector at j.
-/
import proofs.«134910_j29300266893460_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostAt

open Idealize.ShloMosaic Idealize.ShloMosaic.ValueIdx Cert.KernelIdeal Cert.KernelIdeal.Facts₀ Cert.KernelIdeal.Facts

/-! Rows 0 … 63 of page `l` of the message weights. -/

theorem wa2_0_apply (W : FVec Ideal S3x80x64 .f32) (k : Fin 64) (j : Fin 64) :
    shapeCast S64x64 (extractStridedSlice S1x64x64 ![0, 0, 0] W slices_S3x80x64_S1x64x64_0_0_0) shapeCasts_S1x64x64_S64x64 (ix2 k j)
      = W (ix3 (0 : Fin 3) (Fin.castAdd 16 k) j) := by
  refine (shapeCast_1ab_ab_apply _ _ k j).trans ?_
  exact extractStridedSlice_apply _ W _ (ix3 (0 : Fin 1) k j) (ix3 (0 : Fin 3) (Fin.castAdd 16 k) j) (fun a => by
    match a with
    | ⟨0, _⟩ => rfl
    | ⟨1, _⟩ => exact (Nat.zero_add _).symm
    | ⟨2, _⟩ => exact (Nat.zero_add _).symm)

theorem wa2_1_apply (W : FVec Ideal S3x80x64 .f32) (k : Fin 64) (j : Fin 64) :
    shapeCast S64x64 (extractStridedSlice S1x64x64 ![1, 0, 0] W slices_S3x80x64_S1x64x64_1_0_0) shapeCasts_S1x64x64_S64x64 (ix2 k j)
      = W (ix3 (1 : Fin 3) (Fin.castAdd 16 k) j) := by
  refine (shapeCast_1ab_ab_apply _ _ k j).trans ?_
  exact extractStridedSlice_apply _ W _ (ix3 (0 : Fin 1) k j) (ix3 (1 : Fin 3) (Fin.castAdd 16 k) j) (fun a => by
    match a with
    | ⟨0, _⟩ => rfl
    | ⟨1, _⟩ => exact (Nat.zero_add _).symm
    | ⟨2, _⟩ => exact (Nat.zero_add _).symm)

theorem wa2_2_apply (W : FVec Ideal S3x80x64 .f32) (k : Fin 64) (j : Fin 64) :
    shapeCast S64x64 (extractStridedSlice S1x64x64 ![2, 0, 0] W slices_S3x80x64_S1x64x64_2_0_0) shapeCasts_S1x64x64_S64x64 (ix2 k j)
      = W (ix3 (2 : Fin 3) (Fin.castAdd 16 k) j) := by
  refine (shapeCast_1ab_ab_apply _ _ k j).trans ?_
  exact extractStridedSlice_apply _ W _ (ix3 (0 : Fin 1) k j) (ix3 (2 : Fin 3) (Fin.castAdd 16 k) j) (fun a => by
    match a with
    | ⟨0, _⟩ => rfl
    | ⟨1, _⟩ => exact (Nat.zero_add _).symm
    | ⟨2, _⟩ => exact (Nat.zero_add _).symm)

/-! Rows 64 … 79 of page `l` of the message weights. -/

theorem wb2_0_apply (W : FVec Ideal S3x80x64 .f32) (k : Fin 16) (j : Fin 64) :
    shapeCast S16x64 (extractStridedSlice S1x16x64 ![0, 64, 0] W slices_S3x80x64_S1x16x64_0_64_0) shapeCasts_S1x16x64_S16x64 (ix2 k j)
      = W (ix3 (0 : Fin 3) (Fin.natAdd 64 k) j) := by
  refine (shapeCast_1ab_ab_apply _ _ k j).trans ?_
  exact extractStridedSlice_apply _ W _ (ix3 (0 : Fin 1) k j) (ix3 (0 : Fin 3) (Fin.natAdd 64 k) j) (fun a => by
    match a with
    | ⟨0, _⟩ => rfl
    | ⟨1, _⟩ => rfl
    | ⟨2, _⟩ => exact (Nat.zero_add _).symm)

theorem wb2_1_apply (W : FVec Ideal S3x80x64 .f32) (k : Fin 16) (j : Fin 64) :
    shapeCast S16x64 (extractStridedSlice S1x16x64 ![1, 64, 0] W slices_S3x80x64_S1x16x64_1_64_0) shapeCasts_S1x16x64_S16x64 (ix2 k j)
      = W (ix3 (1 : Fin 3) (Fin.natAdd 64 k) j) := by
  refine (shapeCast_1ab_ab_apply _ _ k j).trans ?_
  exact extractStridedSlice_apply _ W _ (ix3 (0 : Fin 1) k j) (ix3 (1 : Fin 3) (Fin.natAdd 64 k) j) (fun a => by
    match a with
    | ⟨0, _⟩ => rfl
    | ⟨1, _⟩ => rfl
    | ⟨2, _⟩ => exact (Nat.zero_add _).symm)

theorem wb2_2_apply (W : FVec Ideal S3x80x64 .f32) (k : Fin 16) (j : Fin 64) :
    shapeCast S16x64 (extractStridedSlice S1x16x64 ![2, 64, 0] W slices_S3x80x64_S1x16x64_2_64_0) shapeCasts_S1x16x64_S16x64 (ix2 k j)
      = W (ix3 (2 : Fin 3) (Fin.natAdd 64 k) j) := by
  refine (shapeCast_1ab_ab_apply _ _ k j).trans ?_
  exact extractStridedSlice_apply _ W _ (ix3 (0 : Fin 1) k j) (ix3 (2 : Fin 3) (Fin.natAdd 64 k) j) (fun a => by
    match a with
    | ⟨0, _⟩ => rfl
    | ⟨1, _⟩ => rfl
    | ⟨2, _⟩ => exact (Nat.zero_add _).symm)

/-! Rows 0 … 63 of page `l` of the update weights. -/

theorem wa1_0_apply (W : FVec Ideal S3x128x64 .f32) (k : Fin 64) (j : Fin 64) :
    shapeCast S64x64 (extractStridedSlice S1x64x64 ![0, 0, 0] W slices_S3x128x64_S1x64x64_0_0_0) shapeCasts_S1x64x64_S64x64 (ix2 k j)
      = W (ix3 (0 : Fin 3) (Fin.castAdd 64 k) j) := by
  refine (shapeCast_1ab_ab_apply _ _ k j).trans ?_
  exact extractStridedSlice_apply _ W _ (ix3 (0 : Fin 1) k j) (ix3 (0 : Fin 3) (Fin.castAdd 64 k) j) (fun a => by
    match a with
    | ⟨0, _⟩ => rfl
    | ⟨1, _⟩ => exact (Nat.zero_add _).symm
    | ⟨2, _⟩ => exact (Nat.zero_add _).symm)

theorem wa1_1_apply (W : FVec Ideal S3x128x64 .f32) (k : Fin 64) (j : Fin 64) :
    shapeCast S64x64 (extractStridedSlice S1x64x64 ![1, 0, 0] W slices_S3x128x64_S1x64x64_1_0_0) shapeCasts_S1x64x64_S64x64 (ix2 k j)
      = W (ix3 (1 : Fin 3) (Fin.castAdd 64 k) j) := by
  refine (shapeCast_1ab_ab_apply _ _ k j).trans ?_
  exact extractStridedSlice_apply _ W _ (ix3 (0 : Fin 1) k j) (ix3 (1 : Fin 3) (Fin.castAdd 64 k) j) (fun a => by
    match a with
    | ⟨0, _⟩ => rfl
    | ⟨1, _⟩ => exact (Nat.zero_add _).symm
    | ⟨2, _⟩ => exact (Nat.zero_add _).symm)

theorem wa1_2_apply (W : FVec Ideal S3x128x64 .f32) (k : Fin 64) (j : Fin 64) :
    shapeCast S64x64 (extractStridedSlice S1x64x64 ![2, 0, 0] W slices_S3x128x64_S1x64x64_2_0_0) shapeCasts_S1x64x64_S64x64 (ix2 k j)
      = W (ix3 (2 : Fin 3) (Fin.castAdd 64 k) j) := by
  refine (shapeCast_1ab_ab_apply _ _ k j).trans ?_
  exact extractStridedSlice_apply _ W _ (ix3 (0 : Fin 1) k j) (ix3 (2 : Fin 3) (Fin.castAdd 64 k) j) (fun a => by
    match a with
    | ⟨0, _⟩ => rfl
    | ⟨1, _⟩ => exact (Nat.zero_add _).symm
    | ⟨2, _⟩ => exact (Nat.zero_add _).symm)

/-! Rows 64 … 127 of page `l` of the update weights. -/

theorem wb1_0_apply (W : FVec Ideal S3x128x64 .f32) (k : Fin 64) (j : Fin 64) :
    shapeCast S64x64 (extractStridedSlice S1x64x64 ![0, 64, 0] W slices_S3x128x64_S1x64x64_0_64_0) shapeCasts_S1x64x64_S64x64 (ix2 k j)
      = W (ix3 (0 : Fin 3) (Fin.natAdd 64 k) j) := by
  refine (shapeCast_1ab_ab_apply _ _ k j).trans ?_
  exact extractStridedSlice_apply _ W _ (ix3 (0 : Fin 1) k j) (ix3 (0 : Fin 3) (Fin.natAdd 64 k) j) (fun a => by
    match a with
    | ⟨0, _⟩ => rfl
    | ⟨1, _⟩ => rfl
    | ⟨2, _⟩ => exact (Nat.zero_add _).symm)

theorem wb1_1_apply (W : FVec Ideal S3x128x64 .f32) (k : Fin 64) (j : Fin 64) :
    shapeCast S64x64 (extractStridedSlice S1x64x64 ![1, 64, 0] W slices_S3x128x64_S1x64x64_1_64_0) shapeCasts_S1x64x64_S64x64 (ix2 k j)
      = W (ix3 (1 : Fin 3) (Fin.natAdd 64 k) j) := by
  refine (shapeCast_1ab_ab_apply _ _ k j).trans ?_
  exact extractStridedSlice_apply _ W _ (ix3 (0 : Fin 1) k j) (ix3 (1 : Fin 3) (Fin.natAdd 64 k) j) (fun a => by
    match a with
    | ⟨0, _⟩ => rfl
    | ⟨1, _⟩ => rfl
    | ⟨2, _⟩ => exact (Nat.zero_add _).symm)

theorem wb1_2_apply (W : FVec Ideal S3x128x64 .f32) (k : Fin 64) (j : Fin 64) :
    shapeCast S64x64 (extractStridedSlice S1x64x64 ![2, 64, 0] W slices_S3x128x64_S1x64x64_2_64_0) shapeCasts_S1x64x64_S64x64 (ix2 k j)
      = W (ix3 (2 : Fin 3) (Fin.natAdd 64 k) j) := by
  refine (shapeCast_1ab_ab_apply _ _ k j).trans ?_
  exact extractStridedSlice_apply _ W _ (ix3 (0 : Fin 1) k j) (ix3 (2 : Fin 3) (Fin.natAdd 64 k) j) (fun a => by
    match a with
    | ⟨0, _⟩ => rfl
    | ⟨1, _⟩ => rfl
    | ⟨2, _⟩ => exact (Nat.zero_add _).symm)

/-! Page `l` of the stacked biases as a one-row matrix. -/

theorem brow_0_apply (B : FVec Ideal S3x64 .f32) (j : Fin 64) :
    shapeCast S1x64 (shapeCast S64 (extractStridedSlice S1x64 ![0, 0] B slices_S3x64_S1x64_0_0) shapeCasts_S1x64_S64) shapeCasts_S64_S1x64
        (ix2 (0 : Fin 1) j)
      = B (ix2 (0 : Fin 3) j) := by
  refine (shapeCast_a_1a_apply _ _ (0 : Fin 1) j).trans ?_
  refine (shapeCast_1a_a_apply _ _ j).trans ?_
  exact extractStridedSlice_apply _ B _ (ix2 (0 : Fin 1) j) (ix2 (0 : Fin 3) j) (fun a => by
    match a with
    | ⟨0, _⟩ => rfl
    | ⟨1, _⟩ => exact (Nat.zero_add _).symm)

theorem brow_1_apply (B : FVec Ideal S3x64 .f32) (j : Fin 64) :
    shapeCast S1x64 (shapeCast S64 (extractStridedSlice S1x64 ![1, 0] B slices_S3x64_S1x64_1_0) shapeCasts_S1x64_S64) shapeCasts_S64_S1x64
        (ix2 (0 : Fin 1) j)
      = B (ix2 (1 : Fin 3) j) := by
  refine (shapeCast_a_1a_apply _ _ (0 : Fin 1) j).trans ?_
  refine (shapeCast_1a_a_apply _ _ j).trans ?_
  exact extractStridedSlice_apply _ B _ (ix2 (0 : Fin 1) j) (ix2 (1 : Fin 3) j) (fun a => by
    match a with
    | ⟨0, _⟩ => rfl
    | ⟨1, _⟩ => exact (Nat.zero_add _).symm)

theorem brow_2_apply (B : FVec Ideal S3x64 .f32) (j : Fin 64) :
    shapeCast S1x64 (shapeCast S64 (extractStridedSlice S1x64 ![2, 0] B slices_S3x64_S1x64_2_0) shapeCasts_S1x64_S64) shapeCasts_S64_S1x64
        (ix2 (0 : Fin 1) j)
      = B (ix2 (2 : Fin 3) j) := by
  refine (shapeCast_a_1a_apply _ _ (0 : Fin 1) j).trans ?_
  refine (shapeCast_1a_a_apply _ _ j).trans ?_
  exact extractStridedSlice_apply _ B _ (ix2 (0 : Fin 1) j) (ix2 (2 : Fin 3) j) (fun a => by
    match a with
    | ⟨0, _⟩ => rfl
    | ⟨1, _⟩ => exact (Nat.zero_add _).symm)

/-- A vector as a one-row matrix reads, at (0, j), the vector at j. -/
theorem prow_apply (b : FVec Ideal S64 .f32) (j : Fin 64) :
    shapeCast S1x64 b shapeCasts_S64_S1x64 (ix2 (0 : Fin 1) j) = b (ix1 j) :=
  shapeCast_a_1a_apply _ _ (0 : Fin 1) j

end Cert.KernelIdeal.HostAt

end
-- ==== Proof.KBridge.lean ====
/-
  The kernel program's stages and the reference's stages are the same functions of the inputs.

  The two programs spell the index plumbing with the same host operations: the rows of the edge list, the shift of a
  negative source id, the gather of source features and the scatter-add of messages into zeros agree term by term (the
  dimension records and side conditions are each program's own copies of the same data). The projection region's function
  is the reference's projection entry by entry. In layer l the message region's function, fed rows 0 … 63 and 64 … 79 of
  page l of the message weights and row l of the biases, is the reference's message stage fed the whole page: the
  reference's 80-term contraction, read at an entry, is already split into the sum over the first 64 rows plus the sum
  over the last 16, and each cut-out block reads the page at the matching row. The update region likewise with 64 + 64
  rows. Three layers composed give the whole result.
-/
import proofs.«134910_j29300266893460_1_alg».proof.Proof.KStage
import proofs.«134910_j29300266893460_1_alg».proof.Proof.RefAt
import proofs.«134910_j29300266893460_1_alg».proof.Proof.KHostAt
import proofs.«134910_j29300266893460_1_alg».proof.Proof.Gen.KernelIdeal
import proofs.«134910_j29300266893460_1_alg».proof.Proof.Gen.ReferenceIdeal

noncomputable section

open scoped BigOperators

namespace Cert.KernelIdeal.Bridge

open Idealize.ShloMosaic Idealize.ShloMosaic.ValueIdx Cert.KernelIdeal Cert.KernelIdeal.Fun

/-! ## The index plumbing: the same operations in both programs -/

theorem ids0_eq (ei : IVec S2x1600000 32) : Stage.ids0 ei = Cert.ReferenceIdeal.Spec.srcIds ei := rfl

theorem ids1_eq (ei : IVec S2x1600000 32) : Stage.ids1 ei = Cert.ReferenceIdeal.Spec.dstIds ei := rfl

theorem srcCol_eq (ei : IVec S2x1600000 32) : Stage.srcCol (Stage.ids0 ei) = Cert.ReferenceIdeal.Spec.srcCol ei := rfl

theorem gath_eq (h : FVec Ideal S100000x64 .f32) (ei : IVec S2x1600000 32) :
    Stage.gath h (Stage.ids0 ei) = Cert.ReferenceIdeal.Spec.gath (F := Ideal) h (Cert.ReferenceIdeal.Spec.srcCol ei) := rfl

theorem agg_eq (ei : IVec S2x1600000 32) (u : FVec Ideal S1600000x64 .f32) :
    Stage.agg (Stage.ids1 ei) u = Cert.ReferenceIdeal.Spec.agg (F := Ideal) (Cert.ReferenceIdeal.Spec.dstCol ei) u := rfl

/-! ## The projection -/

theorem h0_eq (x : FVec Ideal S100000x75 .f32) (pw : FVec Ideal S75x64 .f32) (pb : FVec Ideal S64 .f32) :
    Stage.h0 x pw pb = Cert.ReferenceIdeal.Spec.proj (F := Ideal) x pw pb := by
  funext i
  obtain ⟨r, j, rfl⟩ : ∃ (r : Fin 100000) (j : Fin 64), i = ix2 r j := ⟨i 0, i 1, eq_ix2 i⟩
  refine (Reg0.G_apply x pw (Stage.prow pb) r j).trans ?_
  refine Eq.trans ?_ (Cert.ReferenceIdeal.RefAt.proj_apply x pw pb r j).symm
  exact congrArg (_ + ·) (HostAt.prow_apply pb j)

/-! ## Layer 0 -/

theorem msg_0_eq (gh : FVec Ideal S1600000x64 .f32) (ea : FVec Ideal S1600000x16 .f32) (W2 : FVec Ideal S3x80x64 .f32)
    (B2 : FVec Ideal S3x64 .f32) :
    GM gh ea (Stage.wa2_0 W2) (Stage.wb2_0 W2) (Stage.brow_0 B2)
      = Cert.ReferenceIdeal.Spec.msg (F := Ideal) gh ea (Cert.ReferenceIdeal.Spec.w2_0 W2) (Cert.ReferenceIdeal.Spec.b_0 B2) := by
  funext i
  obtain ⟨e, j, rfl⟩ : ∃ (e : Fin 1600000) (j : Fin 64), i = ix2 e j := ⟨i 0, i 1, eq_ix2 i⟩
  refine (GM_apply gh ea _ _ _ e j).trans ?_
  refine Eq.trans ?_ (Cert.ReferenceIdeal.RefAt.msg_apply gh ea _ _ e j).symm
  refine congrArg Cert.ReferenceIdeal.Spec.leak ?_
  refine congrArg₂ (· + ·) (congrArg₂ (· + ·) (Finset.sum_congr rfl fun k _ => ?_) (Finset.sum_congr rfl fun k _ => ?_)) ?_
  · exact congrArg (gh (ix2 e k) * ·)
      ((HostAt.wa2_0_apply W2 k j).trans (Cert.ReferenceIdeal.RefAt.w2_0_apply W2 (Fin.castAdd 16 k) j).symm)
  · exact congrArg (ea (ix2 e k) * ·)
      ((HostAt.wb2_0_apply W2 k j).trans (Cert.ReferenceIdeal.RefAt.w2_0_apply W2 (Fin.natAdd 64 k) j).symm)
  · exact (HostAt.brow_0_apply B2 j).trans (Cert.ReferenceIdeal.RefAt.b_0_apply B2 j).symm

theorem upd_0_eq (h a : FVec Ideal S100000x64 .f32) (W1 : FVec Ideal S3x128x64 .f32) (B1 : FVec Ideal S3x64 .f32) :
    GU h a (Stage.wa1_0 W1) (Stage.wb1_0 W1) (Stage.brow_0 B1)
      = Cert.ReferenceIdeal.Spec.upd (F := Ideal) h a (Cert.ReferenceIdeal.Spec.w1_0 W1) (Cert.ReferenceIdeal.Spec.b_0 B1) := by
  funext i
  obtain ⟨r, j, rfl⟩ : ∃ (r : Fin 100000) (j : Fin 64), i = ix2 r j := ⟨i 0, i 1, eq_ix2 i⟩
  refine (GU_apply h a _ _ _ r j).trans ?_
  refine Eq.trans ?_ (Cert.ReferenceIdeal.RefAt.upd_apply h a _ _ r j).symm
  refine congrArg₂ (· + ·) (congrArg₂ (· + ·) (Finset.sum_congr rfl fun k _ => ?_) (Finset.sum_congr rfl fun k _ => ?_)) ?_
  · exact congrArg (h (ix2 r k) * ·)
      ((HostAt.wa1_0_apply W1 k j).trans (Cert.ReferenceIdeal.RefAt.w1_0_apply W1 (Fin.castAdd 64 k) j).symm)
  · exact congrArg (a (ix2 r k) * ·)
      ((HostAt.wb1_0_apply W1 k j).trans (Cert.ReferenceIdeal.RefAt.w1_0_apply W1 (Fin.natAdd 64 k) j).symm)
  · exact (HostAt.brow_0_apply B1 j).trans (Cert.ReferenceIdeal.RefAt.b_0_apply B1 j).symm

theorem layer_0_eq (h : FVec Ideal S100000x64 .f32) (ei : IVec S2x1600000 32) (ea : FVec Ideal S1600000x16 .f32)
    (W2 : FVec Ideal S3x80x64 .f32) (B2 : FVec Ideal S3x64 .f32) (W1 : FVec Ideal S3x128x64 .f32) (B1 : FVec Ideal S3x64 .f32) :
    Stage.layer_0 h (Stage.ids0 ei) (Stage.ids1 ei) ea W2 B2 W1 B1
      = Cert.ReferenceIdeal.Spec.layer (F := Ideal) h ei ea (Cert.ReferenceIdeal.Spec.w2_0 W2) (Cert.ReferenceIdeal.Spec.b_0 B2)
          (Cert.ReferenceIdeal.Spec.w1_0 W1) (Cert.ReferenceIdeal.Spec.b_0 B1) := by
  unfold Stage.layer_0 Cert.ReferenceIdeal.Spec.layer
  rw [gath_eq, msg_0_eq, agg_eq, upd_0_eq]

/-! ## Layer 1 -/

theorem msg_1_eq (gh : FVec Ideal S1600000x64 .f32) (ea : FVec Ideal S1600000x16 .f32) (W2 : FVec Ideal S3x80x64 .f32)
    (B2 : FVec Ideal S3x64 .f32) :
    GM gh ea (Stage.wa2_1 W2) (Stage.wb2_1 W2) (Stage.brow_1 B2)
      = Cert.ReferenceIdeal.Spec.msg (F := Ideal) gh ea (Cert.ReferenceIdeal.Spec.w2_1 W2) (Cert.ReferenceIdeal.Spec.b_1 B2) := by
  funext i
  obtain ⟨e, j, rfl⟩ : ∃ (e : Fin 1600000) (j : Fin 64), i = ix2 e j := ⟨i 0, i 1, eq_ix2 i⟩
  refine (GM_apply gh ea _ _ _ e j).trans ?_
  refine Eq.trans ?_ (Cert.ReferenceIdeal.RefAt.msg_apply gh ea _ _ e j).symm
  refine congrArg Cert.ReferenceIdeal.Spec.leak ?_
  refine congrArg₂ (· + ·) (congrArg₂ (· + ·) (Finset.sum_congr rfl fun k _ => ?_) (Finset.sum_congr rfl fun k _ => ?_)) ?_
  · exact congrArg (gh (ix2 e k) * ·)
      ((HostAt.wa2_1_apply W2 k j).trans (Cert.ReferenceIdeal.RefAt.w2_1_apply W2 (Fin.castAdd 16 k) j).symm)
  · exact congrArg (ea (ix2 e k) * ·)
      ((HostAt.wb2_1_apply W2 k j).trans (Cert.ReferenceIdeal.RefAt.w2_1_apply W2 (Fin.natAdd 64 k) j).symm)
  · exact (HostAt.brow_1_apply B2 j).trans (Cert.ReferenceIdeal.RefAt.b_1_apply B2 j).symm

theorem upd_1_eq (h a : FVec Ideal S100000x64 .f32) (W1 : FVec Ideal S3x128x64 .f32) (B1 : FVec Ideal S3x64 .f32) :
    GU h a (Stage.wa1_1 W1) (Stage.wb1_1 W1) (Stage.brow_1 B1)
      = Cert.ReferenceIdeal.Spec.upd (F := Ideal) h a (Cert.ReferenceIdeal.Spec.w1_1 W1) (Cert.ReferenceIdeal.Spec.b_1 B1) := by
  funext i
  obtain ⟨r, j, rfl⟩ : ∃ (r : Fin 100000) (j : Fin 64), i = ix2 r j := ⟨i 0, i 1, eq_ix2 i⟩
  refine (GU_apply h a _ _ _ r j).trans ?_
  refine Eq.trans ?_ (Cert.ReferenceIdeal.RefAt.upd_apply h a _ _ r j).symm
  refine congrArg₂ (· + ·) (congrArg₂ (· + ·) (Finset.sum_congr rfl fun k _ => ?_) (Finset.sum_congr rfl fun k _ => ?_)) ?_
  · exact congrArg (h (ix2 r k) * ·)
      ((HostAt.wa1_1_apply W1 k j).trans (Cert.ReferenceIdeal.RefAt.w1_1_apply W1 (Fin.castAdd 64 k) j).symm)
  · exact congrArg (a (ix2 r k) * ·)
      ((HostAt.wb1_1_apply W1 k j).trans (Cert.ReferenceIdeal.RefAt.w1_1_apply W1 (Fin.natAdd 64 k) j).symm)
  · exact (HostAt.brow_1_apply B1 j).trans (Cert.ReferenceIdeal.RefAt.b_1_apply B1 j).symm

theorem layer_1_eq (h : FVec Ideal S100000x64 .f32) (ei : IVec S2x1600000 32) (ea : FVec Ideal S1600000x16 .f32)
    (W2 : FVec Ideal S3x80x64 .f32) (B2 : FVec Ideal S3x64 .f32) (W1 : FVec Ideal S3x128x64 .f32) (B1 : FVec Ideal S3x64 .f32) :
    Stage.layer_1 h (Stage.ids0 ei) (Stage.ids1 ei) ea W2 B2 W1 B1
      = Cert.ReferenceIdeal.Spec.layer (F := Ideal) h ei ea (Cert.ReferenceIdeal.Spec.w2_1 W2) (Cert.ReferenceIdeal.Spec.b_1 B2)
          (Cert.ReferenceIdeal.Spec.w1_1 W1) (Cert.ReferenceIdeal.Spec.b_1 B1) := by
  unfold Stage.layer_1 Cert.ReferenceIdeal.Spec.layer
  rw [gath_eq, msg_1_eq, agg_eq, upd_1_eq]

/-! ## Layer 2 -/

theorem msg_2_eq (gh : FVec Ideal S1600000x64 .f32) (ea : FVec Ideal S1600000x16 .f32) (W2 : FVec Ideal S3x80x64 .f32)
    (B2 : FVec Ideal S3x64 .f32) :
    GM gh ea (Stage.wa2_2 W2) (Stage.wb2_2 W2) (Stage.brow_2 B2)
      = Cert.ReferenceIdeal.Spec.msg (F := Ideal) gh ea (Cert.ReferenceIdeal.Spec.w2_2 W2) (Cert.ReferenceIdeal.Spec.b_2 B2) := by
  funext i
  obtain ⟨e, j, rfl⟩ : ∃ (e : Fin 1600000) (j : Fin 64), i = ix2 e j := ⟨i 0, i 1, eq_ix2 i⟩
  refine (GM_apply gh ea _ _ _ e j).trans ?_
  refine Eq.trans ?_ (Cert.ReferenceIdeal.RefAt.msg_apply gh ea _ _ e j).symm
  refine congrArg Cert.ReferenceIdeal.Spec.leak ?_
  refine congrArg₂ (· + ·) (congrArg₂ (· + ·) (Finset.sum_congr rfl fun k _ => ?_) (Finset.sum_congr rfl fun k _ => ?_)) ?_
  · exact congrArg (gh (ix2 e k) * ·)
      ((HostAt.wa2_2_apply W2 k j).trans (Cert.ReferenceIdeal.RefAt.w2_2_apply W2 (Fin.castAdd 16 k) j).symm)
  · exact congrArg (ea (ix2 e k) * ·)
      ((HostAt.wb2_2_apply W2 k j).trans (Cert.ReferenceIdeal.RefAt.w2_2_apply W2 (Fin.natAdd 64 k) j).symm)
  · exact (HostAt.brow_2_apply B2 j).trans (Cert.ReferenceIdeal.RefAt.b_2_apply B2 j).symm

theorem upd_2_eq (h a : FVec Ideal S100000x64 .f32) (W1 : FVec Ideal S3x128x64 .f32) (B1 : FVec Ideal S3x64 .f32) :
    GU h a (Stage.wa1_2 W1) (Stage.wb1_2 W1) (Stage.brow_2 B1)
      = Cert.ReferenceIdeal.Spec.upd (F := Ideal) h a (Cert.ReferenceIdeal.Spec.w1_2 W1) (Cert.ReferenceIdeal.Spec.b_2 B1) := by
  funext i
  obtain ⟨r, j, rfl⟩ : ∃ (r : Fin 100000) (j : Fin 64), i = ix2 r j := ⟨i 0, i 1, eq_ix2 i⟩
  refine (GU_apply h a _ _ _ r j).trans ?_
  refine Eq.trans ?_ (Cert.ReferenceIdeal.RefAt.upd_apply h a _ _ r j).symm
  refine congrArg₂ (· + ·) (congrArg₂ (· + ·) (Finset.sum_congr rfl fun k _ => ?_) (Finset.sum_congr rfl fun k _ => ?_)) ?_
  · exact congrArg (h (ix2 r k) * ·)
      ((HostAt.wa1_2_apply W1 k j).trans (Cert.ReferenceIdeal.RefAt.w1_2_apply W1 (Fin.castAdd 64 k) j).symm)
  · exact congrArg (a (ix2 r k) * ·)
      ((HostAt.wb1_2_apply W1 k j).trans (Cert.ReferenceIdeal.RefAt.w1_2_apply W1 (Fin.natAdd 64 k) j).symm)
  · exact (HostAt.brow_2_apply B1 j).trans (Cert.ReferenceIdeal.RefAt.b_2_apply B1 j).symm

theorem layer_2_eq (h : FVec Ideal S100000x64 .f32) (ei : IVec S2x1600000 32) (ea : FVec Ideal S1600000x16 .f32)
    (W2 : FVec Ideal S3x80x64 .f32) (B2 : FVec Ideal S3x64 .f32) (W1 : FVec Ideal S3x128x64 .f32) (B1 : FVec Ideal S3x64 .f32) :
    Stage.layer_2 h (Stage.ids0 ei) (Stage.ids1 ei) ea W2 B2 W1 B1
      = Cert.ReferenceIdeal.Spec.layer (F := Ideal) h ei ea (Cert.ReferenceIdeal.Spec.w2_2 W2) (Cert.ReferenceIdeal.Spec.b_2 B2)
          (Cert.ReferenceIdeal.Spec.w1_2 W1) (Cert.ReferenceIdeal.Spec.b_2 B1) := by
  unfold Stage.layer_2 Cert.ReferenceIdeal.Spec.layer
  rw [gath_eq, msg_2_eq, agg_eq, upd_2_eq]

/-! ## The whole program -/

theorem result_eq (x : FVec Ideal S100000x75 .f32) (ei : IVec S2x1600000 32) (ea : FVec Ideal S1600000x16 .f32)
    (pw : FVec Ideal S75x64 .f32) (pb : FVec Ideal S64 .f32) (W2 : FVec Ideal S3x80x64 .f32) (B2 : FVec Ideal S3x64 .f32)
    (W1 : FVec Ideal S3x128x64 .f32) (B1 : FVec Ideal S3x64 .f32) :
    Cert.KernelIdeal.Stage.result x ei ea pw pb W2 B2 W1 B1
      = Cert.ReferenceIdeal.Spec.result (F := Ideal) x ei ea pw pb W2 B2 W1 B1 := by
  unfold Cert.KernelIdeal.Stage.result Cert.ReferenceIdeal.Spec.result
  rw [h0_eq, layer_0_eq, layer_1_eq, layer_2_eq]

end Cert.KernelIdeal.Bridge

end
-- ==== Proof.RefRun.lean ====
/-
  The reference's run. Its @main is a straight line of host operations once the outlined
  function `leaky_relu` (and the `_where` it calls) is substituted at its three call sites: the
  list `ops` below, in program order. Every weakly fair execution then terminates with each buffer
  at the fold of the operations over the launch contents; at the result buffer that fold is the
  network of `Spec.result` applied to the nine argument arrays, and at an argument buffer it is
  what was there, since no operation writes an argument.
-/
import proofs.«134910_j29300266893460_1_alg».proof.Proof.Spec
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- @main's operations in order, each call of `leaky_relu` replaced by its seven: the zero and its
    broadcast, the comparison, the slope converted to its own type and broadcast, the product, and
    `_where`'s select. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x75_S75x64_S100000x64_1_0_0_1_n_n none l r) : (⟨S100000x75, .f32⟩ : BufTy).Contents (Elt F) → (⟨S75x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v7 main_v13 main_v14 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v14 main_arg2 main_v15 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v16 ((extractStridedSlice S1x80x64 ![0, 0, 0] · slices_S3x80x64_S1x80x64_0_0_0) : (⟨S3x80x64, .f32⟩ : BufTy).Contents (Elt F) → (⟨S1x80x64, .f32⟩ : BufTy).Contents (Elt F)),
    reshape main_v16 main_v17 rfl shapeCasts_S1x80x64_S80x64,
    binary main_v15 main_v17 main_v18 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v19 ((extractStridedSlice S1x64 ![0, 0] · slices_S3x64_S1x64_0_0) : (⟨S3x64, .f32⟩ : BufTy).Contents (Elt F) → (⟨S1x64, .f32⟩ : BufTy).Contents (Elt F)),
    reshape main_v19 main_v20 rfl shapeCasts_S1x64_S64,
    unary main_v20 main_v21 (broadcastInDim S1x64 ![1] bcast_S64_S1x64_1 : (⟨S64, .f32⟩ : BufTy).Contents (Elt F) → (⟨S1x64, .f32⟩ : BufTy).Contents (Elt F)),
    unary main_v21 main_v22 (broadcastInDim S1600000x64 ![0, 1] bcast_S1x64_S1600000x64_0_1 : (⟨S1x64, .f32⟩ : BufTy).Contents (Elt F) → (⟨S1600000x64, .f32⟩ : BufTy).Contents (Elt F)),
    binary main_v18 main_v22 main_v23 (addf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x3DCCCCCD#32),
    TRef.nullary main_call0.cst (constant S_ .f32 0x00000000#32),
    TRef.unary main_call0.cst main_call0.v0 (broadcastInDim S1600000x64 ![] bcast_S_S1600000x64),
    TRef.binary (.of main_v23 : TRef sig ⟨S1600000x64, .f32⟩) main_call0.v0 main_call0.v1 (cmpf .oge),
    TRef.unary (.of main_cst : TRef sig ⟨S_, .f32⟩) main_call0.v2 id,
    TRef.unary main_call0.v2 main_call0.v3 (broadcastInDim S1600000x64 ![] bcast_S_S1600000x64),
    TRef.binary main_call0.v3 (.of main_v23 : TRef sig ⟨S1600000x64, .f32⟩) main_call0.v4 mulf,
    TRef.ternary main_call0.v1 (.of main_v23 : TRef sig ⟨S1600000x64, .f32⟩) main_call0.v4 main_call0.call0.v0 select,
    nullary main_cst_1 (constant S_ .f32 0x00000000#32),
    unary main_cst_1 main_v25 (broadcastInDim S100000x64 ![] bcast_S_S100000x64 : (⟨S_, .f32⟩ : BufTy).Contents (Elt F) → (⟨S100000x64, .f32⟩ : BufTy).Contents (Elt F)),
    unary main_v3 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v7 main_v27 main_v28 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v29 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v29 main_v30 rfl shapeCasts_S1x128x64_S128x64,
    binary main_v28 main_v30 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v31 main_v35 main_v36 (addf : (⟨S100000x64, .f32⟩ : BufTy).Contents (Elt F) → (⟨S100000x64, .f32⟩ : BufTy).Contents (Elt F) → (⟨S100000x64, .f32⟩ : BufTy).Contents (Elt F)),
    nullary main_c_2 (constantI S_ 32 0#32),
    unary main_c_2 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v43 main_arg2 main_v44 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v45 ((extractStridedSlice S1x80x64 ![1, 0, 0] · slices_S3x80x64_S1x80x64_1_0_0) : (⟨S3x80x64, .f32⟩ : BufTy).Contents (Elt F) → (⟨S1x80x64, .f32⟩ : BufTy).Contents (Elt F)),
    reshape main_v45 main_v46 rfl shapeCasts_S1x80x64_S80x64,
    binary main_v44 main_v46 main_v47 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v48 ((extractStridedSlice S1x64 ![1, 0] · slices_S3x64_S1x64_1_0) : (⟨S3x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S1600000x64 ![0, 1] bcast_S1x64_S1600000x64_0_1 : (⟨S1x64, .f32⟩ : BufTy).Contents (Elt F) → (⟨S1600000x64, .f32⟩ : BufTy).Contents (Elt F)),
    binary main_v47 main_v51 main_v52 (addf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x3DCCCCCD#32),
    TRef.nullary main_call1.cst (constant S_ .f32 0x00000000#32),
    TRef.unary main_call1.cst main_call1.v0 (broadcastInDim S1600000x64 ![] bcast_S_S1600000x64),
    TRef.binary (.of main_v52 : TRef sig ⟨S1600000x64, .f32⟩) main_call1.v0 main_call1.v1 (cmpf .oge),
    TRef.unary (.of main_cst_4 : TRef sig ⟨S_, .f32⟩) main_call1.v2 id,
    TRef.unary main_call1.v2 main_call1.v3 (broadcastInDim S1600000x64 ![] bcast_S_S1600000x64),
    TRef.binary main_call1.v3 (.of main_v52 : TRef sig ⟨S1600000x64, .f32⟩) main_call1.v4 mulf,
    TRef.ternary main_call1.v1 (.of main_v52 : TRef sig ⟨S1600000x64, .f32⟩) main_call1.v4 main_call1.call0.v0 select,
    nullary main_cst_5 (constant S_ .f32 0x00000000#32),
    unary main_cst_5 main_v54 (broadcastInDim S100000x64 ![] bcast_S_S100000x64 : (⟨S_, .f32⟩ : BufTy).Contents (Elt F) → (⟨S100000x64, .f32⟩ : BufTy).Contents (Elt F)),
    unary main_v3 main_v55 (broadcastInDim S1600000x1 ![0] bcast_S1600000_S1600000x1_0 : (⟨S1600000, .i32⟩ : BufTy).Contents (Elt F) → (⟨S1600000x1, .i32⟩ : BufTy).Contents (Elt F)),
    ternary main_v54 main_v55 main_v53 main_v56 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v36 main_v56 main_v57 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v58 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v58 main_v59 rfl shapeCasts_S1x128x64_S128x64,
    binary main_v57 main_v59 main_v60 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v61 ((extractStridedSlice S1x64 ![1, 0] · slices_S3x64_S1x64_1_0) : (⟨S3x64, .f32⟩ : BufTy).Contents (Elt F) → (⟨S1x64, .f32⟩ : BufTy).Contents (Elt F)),
    reshape main_v61 main_v62 rfl shapeCasts_S1x64_S64,
    unary main_v62 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v60 main_v64 main_v65 (addf : (⟨S100000x64, .f32⟩ : BufTy).Contents (Elt F) → (⟨S100000x64, .f32⟩ : BufTy).Contents (Elt F) → (⟨S100000x64, .f32⟩ : BufTy).Contents (Elt F)),
    nullary main_c_6 (constantI S_ 32 0#32),
    unary main_c_6 main_v66 (broadcastInDim S1600000 ![] bcast_S_S1600000 : (⟨S_, .i32⟩ : BufTy).Contents (Elt F) → (⟨S1600000, .i32⟩ : BufTy).Contents (Elt F)),
    binary main_v1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v68 (broadcastInDim S1600000 ![] bcast_S_S1600000 : (⟨S_, .i32⟩ : BufTy).Contents (Elt F) → (⟨S1600000, .i32⟩ : BufTy).Contents (Elt F)),
    binary main_v1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v65 main_v71 main_v72 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v72 main_arg2 main_v73 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v74 ((extractStridedSlice S1x80x64 ![2, 0, 0] · slices_S3x80x64_S1x80x64_2_0_0) : (⟨S3x80x64, .f32⟩ : BufTy).Contents (Elt F) → (⟨S1x80x64, .f32⟩ : BufTy).Contents (Elt F)),
    reshape main_v74 main_v75 rfl shapeCasts_S1x80x64_S80x64,
    binary main_v73 main_v75 main_v76 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v77 ((extractStridedSlice S1x64 ![2, 0] · slices_S3x64_S1x64_2_0) : (⟨S3x64, .f32⟩ : BufTy).Contents (Elt F) → (⟨S1x64, .f32⟩ : BufTy).Contents (Elt F)),
    reshape main_v77 main_v78 rfl shapeCasts_S1x64_S64,
    unary main_v78 main_v79 (broadcastInDim S1x64 ![1] bcast_S64_S1x64_1 : (⟨S64, .f32⟩ : BufTy).Contents (Elt F) → (⟨S1x64, .f32⟩ : BufTy).Contents (Elt F)),
    unary main_v79 main_v80 (broadcastInDim S1600000x64 ![0, 1] bcast_S1x64_S1600000x64_0_1 : (⟨S1x64, .f32⟩ : BufTy).Contents (Elt F) → (⟨S1600000x64, .f32⟩ : BufTy).Contents (Elt F)),
    binary main_v76 main_v80 main_v81 (addf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x3DCCCCCD#32),
    TRef.nullary main_call2.cst (constant S_ .f32 0x00000000#32),
    TRef.unary main_call2.cst main_call2.v0 (broadcastInDim S1600000x64 ![] bcast_S_S1600000x64),
    TRef.binary (.of main_v81 : TRef sig ⟨S1600000x64, .f32⟩) main_call2.v0 main_call2.v1 (cmpf .oge),
    TRef.unary (.of main_cst_8 : TRef sig ⟨S_, .f32⟩) main_call2.v2 id,
    TRef.unary main_call2.v2 main_call2.v3 (broadcastInDim S1600000x64 ![] bcast_S_S1600000x64),
    TRef.binary main_call2.v3 (.of main_v81 : TRef sig ⟨S1600000x64, .f32⟩) main_call2.v4 mulf,
    TRef.ternary main_call2.v1 (.of main_v81 : TRef sig ⟨S1600000x64, .f32⟩) main_call2.v4 main_call2.call0.v0 select,
    nullary main_cst_9 (constant S_ .f32 0x00000000#32),
    unary main_cst_9 main_v83 (broadcastInDim S100000x64 ![] bcast_S_S100000x64 : (⟨S_, .f32⟩ : BufTy).Contents (Elt F) → (⟨S100000x64, .f32⟩ : BufTy).Contents (Elt F)),
    unary main_v3 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v82 main_v85 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v65 main_v85 main_v86 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v87 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v87 main_v88 rfl shapeCasts_S1x128x64_S128x64,
    binary main_v86 main_v88 main_v89 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v90 ((extractStridedSlice S1x64 ![2, 0] · slices_S3x64_S1x64_2_0) : (⟨S3x64, .f32⟩ : BufTy).Contents (Elt F) → (⟨S1x64, .f32⟩ : BufTy).Contents (Elt F)),
    reshape main_v90 main_v91 rfl shapeCasts_S1x64_S64,
    unary main_v91 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v89 main_v93 main_v94 (addf : (⟨S100000x64, .f32⟩ : BufTy).Contents (Elt F) → (⟨S100000x64, .f32⟩ : BufTy).Contents (Elt F) → (⟨S100000x64, .f32⟩ : BufTy).Contents (Elt F)) ]

-- one bind per statement is re-associated: the rewriting recurses once per statement
set_option maxRecDepth 8192 in
set_option maxHeartbeats 4000000 in
/-- @main is that straight line: the two windows and the functions' bodies unfolded, both sides are
    one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub ..⟩

/-- From any memory with zero counters every weakly fair execution of @main terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd concatenate in
set_option maxRecDepth 16384 in
set_option maxHeartbeats 4000000 in
/-- The fold at the result buffer is the network of the nine arguments: each operation's result read at
    its own buffer is its function of its operands' contents, at any other buffer what was there, and the
    composed term is `Spec.result` by unfolding its stages. -/
theorem out_eq (V : Valuation τ sig (Elt F)) :
    after ops V (main_v94 : DevRef τ sig)
      = Spec.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! No operation writes an argument buffer: each keeps its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-- From any memory with zero counters, for any float values: every weakly fair execution of @main
    terminates with the result buffer at `Spec.result` of the nine arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94)
        = Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v94).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefRun

end
-- ==== Proof.lean ====
/-
  The certificate's claims for the graph network kernel against its jnp reference.

  The kernel program runs seven Pallas regions — an input projection, then three times a per-edge message kernel and a
  per-node update kernel — among host gathers, scatter-adds and weight slices; the reference is the same network written
  with concatenations: each message is `leaky (concat (h[src], e) · W₂ + b₂)`, each update `concat (h, Σ messages) · W₁ + b₁`.
  The kernels multiply the two halves of each concatenation by the matching rows of the weights and add the products.
  On the extended reals a sum over the 80 (128) concatenated columns is the sum over the first 64 plus the sum over the
  rest — addition there is commutative and associative, so no finiteness is used — and everything else (the gather and its
  index wrap, the scatter-add, the leaky choice, the biases) is the same operation on both sides.

  * the frames of the two kernel programs are the generated ones, the reference's is its run with the result dropped;
  * the ideal pass rewrote nothing, so `preserves` is `True`;
  * `algebraic`: the kernel's run ends with its result at the last region's array (Proof/KRun.lean), which is the three
    layers over the projection (Proof/KChain.lean over the region values of Proof/KReg0–6.lean); the reference's run ends
    at its own composed term (Proof/RefRun.lean, Proof/Spec.lean); the two are one function of the arguments
    (Proof/KBridge.lean over Proof/RefAt.lean and Proof/KHostAt.lean).
-/
import proofs.«134910_j29300266893460_1_alg».proof.Defs
import proofs.«134910_j29300266893460_1_alg».proof.Proof.Gen.Kernel
import proofs.«134910_j29300266893460_1_alg».proof.Proof.Gen.Kernel.Frame
import proofs.«134910_j29300266893460_1_alg».proof.Proof.Gen.KernelIdeal
import proofs.«134910_j29300266893460_1_alg».proof.Proof.Gen.KernelIdeal.Frame
import proofs.«134910_j29300266893460_1_alg».proof.Proof.Gen.ReferenceIdeal
import proofs.«134910_j29300266893460_1_alg».proof.Proof.Gen.Pre_finite_inputs
import proofs.«134910_j29300266893460_1_alg».proof.Proof.KRun
import proofs.«134910_j29300266893460_1_alg».proof.Proof.KChain
import proofs.«134910_j29300266893460_1_alg».proof.Proof.KBridge
import proofs.«134910_j29300266893460_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference terminates without a fault and leaves its arguments alone: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the nine arguments both programs run, and both results are the network's function of those
    arguments: the kernel's by its regions and host stretches, the reference's by its operations, joined by the split of
    each concatenated contraction into its two halves. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stage.result (Cert.KernelIdeal.Chain.A0 m c) (Cert.KernelIdeal.Chain.A1 m c) (Cert.KernelIdeal.Chain.A2 m c)
    (Cert.KernelIdeal.Chain.A3 m c) (Cert.KernelIdeal.Chain.A4 m c) (Cert.KernelIdeal.Chain.A5 m c) (Cert.KernelIdeal.Chain.A6 m c)
    (Cert.KernelIdeal.Chain.A7 m c) (Cert.KernelIdeal.Chain.A8 m c), ?_, ?_⟩
  · exact (θ_run Cert.KernelIdeal.defs _ _).mono
      (fun r h c => ⟨(h c).1.trans (Cert.KernelIdeal.Chain.value m ρ c), (h c).2⟩) (Cert.KernelIdeal.Run.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8⟩ := hagree c
    rw [e0, e1, e2, e3, e4, e5, e6, e7, e8]
    exact (Cert.KernelIdeal.Bridge.result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
